-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x4096x1024 .f32) (main_arg1 : FVec F S8x4096x1024 .f32) (main_arg2 : FVec F S8x4096x1024 .f32) (main_arg3 : FVec F S1024 .f32) (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x4096x1024 : Shape := ⟨3, ![8, 4096, 1024]⟩
abbrev S1024 : Shape := ⟨1, ![1024]⟩
abbrev S1x1024 : Shape := ⟨2, ![1, 1024]⟩
abbrev S8x4x256x256 : Shape := ⟨4, ![8, 4, 256, 256]⟩
abbrev S1x2048x1024 : Shape := ⟨3, ![1, 2048, 1024]⟩
abbrev S1x4x256x256 : Shape := ⟨4, ![1, 4, 256, 256]⟩
abbrev S4x256x256 : Shape := ⟨3, ![4, 256, 256]⟩
abbrev S2048x1024 : Shape := ⟨2, ![2048, 1024]⟩
abbrev S2048x256 : Shape := ⟨2, ![2048, 256]⟩
abbrev S256x256 : Shape := ⟨2, ![256, 256]⟩
abbrev S1x256x256 : Shape := ⟨3, ![1, 256, 256]⟩
abbrev S4x256 : Shape := ⟨2, ![4, 256]⟩
abbrev S4x256x1 : Shape := ⟨3, ![4, 256, 1]⟩
abbrev S1x1x256x256 : Shape := ⟨4, ![1, 1, 256, 256]⟩
abbrev S2048x512 : Shape := ⟨2, ![2048, 512]⟩
abbrev S512x256 : Shape := ⟨2, ![512, 256]⟩
abbrev S256 : Shape := ⟨1, ![256]⟩
abbrev S1x256 : Shape := ⟨2, ![1, 256]⟩
abbrev S1x2048x256 : Shape := ⟨3, ![1, 2048, 256]⟩

abbrev nBuf : Space → Nat
  | .hbm => 34
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S8x4x256x256, .f32⟩
  | .hbm, ⟨26, _⟩ => ⟨S8x4x256x256, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x4x256x256, .f32⟩
  | .local _ .vmem, ⟨13, _⟩ => ⟨S1x4x256x256, .f32⟩
  | .local _ .vmem, ⟨14, _⟩ => ⟨S1x4x256x256, .f32⟩
  | .local _ .vmem, ⟨15, _⟩ => ⟨S1x4x256x256, .f32⟩
  | .local _ .vmem, ⟨16, _⟩ => ⟨S4x256x256, .f32⟩
  | .local _ .vmem, ⟨17, _⟩ => ⟨S4x256x256, .f32⟩
  | .local _ .vmem, ⟨18, _⟩ => ⟨S1x2048x1024, .f32⟩
  | .local _ .vmem, ⟨19, _⟩ => ⟨S1x2048x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x4x256x256, .f32⟩
  | .local _ .vmem, ⟨27, _⟩ => ⟨S1x4x256x256, .f32⟩
  | .local _ .vmem, ⟨28, _⟩ => ⟨S1x4x256x256, .f32⟩
  | .local _ .vmem, ⟨29, _⟩ => ⟨S1x4x256x256, .f32⟩
  | .local _ .vmem, ⟨30, _⟩ => ⟨S1x2048x1024, .f32⟩
  | .local _ .vmem, ⟨31, _⟩ => ⟨S1x2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v119 : BitVec 1 := Scalar.cmpi .eq arg1 c1_i32
  let v120 : BitVec 32 := Scalar.extui v119
  let c0_i32_74 : BitVec 32 := 0#32
  let v121 : BitVec 1 := Scalar.cmpi .ne v120 c0_i32_74
  v121

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x4x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x4x256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x2048x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  shapeCasts_S1024_S1x1024 : S1024.ShapeCasts S1x1024
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S2048x1024 : S1x1024.Broadcasts S2048x1024
  slices_S2048x1024_o0_0_S2048x256 : S2048x1024.Slices ![0, 0] S2048x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  shapeCasts_S256x256_S1x256x256 : S256x256.ShapeCasts S1x256x256
  slices_S2048x1024_o0_256_S2048x256 : S2048x1024.Slices ![0, 256] S2048x256
  inb_S4x256x256_S1x256x256_1_0_0 : ∀ a, (![1, 0, 0] : Fin 3 → Nat) a + S1x256x256.size a ≤ S4x256x256.size a
  slices_S2048x1024_o0_512_S2048x256 : S2048x1024.Slices ![0, 512] S2048x256
  inb_S4x256x256_S1x256x256_2_0_0 : ∀ a, (![2, 0, 0] : Fin 3 → Nat) a + S1x256x256.size a ≤ S4x256x256.size a
  slices_S2048x1024_o0_768_S2048x256 : S2048x1024.Slices ![0, 768] S2048x256
  inb_S4x256x256_S1x256x256_3_0_0 : ∀ a, (![3, 0, 0] : Fin 3 → Nat) a + S1x256x256.size a ≤ S4x256x256.size a
  reduces_S4x256x256_S4x256 : S4x256x256.Reduces [2] S4x256
  shapeCasts_S4x256_S4x256x1 : S4x256.ShapeCasts S4x256x1
  broadcasts_S4x256x1_S4x256x256 : S4x256x1.Broadcasts S4x256x256
  transposes_S4x256x256_p0_2_1_S4x256x256 : S4x256x256.Transposes [0, 2, 1] S4x256x256
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S1x4x256x256 : S4x256x256.ShapeCasts S1x4x256x256
  inb_S1x4x256x256_S1x1x256x256_0_0_0_0 : ∀ a, (![0, 0, 0, 0] : Fin 4 → Nat) a + S1x1x256x256.size a ≤ S1x4x256x256.size a
  h_S1x1x256x256 : 0 < S1x1x256x256.numel
  shapeCasts_S1x1x256x256_S256x256 : S1x1x256x256.ShapeCasts S256x256
  concatenates_S2048x256_S2048x256_S2048x512_d1 : Shape.Concatenates [S2048x256, S2048x256] S2048x512 1
  concatenates_S256x256_S256x256_S512x256_d0 : Shape.Concatenates [S256x256, S256x256] S512x256 0
  slices_S1024_o0_S256 : S1024.Slices ![0] S256
  shapeCasts_S256_S1x256 : S256.ShapeCasts S1x256
  broadcasts_S1x256_S2048x256 : S1x256.Broadcasts S2048x256
  inb_S1x2048x1024_S1x2048x256_0_0_0 : ∀ a, (![0, 0, 0] : Fin 3 → Nat) a + S1x2048x256.size a ≤ S1x2048x1024.size a
  h_S1x2048x256 : 0 < S1x2048x256.numel
  shapeCasts_S1x2048x256_S2048x256 : S1x2048x256.ShapeCasts S2048x256
  shapeCasts_S2048x256_S1x2048x256 : S2048x256.ShapeCasts S1x2048x256
  inb_S1x4x256x256_S1x1x256x256_0_1_0_0 : ∀ a, (![0, 1, 0, 0] : Fin 4 → Nat) a + S1x1x256x256.size a ≤ S1x4x256x256.size a
  slices_S1024_o256_S256 : S1024.Slices ![256] S256
  inb_S1x2048x1024_S1x2048x256_0_0_256 : ∀ a, (![0, 0, 256] : Fin 3 → Nat) a + S1x2048x256.size a ≤ S1x2048x1024.size a
  inb_S1x4x256x256_S1x1x256x256_0_2_0_0 : ∀ a, (![0, 2, 0, 0] : Fin 4 → Nat) a + S1x1x256x256.size a ≤ S1x4x256x256.size a
  slices_S1024_o512_S256 : S1024.Slices ![512] S256
  inb_S1x2048x1024_S1x2048x256_0_0_512 : ∀ a, (![0, 0, 512] : Fin 3 → Nat) a + S1x2048x256.size a ≤ S1x2048x1024.size a
  inb_S1x4x256x256_S1x1x256x256_0_3_0_0 : ∀ a, (![0, 3, 0, 0] : Fin 4 → Nat) a + S1x1x256x256.size a ≤ S1x4x256x256.size a
  slices_S1024_o768_S256 : S1024.Slices ![768] S256
  inb_S1x2048x1024_S1x2048x256_0_0_768 : ∀ a, (![0, 0, 768] : Fin 3 → Nat) a + S1x2048x256.size a ≤ S1x2048x1024.size a
  dot_S2048x256_S2048x256_S256x256_0_0_1_1_n_n_wf : DotDims.WF S2048x256 S2048x256 S256x256 [0] [0] [1] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x4096x1024.size a
  hwx0_1 : ∀ i : grid0.Coords, EltTy.bits .f32 = 32 ∨ (Rect.block (s := S8x4096x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x4x256x256.size a ≤ S8x4x256x256.size a
  hwx0_10 : ∀ i : grid0.Coords, EltTy.bits .f32 = 32 ∨ (Rect.block (s := S8x4x256x256) S1x4x256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4x256x256.size a ≤ S8x4x256x256.size a
  hwx0_11 : ∀ i : grid0.Coords, EltTy.bits .f32 = 32 ∨ (Rect.block (s := S8x4x256x256) S1x4x256x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x4096x1024.size a
  hwx1_0 : ∀ i : grid1.Coords, EltTy.bits .f32 = 32 ∨ (Rect.block (s := S8x4096x1024) S1x2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x4x256x256.size a ≤ S8x4x256x256.size a
  hwx1_7 : ∀ i : grid1.Coords, EltTy.bits .f32 = 32 ∨ (Rect.block (s := S8x4x256x256) S1x4x256x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x4x256x256.size a ≤ S8x4x256x256.size a
  hwx1_8 : ∀ i : grid1.Coords, EltTy.bits .f32 = 32 ∨ (Rect.block (s := S8x4x256x256) S1x4x256x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x2048x1024.size a ≤ S8x4096x1024.size a
  hwx1_9 : ∀ i : grid1.Coords, EltTy.bits .f32 = 32 ∨ (Rect.block (s := S8x4096x1024) S1x2048x1024.size (cc1_transform_9 i) (hinb1_9 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S1x4x256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S1x4x256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_arg2) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8_0) S1x4x256x256.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_1) S1x4x256x256.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1x2048x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S1x1x1024 : Shape := ⟨3, ![1, 1, 1024]⟩
abbrev S8x4096x4x256 : Shape := ⟨4, ![8, 4096, 4, 256]⟩
abbrev S8x4x256x4096 : Shape := ⟨4, ![8, 4, 256, 4096]⟩
abbrev S8x4x256x256 : Shape := ⟨4, ![8, 4, 256, 256]⟩
abbrev S_ : Shape := ⟨0, ![]⟩
abbrev S8x4x256 : Shape := ⟨3, ![8, 4, 256]⟩
abbrev S8x4x256x1 : Shape := ⟨4, ![8, 4, 256, 1]⟩

abbrev nBuf : Space → Nat
  | .hbm => 114
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S8x4096x4x256, .f32⟩
  | .hbm, ⟨36, _⟩ => ⟨S8x4x256x4096, .f32⟩
  | .hbm, ⟨37, _⟩ => ⟨S8x4096x4x256, .f32⟩
  | .hbm, ⟨38, _⟩ => ⟨S8x4x256x4096, .f32⟩
  | .hbm, ⟨39, _⟩ => ⟨S8x4096x4x256, .f32⟩
  | .hbm, ⟨40, _⟩ => ⟨S8x4x256x4096, .f32⟩
  | .hbm, ⟨41, _⟩ => ⟨S8x4x256x256, .f32⟩
  | .hbm, ⟨42, _⟩ => ⟨S_, .f32⟩
  | .hbm, ⟨43, _⟩ => ⟨S8x4x256x256, .f32⟩
  | .hbm, ⟨44, _⟩ => ⟨S8x4x256x256, .f32⟩
  | .hbm, ⟨45, _⟩ => ⟨S_, .f32⟩
  | .hbm, ⟨46, _⟩ => ⟨S8x4x256, .f32⟩
  | .hbm, ⟨47, _⟩ => ⟨S_, .f32⟩
  | .hbm, ⟨48, _⟩ => ⟨S8x4x256, .f32⟩
  | .hbm, ⟨49, _⟩ => ⟨S8x4x256, .f32⟩
  | .hbm, ⟨50, _⟩ => ⟨S8x4x256x1, .f32⟩
  | .hbm, ⟨51, _⟩ => ⟨S8x4x256x256, .f32⟩
  | .hbm, ⟨52, _⟩ => ⟨S8x4x256x256, .f32⟩
  | .hbm, ⟨53, _⟩ => ⟨S8x4x256x256, .f32⟩
  | .hbm, ⟨54, _⟩ => ⟨S_, .f32⟩
  | .hbm, ⟨55, _⟩ => ⟨S8x4x256, .f32⟩
  | .hbm, ⟨56, _⟩ => ⟨S8x4x256x1, .f32⟩
  | .hbm, ⟨57, _⟩ => ⟨S8x4x256x256, .f32⟩
  | .hbm, ⟨58, _⟩ => ⟨S8x4x256x256, .f32⟩
  | .hbm, ⟨59, _⟩ => ⟨S8x4x256x4096, .f32⟩
  | .hbm, ⟨60, _⟩ => ⟨S8x4096x4x256, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S8x4096x4x256, .f32⟩
  | .hbm, ⟨81, _⟩ => ⟨S8x4x256x4096, .f32⟩
  | .hbm, ⟨82, _⟩ => ⟨S8x4096x4x256, .f32⟩
  | .hbm, ⟨83, _⟩ => ⟨S8x4x256x4096, .f32⟩
  | .hbm, ⟨84, _⟩ => ⟨S8x4096x4x256, .f32⟩
  | .hbm, ⟨85, _⟩ => ⟨S8x4x256x4096, .f32⟩
  | .hbm, ⟨86, _⟩ => ⟨S8x4x256x256, .f32⟩
  | .hbm, ⟨87, _⟩ => ⟨S_, .f32⟩
  | .hbm, ⟨88, _⟩ => ⟨S8x4x256x256, .f32⟩
  | .hbm, ⟨89, _⟩ => ⟨S8x4x256x256, .f32⟩
  | .hbm, ⟨90, _⟩ => ⟨S_, .f32⟩
  | .hbm, ⟨91, _⟩ => ⟨S8x4x256, .f32⟩
  | .hbm, ⟨92, _⟩ => ⟨S_, .f32⟩
  | .hbm, ⟨93, _⟩ => ⟨S8x4x256, .f32⟩
  | .hbm, ⟨94, _⟩ => ⟨S8x4x256, .f32⟩
  | .hbm, ⟨95, _⟩ => ⟨S8x4x256x1, .f32⟩
  | .hbm, ⟨96, _⟩ => ⟨S8x4x256x256, .f32⟩
  | .hbm, ⟨97, _⟩ => ⟨S8x4x256x256, .f32⟩
  | .hbm, ⟨98, _⟩ => ⟨S8x4x256x256, .f32⟩
  | .hbm, ⟨99, _⟩ => ⟨S_, .f32⟩
  | .hbm, ⟨100, _⟩ => ⟨S8x4x256, .f32⟩
  | .hbm, ⟨101, _⟩ => ⟨S8x4x256x1, .f32⟩
  | .hbm, ⟨102, _⟩ => ⟨S8x4x256x256, .f32⟩
  | .hbm, ⟨103, _⟩ => ⟨S8x4x256x256, .f32⟩
  | .hbm, ⟨104, _⟩ => ⟨S8x4x256x4096, .f32⟩
  | .hbm, ⟨105, _⟩ => ⟨S8x4096x4x256, .f32⟩
  | .hbm, ⟨106, _⟩ => ⟨S8x4096x1024, .f32⟩
  | .hbm, ⟨107, _⟩ => ⟨S8x4096x1024, .f32⟩
  | .hbm, ⟨108, _⟩ => ⟨S1x1x1024, .f32⟩
  | .hbm, ⟨109, _⟩ => ⟨S8x4096x1024, .f32⟩
  | .hbm, ⟨110, _⟩ => ⟨S8x4096x1024, .f32⟩
  | .hbm, ⟨111, _⟩ => ⟨S1x1x1024, .f32⟩
  | .hbm, ⟨112, _⟩ => ⟨S8x4096x1024, .f32⟩
  | .hbm, ⟨113, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_3 : Ref sig .tc := ⟨.hbm, 87, rfl⟩
abbrev main_v66 : Ref sig .tc := ⟨.hbm, 88, rfl⟩
abbrev main_v67 : Ref sig .tc := ⟨.hbm, 89, rfl⟩
abbrev main_cst_4 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_6 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  shapeCasts_S8x4096x1024_S8x4096x4x256 : S8x4096x1024.ShapeCasts S8x4096x4x256
  transposes_S8x4096x4x256_S8x4x256x4096_0_2_3_1 : S8x4096x4x256.Transposes [0, 2, 3, 1] S8x4x256x4096
  bcast_S_S8x4x256x256 : S_.BroadcastsInDim S8x4x256x256 (![] : Fin 0 → Fin S8x4x256x256.rank)
  reducesTo_S8x4x256x256_S8x4x256_d3 : S8x4x256x256.ReducesTo [3] S8x4x256
  h_S_ : 0 < S_.numel
  bcast_S_S8x4x256 : S_.BroadcastsInDim S8x4x256 (![] : Fin 0 → Fin S8x4x256.rank)
  bcast_S8x4x256_S8x4x256x1_0_1_2 : S8x4x256.BroadcastsInDim S8x4x256x1 (![0, 1, 2] : Fin 3 → Fin S8x4x256x1.rank)
  bcast_S8x4x256x1_S8x4x256x256_0_1_2_3 : S8x4x256x1.BroadcastsInDim S8x4x256x256 (![0, 1, 2, 3] : Fin 4 → Fin S8x4x256x256.rank)
  transposes_S8x4x256x4096_S8x4096x4x256_0_3_1_2 : S8x4x256x4096.Transposes [0, 3, 1, 2] S8x4096x4x256
  shapeCasts_S8x4096x4x256_S8x4096x1024 : S8x4096x4x256.ShapeCasts S8x4096x1024
  dot_S8x4x256x4096_S8x4x256x4096_S8x4x256x256_3_3_2_2_01_01_wf : DotDims.WF S8x4x256x4096 S8x4x256x4096 S8x4x256x256 [3] [3] [2] [2] [0, 1] [0, 1]
  dot_S8x4x256x256_S8x4x256x4096_S8x4x256x4096_3_2_2_3_01_01_wf : DotDims.WF S8x4x256x256 S8x4x256x4096 S8x4x256x4096 [3] [2] [2] [3] [0, 1] [0, 1]

variable [Facts₀]

def dot_S8x4x256x4096_S8x4x256x4096_S8x4x256x256_3_3_2_2_01_01 : DotDims S8x4x256x4096 S8x4x256x4096 S8x4x256x256 where
  lhsContracting := [3]
  rhsContracting := [3]
  lhsNonContracting := [2]
  rhsNonContracting := [2]
  lhsBatch := [0, 1]
  rhsBatch := [0, 1]
  wf := dot_S8x4x256x4096_S8x4x256x4096_S8x4x256x256_3_3_2_2_01_01_wf
def dot_S8x4x256x256_S8x4x256x4096_S8x4x256x4096_3_2_2_3_01_01 : DotDims S8x4x256x256 S8x4x256x4096 S8x4x256x4096 where
  lhsContracting := [3]
  rhsContracting := [2]
  lhsNonContracting := [2]
  rhsNonContracting := [3]
  lhsBatch := [0, 1]
  rhsBatch := [0, 1]
  wf := dot_S8x4x256x256_S8x4x256x4096_S8x4x256x4096_3_2_2_3_01_01_wf

class Facts : Prop extends Facts₀ where

variable [Facts]
-- ==== Proof.KBRegion0Runs.lean ====
import proofs.«175229_j12481174962662_2_alg».proof.Proof.Gen.Kernel.Launch
import proofs.«175229_j12481174962662_2_alg».proof.Proof.Gen.Kernel.Skeleton
import proofs.«175229_j12481174962662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The score region (the first pallas_call): what its two control cases are stated over

The grid is 8 × 2: point `t` is batch `t / 2`, token tile `t % 2`. At an even point the body resets the two
score accumulators and adds the tile's partial scores; at an odd point it adds the second tile's partial scores
to what the even point left, applies the scaled softmax and stores both attention blocks transposed. -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditions of the body, decided over the grid -/

/-- "This is the first token tile": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last token tile": the condition of the softmax and the two stores. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- At a first-tile point nothing is stored into attention window 10 and its block is not written back. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
/-- At a last-tile point it is stored whole. -/
theorem liveAt0_10_B : ∀ t : Fin cfg0.N, ¬cond0_0 (grid0.coords t) → cond0_1 (grid0.coords t) → cfg0.idle 10 (grid0.coords t) = false := by decide +kernel
/-- At a first-tile point nothing is stored into attention window 11 and its block is not written back. -/
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
/-- At a last-tile point it is stored whole. -/
theorem liveAt0_11_B : ∀ t : Fin cfg0.N, ¬cond0_0 (grid0.coords t) → cond0_1 (grid0.coords t) → cfg0.idle 11 (grid0.coords t) = false := by decide +kernel

/-! ## The memrefs the body is called with -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x256x256 .f32 := win0_11.stage (cfg0.slots t 11)
abbrev hs0_11 (t : Fin cfg0.N) : (ms0_11 t).IsWhole := hstage0_11 ((cfg0.slots t 11).cast nbuf0_11)
/-- One staging buffer of each attention window, through which its contents are stated. -/
abbrev VO0_10 : View sig .tc .vmem S1x4x256x256 .f32 := (Memref.whole cc0_stg10_0 : Memref sig .tc .vmem S1x4x256x256 .f32).view
abbrev VO0_11 : View sig .tc .vmem S1x4x256x256 .f32 := (Memref.whole cc0_stg11_0 : Memref sig .tc .vmem S1x4x256x256 .f32).view
/-- The two score accumulators: whole scoped buffers of the kernel's own, carried from point to point. -/
abbrev scM0_0 : Memref sig .tc .vmem S4x256x256 .f32 := Memref.whole cc0_scratch0
abbrev scM0_1 : Memref sig .tc .vmem S4x256x256 .f32 := Memref.whole cc0_scratch1
abbrev VS0_0 : View sig .tc .vmem S4x256x256 .f32 := scM0_0.view
abbrev VS0_1 : View sig .tc .vmem S4x256x256 .f32 := scM0_1.view

/-- The scoped buffers of the core that are neither a staging buffer of this region nor one of its accumulators
    (the second region's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f))

/-- The class's invariant of this region with the two accumulators named: each at some contents, beside the
    other scoped buffers and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Hand

end
-- ==== Proof.KBRegion0RunA.lean ====
import proofs.«175229_j12481174962662_2_alg».proof.Proof.KBRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST-TILE CASE (the reset taken, the softmax not): on whole staging memrefs — the ten inputs at their
    contents, the two attention windows at contents handed back untouched (nothing is stored into them), the two
    accumulators at anything — the body runs to the continuation holding the inputs as they were and each
    accumulator with its pieces written (the reset, then one slab per head): the pieces are the witness the run finds. -/
noncomputable def kernelRun0_A (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) :
    Σ' (L10 : List (View.Piece (Elt F) S1x4x256x256 .f32)), Σ' (L11 : List (View.Piece (Elt F) S1x4x256x256 .f32)), Σ' (LS0 : List (View.Piece (Elt F) S4x256x256 .f32)), { LS1 : List (View.Piece (Elt F) S4x256x256 .f32) //
      ∀ (xi10 xi11 : Vec F S1x4x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__score_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc0__score_kernel_eq_skeleton]; unfold cc0__score_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.Kernel.Hand

end
-- ==== Proof.KBRegion0RunB.lean ====
import proofs.«175229_j12481174962662_2_alg».proof.Proof.KBRegion0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST-TILE CASE (the reset not taken, the softmax taken): the ten inputs at their contents, the two
    accumulators at what the point before left (`xs0`, `xs1`), the two attention windows at anything — the body
    runs to the continuation holding the inputs as they were, each accumulator with its four slabs written and each
    attention window with its one whole store written. -/
noncomputable def kernelRun0_B (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) :
    Σ' (L10 : List (View.Piece (Elt F) S1x4x256x256 .f32)), Σ' (L11 : List (View.Piece (Elt F) S1x4x256x256 .f32)), Σ' (LS0 : List (View.Piece (Elt F) S4x256x256 .f32)), { LS1 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__score_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__score_kernel_eq_skeleton]; unfold cc0__score_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.Kernel.Hand

end
-- ==== Proof.KBRegion0.lean ====
import proofs.«175229_j12481174962662_2_alg».proof.Proof.KBRegion0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The score region: what it leaves point by point, its proof data and its body obligation -/

/-! ## What each case leaves -/

/-- A first-tile point stores nothing into the attention windows: placeholders nothing consults (the windows are
    neither written back at these points nor read at the next). -/
def out0_A_10 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S1x4x256x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1)
def out0_A_11 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S1x4x256x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1)

/-- The first-tile stores into the global accumulator cover it (the reset stores it whole). -/
theorem scover0_A_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (y : S4x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S4x256x256.size (by sl_kernel_rfl) y
theorem scover0_A_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (y : S4x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S4x256x256.size (by sl_kernel_rfl) y

/-- What a first-tile point leaves in each accumulator: the first tile's partial scores, head by head, over zero. -/
def sout0_A_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S4x256x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)
def sout0_A_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S4x256x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- The last-tile store into each attention window covers its block (one whole store). -/
theorem cover0_B_10 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S1x4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 S1x4x256x256.size (by sl_kernel_rfl) y
theorem cover0_B_11 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S1x4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 S1x4x256x256.size (by sl_kernel_rfl) y

/-- What a last-tile point leaves in each attention window: the softmax of the scaled total scores, transposed. -/
def out0_B_10 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S1x4x256x256 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1)
def out0_B_11 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S1x4x256x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1)

/-- The four slab stores of a last-tile point cover each accumulator. -/
theorem scover0_B_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S1x256x256.size (by sl_kernel_rfl) y
theorem scover0_B_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S1x256x256.size (by sl_kernel_rfl) y

/-- What a last-tile point leaves in each accumulator: what the point before left plus the second tile's partial scores. -/
def sout0_B_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S4x256x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
def sout0_B_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S4x256x256 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

section Regions
variable (V : (c : Dev nD) → (b : Ref sig .tc) → Buf (Elt F) ((c : Thread nD τ).loc b))

/-! ## What the attention windows and the accumulators hold after each point -/

/-- THE ACCUMULATION: after the body at position `n`, the two attention windows' staging buffers and the two
    accumulators (a tuple in that order): a first-tile point (even) runs from nothing, a last-tile point (odd) from
    the accumulators the point before left. -/
def outsAt0 (c : Dev nD) : (n : ℕ) → n < cfg0.N → Vec F S1x4x256x256 .f32 × Vec F S1x4x256x256 .f32 × Vec F S4x256x256 .f32 × Vec F S4x256x256 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 2 = 0 then
      if h1 : (n + 1) % 2 = 1 then
        False.elim (by omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 2 = 1 then
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2)
      else
        False.elim (by omega)

/-- `outsAt0` at a first-tile point. -/
theorem outsAt0_A (c : Dev nD) (t : Fin cfg0.N) (h0 : t.val % 2 = 0) (h1 : ¬t.val % 2 = 1) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans ((dif_neg h1).trans rfl)

/-- `outsAt0` at a last-tile point, over what the point before left. -/
theorem outsAt0_B (c : Dev nD) (t : Fin cfg0.N) (h0 : ¬t.val % 2 = 0) (h1 : t.val % 2 = 1) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at
    anything); afterwards the two accumulators at what the point before left, the other scoped buffers at anything,
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-! ## The proof data -/

/-- The score region's proof data on core `c`: the arrays as the region finds them; after the body at point `t`
    each input's buffer at its block and the attention windows' at `outsAt0`; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
/-- The body at any point: the inputs' memrefs hold their blocks; the parity of the point says which case it is in;
    the invariant hands the body the accumulators at what the point before left (at anything at the first point) and
    takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 2 = 0
  · by_cases h1 : t.val % 2 = 1
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
  · by_cases h1 : t.val % 2 = 1
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [show (dat0 V c).leavesExact 10 t = owns (c : Thread nD τ) (ms0_10 t) fullShare ((dat0 V c).after 10 t) from by
        unfold Dat.leavesExact; rw [liveAt0_10_B t (fun h => h0 ((hcond0_0 t).mp h)) ((hcond0_1 t).mpr h1)], after0_10]
      rw [show (dat0 V c).leavesExact 11 t = owns (c : Thread nD τ) (ms0_11 t) fullShare ((dat0 V c).after 11 t) from by
        unfold Dat.leavesExact; rw [liveAt0_11_B t (fun h => h0 ((hcond0_0 t).mp h)) ((hcond0_1 t).mpr h1)], after0_11]
      rw [outsAt0_B V c t h0 h1]
      unfold out0_B_10 out0_B_11 sout0_B_0 sout0_B_1; (try dsimp only)
      by_cases hz : t.val = 0
      · exfalso; omega
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, ⟨%e10, H10⟩, ⟨%e11, H11⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Regions

end Cert.Kernel.Hand

end
-- ==== Proof.KBRegion1Run.lean ====
/- Region 1 of the word-level kernel program: the second pallas_call, `cc1__output_kernel`, which forms per head one
   contraction of length 512 of the concatenated affine images of the value block (global | local) against the
   stacked transposed attention arrays (global ; local), multiplies by the projection weight and adds its bias.
   Here: what the body leaves in its output window's staging buffer as a function of its nine input blocks
   (`out1_9`: four column slices of 256 channels, one per head, which tile the block), and the body's triple
   (`sound_kernel1`). The output buffer is taken at any contents: each store is preceded by a load of the same
   slice whose value nothing reads. -/
import proofs.«175229_j12481174962662_2_alg».proof.Proof.Gen.Kernel.Launch
import proofs.«175229_j12481174962662_2_alg».proof.Proof.Gen.Kernel.Skeleton
import proofs.«175229_j12481174962662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2048 × 1024 recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole value block, [1, 2048, 1024]. -/
abbrev r1_v : Rect S1x2048x1024 := Rect.unit (s := S1x2048x1024) ![0, 0, 0] S1x2048x1024.size inb_S1x2048x1024_S1x2048x1024_0_0_0
/-- A whole row of 1024 channels, [1, 1024]. -/
abbrev r1_row : Rect S1x1024 := Rect.unit (s := S1x1024) ![0, 0] S1x1024.size inb_S1x1024_S1x1024_0_0
/-- Head `h`'s 256 × 256 matrix of a transposed attention array [1, 4, 256, 256]. -/
abbrev r1_att0 : Rect S1x4x256x256 := Rect.unit (s := S1x4x256x256) ![0, 0, 0, 0] S1x1x256x256.size inb_S1x4x256x256_S1x1x256x256_0_0_0_0
abbrev r1_att1 : Rect S1x4x256x256 := Rect.unit (s := S1x4x256x256) ![0, 1, 0, 0] S1x1x256x256.size inb_S1x4x256x256_S1x1x256x256_0_1_0_0
abbrev r1_att2 : Rect S1x4x256x256 := Rect.unit (s := S1x4x256x256) ![0, 2, 0, 0] S1x1x256x256.size inb_S1x4x256x256_S1x1x256x256_0_2_0_0
abbrev r1_att3 : Rect S1x4x256x256 := Rect.unit (s := S1x4x256x256) ![0, 3, 0, 0] S1x1x256x256.size inb_S1x4x256x256_S1x1x256x256_0_3_0_0
/-- Head `h`'s column slice [1, 2048, 256] of the output block, at channel offset 256·h. -/
abbrev r1_out0 : Rect S1x2048x1024 := Rect.unit (s := S1x2048x1024) ![0, 0, 0] S1x2048x256.size inb_S1x2048x1024_S1x2048x256_0_0_0
abbrev r1_out1 : Rect S1x2048x1024 := Rect.unit (s := S1x2048x1024) ![0, 0, 256] S1x2048x256.size inb_S1x2048x1024_S1x2048x256_0_0_256
abbrev r1_out2 : Rect S1x2048x1024 := Rect.unit (s := S1x2048x1024) ![0, 0, 512] S1x2048x256.size inb_S1x2048x1024_S1x2048x256_0_0_512
abbrev r1_out3 : Rect S1x2048x1024 := Rect.unit (s := S1x2048x1024) ![0, 0, 768] S1x2048x256.size inb_S1x2048x1024_S1x2048x256_0_0_768

/-! ## What the body leaves in the output window's buffer -/

/-- The four stored column slices, LAST FIRST (heads 3, 2, 1, 0), over the payloads of the skeleton, from the nine
    input blocks: `x0` the value block, `x1 … x4` the rows (weight, bias) of the global and the local affine map,
    `x5`, `x6` the projection's weight and bias, `x7`, `x8` the transposed global and local attention arrays. -/
def pieces1_9 (x0 : Vec F S1x2048x1024 .f32) (x1 x2 x3 x4 x5 x6 : Vec F S1x1024 .f32) (x7 x8 : Vec F S1x4x256x256 .f32) : List (View.Piece (Elt F) S1x2048x1024 .f32) :=
  [⟨r1_out3, k1_pay2 (k1_pay4 (View.ld x5 r1_row)) (k1_pay5 (View.ld x6 r1_row))
      (k1_pay6 (View.ld x0 r1_v) (View.ld x1 r1_row) (View.ld x2 r1_row)) (k1_pay7 (View.ld x0 r1_v) (View.ld x3 r1_row) (View.ld x4 r1_row))
      (View.ld x7 r1_att3) (View.ld x8 r1_att3)⟩,
   ⟨r1_out2, k1_pay1 (k1_pay4 (View.ld x5 r1_row)) (k1_pay5 (View.ld x6 r1_row))
      (k1_pay12 (k1_pay6 (View.ld x0 r1_v) (View.ld x1 r1_row) (View.ld x2 r1_row))) (k1_pay13 (k1_pay7 (View.ld x0 r1_v) (View.ld x3 r1_row) (View.ld x4 r1_row)))
      (k1_pay14 (View.ld x7 r1_att2)) (View.ld x8 r1_att2)⟩,
   ⟨r1_out1, k1_pay11 (k1_pay4 (View.ld x5 r1_row)) (k1_pay5 (View.ld x6 r1_row))
      (k1_pay6 (View.ld x0 r1_v) (View.ld x1 r1_row) (View.ld x2 r1_row)) (k1_pay7 (View.ld x0 r1_v) (View.ld x3 r1_row) (View.ld x4 r1_row))
      (View.ld x7 r1_att1) (View.ld x8 r1_att1)⟩,
   ⟨r1_out0, k1_pay10 (k1_pay4 (View.ld x5 r1_row)) (k1_pay5 (View.ld x6 r1_row))
      (k1_pay8 (View.ld x0 r1_v) (View.ld x1 r1_row) (View.ld x2 r1_row) (View.ld x3 r1_row) (View.ld x4 r1_row))
      (k1_pay9 (View.ld x7 r1_att0) (View.ld x8 r1_att0)) (constant S2048x256 .f32 0x00000000#32)⟩]

/-- The output window's staging buffer after the body: the canonical contents of its four stores. -/
def out1_9 (x0 : Vec F S1x2048x1024 .f32) (x1 x2 x3 x4 x5 x6 : Vec F S1x1024 .f32) (x7 x8 : Vec F S1x4x256x256 .f32) : Vec F S1x2048x1024 .f32 :=
  View.canon (pieces1_9 x0 x1 x2 x3 x4 x5 x6 x7 x8)

/-- The four column slices tile the block in pieces of [1, 2048, 256] (checked by evaluation), so they cover it. -/
theorem cover1_9 (x0 : Vec F S1x2048x1024 .f32) (x1 x2 x3 x4 x5 x6 : Vec F S1x1024 .f32) (x7 x8 : Vec F S1x4x256x256 .f32) (y : S1x2048x1024.Idx) :
    ∃ pc ∈ pieces1_9 x0 x1 x2 x3 x4 x5 x6 x7 x8, y ∈ pc.1.set :=
  View.cover_of_tiledL (pieces1_9 x0 x1 x2 x3 x4 x5 x6 x7 x8) S1x2048x256.size (by unfold pieces1_9; sl_kernel_rfl) y

/-! ## The body's triple -/

set_option maxHeartbeats 4000000 in
/-- The kernel body on whole staging memrefs, the inputs' at read contents and the output's at anything, runs to the
    continuation holding the inputs' as they were and the output's at `out1_9` of the inputs'. -/
theorem sound_kernel1 (c : Dev nD) (E : Set ℕ) (i : grid1.Coords) (arg2 : Memref sig .tc .vmem S1x2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x4x256x256 .f32) (harg9 : arg9.IsWhole) (arg10 : Memref sig .tc .vmem S1x4x256x256 .f32) (harg10 : arg10.IsWhole) (arg11 : Memref sig .tc .vmem S1x2048x1024 .f32) (harg11 : arg11.IsWhole)
    (x0 : Vec F S1x2048x1024 .f32) (x1 x2 x3 x4 x5 x6 : Vec F S1x1024 .f32) (x7 x8 : Vec F S1x4x256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out1_9 x0 x1 x2 x3 x4 x5 x6 x7 x8)) -∗ K ⟨⟩))
      ⊢ wp frame (wpE (defs₀ (F := F)) Variants.none c none) E (cc1__output_kernel i arg2 harg2 arg3 harg3 arg4 harg4 arg5 harg5 arg6 harg6 arg7 harg7 arg8 harg8 arg9 harg9 arg10 harg10 arg11 harg11) K := by
  simp only [cc1__output_kernel_eq_skeleton]; unfold cc1__output_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _ _ _ _ _ _ _ _ _)

end Cert.Kernel.Hand

end
-- ==== Proof.KBRegion1.lean ====
/- Region 1 of the word-level kernel program (the second pallas_call, `cc1__output_kernel`), at a parameter `V` — the
   TensorCore's buffer contents when the region is entered: each window's block at a grid point (`iblk1`), the
   pipeline's proof data (`dat1`: every input's buffer keeps its block, the output's holds `out1_9` of the nine input
   blocks; the invariant is the scoped rest and the generator register, untouched; nothing owed), and the body
   obligation at every grid point (`body_obligation1`). Inputs 1–8 are not fetched at every point: where one is not,
   its block index has not moved, so its buffer still holds this point's block. -/
import proofs.«175229_j12481174962662_2_alg».proof.Proof.KBRegion1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the pipeline on core `c`: the arrays as the region finds them (`V`); after the body at point `t`
    each input's buffer at its block and the output's at `out1_9` of the nine input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 2000000 in
/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KBFrame.lean ====
import proofs.«175229_j12481174962662_2_alg».proof.Proof.KBRegion0
import proofs.«175229_j12481174962662_2_alg».proof.Proof.KBRegion1
import proofs.«175229_j12481174962662_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: @main's four items (a host stretch, the score region, a host stretch, the output region)
from the launch to the return, with every unscoped buffer named at every boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the weight rows of the score region reshaped to [1, 1024]). -/
abbrev W1 : Dev nD → Valuation τ sig (Elt F) := fun c => StableHlo.after hostOps0 (W0 m ρ c)
abbrev VA1 : (c : Dev nD) → (b : Ref sig .tc) → Buf (Elt F) ((c : Thread nD τ).loc b) := fun c b => W1 m ρ c b
/-- At the score region's exit: its arrays at what its write-backs leave, every other buffer as entered. -/
def W2 (c : Dev nD) : Valuation τ sig (Elt F) :=
  Pipeline.withArrays spec0 c (W1 m ρ c) fun w => (dat0 (VA1 m ρ) c).arrAt w cfg0.N
theorem W2_arr (c : Dev nD) (w : Fin cfg0.W) :
    W2 m ρ c (Proc.devRef .tc (Pipeline.arrRef spec0 w)) = (dat0 (VA1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VA2 : (c : Dev nD) → (b : Ref sig .tc) → Buf (Elt F) ((c : Thread nD τ).loc b) := fun c b => W2 m ρ c b
theorem hF0 (c : Dev nD) (w : Fin cfg0.W) : (dat0 (VA1 m ρ) c).arrAt w cfg0.N = VA2 m ρ c (Pipeline.arrRef spec0 w) :=
  (W2_arr m ρ c w).symm
theorem hrest0 (c : Dev nD) : ∀ b, b ∉ Finset.univ.image (Pipeline.arrRef spec0) → VA2 m ρ c b = VA1 m ρ c b :=
  fun b hb => W2_of_ne m ρ c b fun w e => hb (Finset.mem_image.mpr ⟨w, Finset.mem_univ _, e⟩)

/-- After the second host stretch (the weight rows of the output region reshaped). -/
abbrev W3 : Dev nD → Valuation τ sig (Elt F) := fun c => StableHlo.after hostOps1 (W2 m ρ c)
abbrev VA3 : (c : Dev nD) → (b : Ref sig .tc) → Buf (Elt F) ((c : Thread nD τ).loc b) := fun c b => W3 m ρ c b
/-- At the output region's exit. -/
def W4 (c : Dev nD) : Valuation τ sig (Elt F) :=
  Pipeline.withArrays spec1 c (W3 m ρ c) fun w => (dat1 (VA3 m ρ) c).arrAt w cfg1.N
theorem W4_arr (c : Dev nD) (w : Fin cfg1.W) :
    W4 m ρ c (Proc.devRef .tc (Pipeline.arrRef spec1 w)) = (dat1 (VA3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VA4 : (c : Dev nD) → (b : Ref sig .tc) → Buf (Elt F) ((c : Thread nD τ).loc b) := fun c b => W4 m ρ c b
theorem hF1 (c : Dev nD) (w : Fin cfg1.W) : (dat1 (VA3 m ρ) c).arrAt w cfg1.N = VA4 m ρ c (Pipeline.arrRef spec1 w) :=
  (W4_arr m ρ c w).symm
theorem hrest1 (c : Dev nD) : ∀ b, b ∉ Finset.univ.image (Pipeline.arrRef spec1) → VA4 m ρ c b = VA3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide : main_arg0 ∉ hostOps1_W)
    _ = W1 m ρ c (Proc.devRef .tc main_arg0) := (W2_arr m ρ c 0).trans (((dat0 (VA1 m ρ) c).arrAt_in 0 rfl _).trans (A_eq0 (VA1 m ρ) c 0))
    _ = W0 m ρ c (Proc.devRef .tc main_arg0) := StableHlo.after_of_writes_sub hostOps0 (W0 m ρ c) hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 (W2 m ρ c) hostOps1_writes (by decide : main_arg1 ∉ hostOps1_W)
    _ = W1 m ρ c (Proc.devRef .tc main_arg1) := (W2_arr m ρ c 1).trans (((dat0 (VA1 m ρ) c).arrAt_in 1 rfl _).trans (A_eq0 (VA1 m ρ) c 1))
    _ = W0 m ρ c (Proc.devRef .tc main_arg1) := StableHlo.after_of_writes_sub hostOps0 (W0 m ρ c) hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 0).trans (((dat1 (VA3 m ρ) c).arrAt_in 0 rfl _).trans (A_eq1 (VA3 m ρ) c 0))
    _ = W2 m ρ c (Proc.devRef .tc main_arg2) := StableHlo.after_of_writes_sub hostOps1 (W2 m ρ c) hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 (W0 m ρ c) hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 (W2 m ρ c) hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 (W0 m ρ c) hostOps0_writes (by decide : main_arg3 ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 (W2 m ρ c) hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 (W0 m ρ c) hostOps0_writes (by decide : main_arg4 ∉ hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 (W2 m ρ c) hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 (W0 m ρ c) hostOps0_writes (by decide : main_arg5 ∉ hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 (W2 m ρ c) hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 (W0 m ρ c) hostOps0_writes (by decide : main_arg6 ∉ hostOps0_W)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 (W2 m ρ c) hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 (W0 m ρ c) hostOps0_writes (by decide : main_arg7 ∉ hostOps0_W)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 (W2 m ρ c) hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 (W0 m ρ c) hostOps0_writes (by decide : main_arg8 ∉ hostOps0_W)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 (W2 m ρ c) hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 (W0 m ρ c) hostOps0_writes (by decide : main_arg9 ∉ hostOps0_W)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 (W2 m ρ c) hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 (W0 m ρ c) hostOps0_writes (by decide : main_arg10 ∉ hostOps0_W)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 (W2 m ρ c) hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 (W0 m ρ c) hostOps0_writes (by decide : main_arg11 ∉ hostOps0_W)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 (W2 m ρ c) hostOps1_writes (by decide : main_arg12 ∉ hostOps1_W)
    _ = W1 m ρ c (Proc.devRef .tc main_arg12) := W2_of_ne m ρ c main_arg12 (by decide)
    _ = W0 m ρ c (Proc.devRef .tc main_arg12) := StableHlo.after_of_writes_sub hostOps0 (W0 m ρ c) hostOps0_writes (by decide : main_arg12 ∉ hostOps0_W)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 (W2 m ρ c) hostOps1_writes (by decide : main_arg13 ∉ hostOps1_W)
    _ = W1 m ρ c (Proc.devRef .tc main_arg13) := W2_of_ne m ρ c main_arg13 (by decide)
    _ = W0 m ρ c (Proc.devRef .tc main_arg13) := StableHlo.after_of_writes_sub hostOps0 (W0 m ρ c) hostOps0_writes (by decide : main_arg13 ∉ hostOps0_W)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 (W2 m ρ c) hostOps1_writes (by decide : main_arg14 ∉ hostOps1_W)
    _ = W1 m ρ c (Proc.devRef .tc main_arg14) := W2_of_ne m ρ c main_arg14 (by decide)
    _ = W0 m ρ c (Proc.devRef .tc main_arg14) := StableHlo.after_of_writes_sub hostOps0 (W0 m ρ c) hostOps0_writes (by decide : main_arg14 ∉ hostOps0_W)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 (W2 m ρ c) hostOps1_writes (by decide : main_arg15 ∉ hostOps1_W)
    _ = W1 m ρ c (Proc.devRef .tc main_arg15) := W2_of_ne m ρ c main_arg15 (by decide)
    _ = W0 m ρ c (Proc.devRef .tc main_arg15) := StableHlo.after_of_writes_sub hostOps0 (W0 m ρ c) hostOps0_writes (by decide : main_arg15 ∉ hostOps0_W)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 (W2 m ρ c) hostOps1_writes (by decide : main_arg16 ∉ hostOps1_W)
    _ = W1 m ρ c (Proc.devRef .tc main_arg16) := W2_of_ne m ρ c main_arg16 (by decide)
    _ = W0 m ρ c (Proc.devRef .tc main_arg16) := StableHlo.after_of_writes_sub hostOps0 (W0 m ρ c) hostOps0_writes (by decide : main_arg16 ∉ hostOps0_W)
    _ = m ((c : Thread nD τ).loc main_arg16) := rfl

/-- The result buffer at the end is what the output region's write-backs leave. -/
theorem W4_main_v15 (c : Dev nD) : W4 m ρ c (Proc.devRef .tc main_v15) = (dat1 (VA3 m ρ) c).arrAt 9 cfg1.N :=
  W4_arr m ρ c 9

/-! ## The proof data family and the thread state -/

abbrev admH : (p : Fin 2) → (pcfgs (F := F) p).Adm := fun p => (cfgs p).toPCfg_adm
/-- Every pipeline's proof data, each at its region's entry contents: a literal match. -/
def pdatsH : (p : Fin 2) → (c : Dev nD) → Dat τ (Elt F) Unit ℕ (UR sig nD τ) ℕ (Pipeline.pin (pcfgs (F := F)) admH p) c
  | ⟨0, _⟩ => fun c => dat0 (VA1 m ρ) c
  | ⟨1, _⟩ => fun c => dat1 (VA3 m ρ) c
abbrev 𝒱H : Variants := Variants.none
abbrev LH : GSem nD τ sig → Finset Unit := fun _ => ∅
abbrev lvH : GSem nD τ sig → Unit → ℕ := fun _ _ => 0
/-- What rides beside the buffers through every item: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0H : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VA1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (VA1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (VA1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = (dat0 (VA1 m ρ) c).Φ 0 from rfl]
    have h := hin0 (VA1 m ρ) c
    unfold Pipeline.ΦA at h
    iintro ⟨Hp, -, Hr⟩
    iapply h
    isplitl [Hr]; · iexact Hr
    iexact Hp
  hout c := by
    rw [Pipeline.ownSems0_none, show (pdatsH m ρ 0 c).Φ (Fin.last _) = (dat0 (VA1 m ρ) c).Φ (Fin.last cfg0.N) from rfl]
    have h := hout0 (VA1 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (VA1 m ρ c) (VA2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1H : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VA3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VA3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (VA3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (VA3 m ρ c) (VA4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (W0 m ρ)),
    .region (reg0H m ρ),
    .host (hsegH hostOps1 hostOps1_sub hostOps1_fresh (W2 m ρ)),
    .region (reg1H m ρ) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

/-- THE RUN WITH ITS RESULT NAMED: the result buffer ends at what the output region's write-backs leave, every
    argument array as launched. -/
theorem run_value : θ_run defs (onTc (τ := τ) (main (F := F))) ⟨m, fun _ => 0, ρ⟩ (fun r => ∀ c : Dev nD,
      r.2.mem ((c.tc : Thread nD τ).loc main_v15) = (dat1 (VA3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v15 (by decide))).trans (W4_main_v15 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

end Cert.Kernel.Hand

end
-- ==== Proof.KIRegion0Runs.lean ====
import proofs.«175229_j12481174962662_2_alg».proof.Proof.Gen.KernelIdeal.Launch
import proofs.«175229_j12481174962662_2_alg».proof.Proof.Gen.KernelIdeal.Skeleton
import proofs.«175229_j12481174962662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The score region (the first pallas_call): what its two control cases are stated over

The grid is 8 × 2: point `t` is batch `t / 2`, token tile `t % 2`. At an even point the body resets the two
score accumulators and adds the tile's partial scores; at an odd point it adds the second tile's partial scores
to what the even point left, applies the scaled softmax and stores both attention blocks transposed. -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditions of the body, decided over the grid -/

/-- "This is the first token tile": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last token tile": the condition of the softmax and the two stores. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- At a first-tile point nothing is stored into attention window 10 and its block is not written back. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
/-- At a last-tile point it is stored whole. -/
theorem liveAt0_10_B : ∀ t : Fin cfg0.N, ¬cond0_0 (grid0.coords t) → cond0_1 (grid0.coords t) → cfg0.idle 10 (grid0.coords t) = false := by decide +kernel
/-- At a first-tile point nothing is stored into attention window 11 and its block is not written back. -/
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
/-- At a last-tile point it is stored whole. -/
theorem liveAt0_11_B : ∀ t : Fin cfg0.N, ¬cond0_0 (grid0.coords t) → cond0_1 (grid0.coords t) → cfg0.idle 11 (grid0.coords t) = false := by decide +kernel

/-! ## The memrefs the body is called with -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x256x256 .f32 := win0_11.stage (cfg0.slots t 11)
abbrev hs0_11 (t : Fin cfg0.N) : (ms0_11 t).IsWhole := hstage0_11 ((cfg0.slots t 11).cast nbuf0_11)
/-- One staging buffer of each attention window, through which its contents are stated. -/
abbrev VO0_10 : View sig .tc .vmem S1x4x256x256 .f32 := (Memref.whole cc0_stg10_0 : Memref sig .tc .vmem S1x4x256x256 .f32).view
abbrev VO0_11 : View sig .tc .vmem S1x4x256x256 .f32 := (Memref.whole cc0_stg11_0 : Memref sig .tc .vmem S1x4x256x256 .f32).view
/-- The two score accumulators: whole scoped buffers of the kernel's own, carried from point to point. -/
abbrev scM0_0 : Memref sig .tc .vmem S4x256x256 .f32 := Memref.whole cc0_scratch0
abbrev scM0_1 : Memref sig .tc .vmem S4x256x256 .f32 := Memref.whole cc0_scratch1
abbrev VS0_0 : View sig .tc .vmem S4x256x256 .f32 := scM0_0.view
abbrev VS0_1 : View sig .tc .vmem S4x256x256 .f32 := scM0_1.view

/-- The scoped buffers of the core that are neither a staging buffer of this region nor one of its accumulators
    (the second region's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f))

/-- The class's invariant of this region with the two accumulators named: each at some contents, beside the
    other scoped buffers and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Hand

end
-- ==== Proof.KIRegion0RunA.lean ====
import proofs.«175229_j12481174962662_2_alg».proof.Proof.KIRegion0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST-TILE CASE (the reset taken, the softmax not): on whole staging memrefs — the ten inputs at their
    contents, the two attention windows at contents handed back untouched (nothing is stored into them), the two
    accumulators at anything — the body runs to the continuation holding the inputs as they were and each
    accumulator with its pieces written (the reset, then one slab per head): the pieces are the witness the run finds. -/
noncomputable def kernelRun0_A (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) :
    Σ' (L10 : List (View.Piece (Elt F) S1x4x256x256 .f32)), Σ' (L11 : List (View.Piece (Elt F) S1x4x256x256 .f32)), Σ' (LS0 : List (View.Piece (Elt F) S4x256x256 .f32)), { LS1 : List (View.Piece (Elt F) S4x256x256 .f32) //
      ∀ (xi10 xi11 : Vec F S1x4x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__score_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc0__score_kernel_eq_skeleton]; unfold cc0__score_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.KernelIdeal.Hand

end
-- ==== Proof.KIRegion0RunB.lean ====
import proofs.«175229_j12481174962662_2_alg».proof.Proof.KIRegion0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST-TILE CASE (the reset not taken, the softmax taken): the ten inputs at their contents, the two
    accumulators at what the point before left (`xs0`, `xs1`), the two attention windows at anything — the body
    runs to the continuation holding the inputs as they were, each accumulator with its four slabs written and each
    attention window with its one whole store written. -/
noncomputable def kernelRun0_B (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) :
    Σ' (L10 : List (View.Piece (Elt F) S1x4x256x256 .f32)), Σ' (L11 : List (View.Piece (Elt F) S1x4x256x256 .f32)), Σ' (LS0 : List (View.Piece (Elt F) S4x256x256 .f32)), { LS1 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__score_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__score_kernel_eq_skeleton]; unfold cc0__score_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.KernelIdeal.Hand

end
-- ==== Proof.KIRegion0.lean ====
import proofs.«175229_j12481174962662_2_alg».proof.Proof.KIRegion0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The score region: what it leaves point by point, its proof data and its body obligation -/

/-! ## What each case leaves -/

/-- A first-tile point stores nothing into the attention windows: placeholders nothing consults (the windows are
    neither written back at these points nor read at the next). -/
def out0_A_10 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S1x4x256x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1)
def out0_A_11 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S1x4x256x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1)

/-- The first-tile stores into the global accumulator cover it (the reset stores it whole). -/
theorem scover0_A_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (y : S4x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 S4x256x256.size (by sl_kernel_rfl) y
theorem scover0_A_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (y : S4x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S4x256x256.size (by sl_kernel_rfl) y

/-- What a first-tile point leaves in each accumulator: the first tile's partial scores, head by head, over zero. -/
def sout0_A_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S4x256x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)
def sout0_A_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) : Vec F S4x256x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- The last-tile store into each attention window covers its block (one whole store). -/
theorem cover0_B_10 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S1x4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 S1x4x256x256.size (by sl_kernel_rfl) y
theorem cover0_B_11 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S1x4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 S1x4x256x256.size (by sl_kernel_rfl) y

/-- What a last-tile point leaves in each attention window: the softmax of the scaled total scores, transposed. -/
def out0_B_10 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S1x4x256x256 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1)
def out0_B_11 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S1x4x256x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1)

/-- The four slab stores of a last-tile point cover each accumulator. -/
theorem scover0_B_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 S1x256x256.size (by sl_kernel_rfl) y
theorem scover0_B_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) (y : S4x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 S1x256x256.size (by sl_kernel_rfl) y

/-- What a last-tile point leaves in each accumulator: what the point before left plus the second tile's partial scores. -/
def sout0_B_0 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S4x256x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1)
def sout0_B_1 (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 : Vec F S1x2048x1024 .f32) (x1 : Vec F S1x2048x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (xs0 : Vec F S4x256x256 .f32) (xs1 : Vec F S4x256x256 .f32) : Vec F S4x256x256 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1)

section Regions
variable (V : (c : Dev nD) → (b : Ref sig .tc) → Buf (Elt F) ((c : Thread nD τ).loc b))

/-! ## What the attention windows and the accumulators hold after each point -/

/-- THE ACCUMULATION: after the body at position `n`, the two attention windows' staging buffers and the two
    accumulators (a tuple in that order): a first-tile point (even) runs from nothing, a last-tile point (odd) from
    the accumulators the point before left. -/
def outsAt0 (c : Dev nD) : (n : ℕ) → n < cfg0.N → Vec F S1x4x256x256 .f32 × Vec F S1x4x256x256 .f32 × Vec F S4x256x256 .f32 × Vec F S4x256x256 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 2 = 0 then
      if h1 : (n + 1) % 2 = 1 then
        False.elim (by omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 2 = 1 then
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2.2.1 (outsAt0 c n (Nat.lt_of_succ_lt hn)).2.2.2)
      else
        False.elim (by omega)

/-- `outsAt0` at a first-tile point. -/
theorem outsAt0_A (c : Dev nD) (t : Fin cfg0.N) (h0 : t.val % 2 = 0) (h1 : ¬t.val % 2 = 1) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans ((dif_neg h1).trans rfl)

/-- `outsAt0` at a last-tile point, over what the point before left. -/
theorem outsAt0_B (c : Dev nD) (t : Fin cfg0.N) (h0 : ¬t.val % 2 = 0) (h1 : t.val % 2 = 1) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at
    anything); afterwards the two accumulators at what the point before left, the other scoped buffers at anything,
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-! ## The proof data -/

/-- The score region's proof data on core `c`: the arrays as the region finds them; after the body at point `t`
    each input's buffer at its block and the attention windows' at `outsAt0`; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
/-- The body at any point: the inputs' memrefs hold their blocks; the parity of the point says which case it is in;
    the invariant hands the body the accumulators at what the point before left (at anything at the first point) and
    takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 2 = 0
  · by_cases h1 : t.val % 2 = 1
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
  · by_cases h1 : t.val % 2 = 1
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t], after0_9]
      rw [show (dat0 V c).leavesExact 10 t = owns (c : Thread nD τ) (ms0_10 t) fullShare ((dat0 V c).after 10 t) from by
        unfold Dat.leavesExact; rw [liveAt0_10_B t (fun h => h0 ((hcond0_0 t).mp h)) ((hcond0_1 t).mpr h1)], after0_10]
      rw [show (dat0 V c).leavesExact 11 t = owns (c : Thread nD τ) (ms0_11 t) fullShare ((dat0 V c).after 11 t) from by
        unfold Dat.leavesExact; rw [liveAt0_11_B t (fun h => h0 ((hcond0_0 t).mp h)) ((hcond0_1 t).mpr h1)], after0_11]
      rw [outsAt0_B V c t h0 h1]
      unfold out0_B_10 out0_B_11 sout0_B_0 sout0_B_1; (try dsimp only)
      by_cases hz : t.val = 0
      · exfalso; omega
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, ⟨%e10, H10⟩, ⟨%e11, H11⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Regions

end Cert.KernelIdeal.Hand

end
-- ==== Proof.KIRegion1Run.lean ====
/- Region 1 of the idealized kernel program: the second pallas_call, `cc1__output_kernel`, which forms per head one
   contraction of length 512 of the concatenated affine images of the value block (global | local) against the
   stacked transposed attention arrays (global ; local), multiplies by the projection weight and adds its bias.
   Here: what the body leaves in its output window's staging buffer as a function of its nine input blocks
   (`out1_9`: four column slices of 256 channels, one per head, which tile the block), and the body's triple
   (`sound_kernel1`). The output buffer is taken at any contents: each store is preceded by a load of the same
   slice whose value nothing reads. -/
import proofs.«175229_j12481174962662_2_alg».proof.Proof.Gen.KernelIdeal.Launch
import proofs.«175229_j12481174962662_2_alg».proof.Proof.Gen.KernelIdeal.Skeleton
import proofs.«175229_j12481174962662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2048 × 1024 recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole value block, [1, 2048, 1024]. -/
abbrev r1_v : Rect S1x2048x1024 := Rect.unit (s := S1x2048x1024) ![0, 0, 0] S1x2048x1024.size inb_S1x2048x1024_S1x2048x1024_0_0_0
/-- A whole row of 1024 channels, [1, 1024]. -/
abbrev r1_row : Rect S1x1024 := Rect.unit (s := S1x1024) ![0, 0] S1x1024.size inb_S1x1024_S1x1024_0_0
/-- Head `h`'s 256 × 256 matrix of a transposed attention array [1, 4, 256, 256]. -/
abbrev r1_att0 : Rect S1x4x256x256 := Rect.unit (s := S1x4x256x256) ![0, 0, 0, 0] S1x1x256x256.size inb_S1x4x256x256_S1x1x256x256_0_0_0_0
abbrev r1_att1 : Rect S1x4x256x256 := Rect.unit (s := S1x4x256x256) ![0, 1, 0, 0] S1x1x256x256.size inb_S1x4x256x256_S1x1x256x256_0_1_0_0
abbrev r1_att2 : Rect S1x4x256x256 := Rect.unit (s := S1x4x256x256) ![0, 2, 0, 0] S1x1x256x256.size inb_S1x4x256x256_S1x1x256x256_0_2_0_0
abbrev r1_att3 : Rect S1x4x256x256 := Rect.unit (s := S1x4x256x256) ![0, 3, 0, 0] S1x1x256x256.size inb_S1x4x256x256_S1x1x256x256_0_3_0_0
/-- Head `h`'s column slice [1, 2048, 256] of the output block, at channel offset 256·h. -/
abbrev r1_out0 : Rect S1x2048x1024 := Rect.unit (s := S1x2048x1024) ![0, 0, 0] S1x2048x256.size inb_S1x2048x1024_S1x2048x256_0_0_0
abbrev r1_out1 : Rect S1x2048x1024 := Rect.unit (s := S1x2048x1024) ![0, 0, 256] S1x2048x256.size inb_S1x2048x1024_S1x2048x256_0_0_256
abbrev r1_out2 : Rect S1x2048x1024 := Rect.unit (s := S1x2048x1024) ![0, 0, 512] S1x2048x256.size inb_S1x2048x1024_S1x2048x256_0_0_512
abbrev r1_out3 : Rect S1x2048x1024 := Rect.unit (s := S1x2048x1024) ![0, 0, 768] S1x2048x256.size inb_S1x2048x1024_S1x2048x256_0_0_768

/-! ## What the body leaves in the output window's buffer -/

/-- The four stored column slices, LAST FIRST (heads 3, 2, 1, 0), over the payloads of the skeleton, from the nine
    input blocks: `x0` the value block, `x1 … x4` the rows (weight, bias) of the global and the local affine map,
    `x5`, `x6` the projection's weight and bias, `x7`, `x8` the transposed global and local attention arrays. -/
def pieces1_9 (x0 : Vec F S1x2048x1024 .f32) (x1 x2 x3 x4 x5 x6 : Vec F S1x1024 .f32) (x7 x8 : Vec F S1x4x256x256 .f32) : List (View.Piece (Elt F) S1x2048x1024 .f32) :=
  [⟨r1_out3, k1_pay2 (k1_pay4 (View.ld x5 r1_row)) (k1_pay5 (View.ld x6 r1_row))
      (k1_pay6 (View.ld x0 r1_v) (View.ld x1 r1_row) (View.ld x2 r1_row)) (k1_pay7 (View.ld x0 r1_v) (View.ld x3 r1_row) (View.ld x4 r1_row))
      (View.ld x7 r1_att3) (View.ld x8 r1_att3)⟩,
   ⟨r1_out2, k1_pay1 (k1_pay4 (View.ld x5 r1_row)) (k1_pay5 (View.ld x6 r1_row))
      (k1_pay12 (k1_pay6 (View.ld x0 r1_v) (View.ld x1 r1_row) (View.ld x2 r1_row))) (k1_pay13 (k1_pay7 (View.ld x0 r1_v) (View.ld x3 r1_row) (View.ld x4 r1_row)))
      (k1_pay14 (View.ld x7 r1_att2)) (View.ld x8 r1_att2)⟩,
   ⟨r1_out1, k1_pay11 (k1_pay4 (View.ld x5 r1_row)) (k1_pay5 (View.ld x6 r1_row))
      (k1_pay6 (View.ld x0 r1_v) (View.ld x1 r1_row) (View.ld x2 r1_row)) (k1_pay7 (View.ld x0 r1_v) (View.ld x3 r1_row) (View.ld x4 r1_row))
      (View.ld x7 r1_att1) (View.ld x8 r1_att1)⟩,
   ⟨r1_out0, k1_pay10 (k1_pay4 (View.ld x5 r1_row)) (k1_pay5 (View.ld x6 r1_row))
      (k1_pay8 (View.ld x0 r1_v) (View.ld x1 r1_row) (View.ld x2 r1_row) (View.ld x3 r1_row) (View.ld x4 r1_row))
      (k1_pay9 (View.ld x7 r1_att0) (View.ld x8 r1_att0)) (constant S2048x256 .f32 0x00000000#32)⟩]

/-- The output window's staging buffer after the body: the canonical contents of its four stores. -/
def out1_9 (x0 : Vec F S1x2048x1024 .f32) (x1 x2 x3 x4 x5 x6 : Vec F S1x1024 .f32) (x7 x8 : Vec F S1x4x256x256 .f32) : Vec F S1x2048x1024 .f32 :=
  View.canon (pieces1_9 x0 x1 x2 x3 x4 x5 x6 x7 x8)

/-- The four column slices tile the block in pieces of [1, 2048, 256] (checked by evaluation), so they cover it. -/
theorem cover1_9 (x0 : Vec F S1x2048x1024 .f32) (x1 x2 x3 x4 x5 x6 : Vec F S1x1024 .f32) (x7 x8 : Vec F S1x4x256x256 .f32) (y : S1x2048x1024.Idx) :
    ∃ pc ∈ pieces1_9 x0 x1 x2 x3 x4 x5 x6 x7 x8, y ∈ pc.1.set :=
  View.cover_of_tiledL (pieces1_9 x0 x1 x2 x3 x4 x5 x6 x7 x8) S1x2048x256.size (by unfold pieces1_9; sl_kernel_rfl) y

/-! ## The body's triple -/

set_option maxHeartbeats 4000000 in
/-- The kernel body on whole staging memrefs, the inputs' at read contents and the output's at anything, runs to the
    continuation holding the inputs' as they were and the output's at `out1_9` of the inputs'. -/
theorem sound_kernel1 (c : Dev nD) (E : Set ℕ) (i : grid1.Coords) (arg2 : Memref sig .tc .vmem S1x2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x4x256x256 .f32) (harg9 : arg9.IsWhole) (arg10 : Memref sig .tc .vmem S1x4x256x256 .f32) (harg10 : arg10.IsWhole) (arg11 : Memref sig .tc .vmem S1x2048x1024 .f32) (harg11 : arg11.IsWhole)
    (x0 : Vec F S1x2048x1024 .f32) (x1 x2 x3 x4 x5 x6 : Vec F S1x1024 .f32) (x7 x8 : Vec F S1x4x256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out1_9 x0 x1 x2 x3 x4 x5 x6 x7 x8)) -∗ K ⟨⟩))
      ⊢ wp frame (wpE (defs₀ (F := F)) Variants.none c none) E (cc1__output_kernel i arg2 harg2 arg3 harg3 arg4 harg4 arg5 harg5 arg6 harg6 arg7 harg7 arg8 harg8 arg9 harg9 arg10 harg10 arg11 harg11) K := by
  simp only [cc1__output_kernel_eq_skeleton]; unfold cc1__output_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _ _ _ _ _ _ _ _ _)

end Cert.KernelIdeal.Hand

end
-- ==== Proof.KIRegion1.lean ====
/- Region 1 of the idealized kernel program (the second pallas_call, `cc1__output_kernel`), at a parameter `V` — the
   TensorCore's buffer contents when the region is entered: each window's block at a grid point (`iblk1`), the
   pipeline's proof data (`dat1`: every input's buffer keeps its block, the output's holds `out1_9` of the nine input
   blocks; the invariant is the scoped rest and the generator register, untouched; nothing owed), and the body
   obligation at every grid point (`body_obligation1`). Inputs 1–8 are not fetched at every point: where one is not,
   its block index has not moved, so its buffer still holds this point's block. -/
import proofs.«175229_j12481174962662_2_alg».proof.Proof.KIRegion1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the pipeline on core `c`: the arrays as the region finds them (`V`); after the body at point `t`
    each input's buffer at its block and the output's at `out1_9` of the nine input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 2000000 in
/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIFrame.lean ====
import proofs.«175229_j12481174962662_2_alg».proof.Proof.KIRegion0
import proofs.«175229_j12481174962662_2_alg».proof.Proof.KIRegion1
import proofs.«175229_j12481174962662_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: @main's four items (a host stretch, the score region, a host stretch, the output region)
from the launch to the return, with every unscoped buffer named at every boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the weight rows of the score region reshaped to [1, 1024]). -/
abbrev W1 : Dev nD → Valuation τ sig (Elt F) := fun c => StableHlo.after hostOps0 (W0 m ρ c)
abbrev VA1 : (c : Dev nD) → (b : Ref sig .tc) → Buf (Elt F) ((c : Thread nD τ).loc b) := fun c b => W1 m ρ c b
/-- At the score region's exit: its arrays at what its write-backs leave, every other buffer as entered. -/
def W2 (c : Dev nD) : Valuation τ sig (Elt F) :=
  Pipeline.withArrays spec0 c (W1 m ρ c) fun w => (dat0 (VA1 m ρ) c).arrAt w cfg0.N
theorem W2_arr (c : Dev nD) (w : Fin cfg0.W) :
    W2 m ρ c (Proc.devRef .tc (Pipeline.arrRef spec0 w)) = (dat0 (VA1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VA2 : (c : Dev nD) → (b : Ref sig .tc) → Buf (Elt F) ((c : Thread nD τ).loc b) := fun c b => W2 m ρ c b
theorem hF0 (c : Dev nD) (w : Fin cfg0.W) : (dat0 (VA1 m ρ) c).arrAt w cfg0.N = VA2 m ρ c (Pipeline.arrRef spec0 w) :=
  (W2_arr m ρ c w).symm
theorem hrest0 (c : Dev nD) : ∀ b, b ∉ Finset.univ.image (Pipeline.arrRef spec0) → VA2 m ρ c b = VA1 m ρ c b :=
  fun b hb => W2_of_ne m ρ c b fun w e => hb (Finset.mem_image.mpr ⟨w, Finset.mem_univ _, e⟩)

/-- After the second host stretch (the weight rows of the output region reshaped). -/
abbrev W3 : Dev nD → Valuation τ sig (Elt F) := fun c => StableHlo.after hostOps1 (W2 m ρ c)
abbrev VA3 : (c : Dev nD) → (b : Ref sig .tc) → Buf (Elt F) ((c : Thread nD τ).loc b) := fun c b => W3 m ρ c b
/-- At the output region's exit. -/
def W4 (c : Dev nD) : Valuation τ sig (Elt F) :=
  Pipeline.withArrays spec1 c (W3 m ρ c) fun w => (dat1 (VA3 m ρ) c).arrAt w cfg1.N
theorem W4_arr (c : Dev nD) (w : Fin cfg1.W) :
    W4 m ρ c (Proc.devRef .tc (Pipeline.arrRef spec1 w)) = (dat1 (VA3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VA4 : (c : Dev nD) → (b : Ref sig .tc) → Buf (Elt F) ((c : Thread nD τ).loc b) := fun c b => W4 m ρ c b
theorem hF1 (c : Dev nD) (w : Fin cfg1.W) : (dat1 (VA3 m ρ) c).arrAt w cfg1.N = VA4 m ρ c (Pipeline.arrRef spec1 w) :=
  (W4_arr m ρ c w).symm
theorem hrest1 (c : Dev nD) : ∀ b, b ∉ Finset.univ.image (Pipeline.arrRef spec1) → VA4 m ρ c b = VA3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide : main_arg0 ∉ hostOps1_W)
    _ = W1 m ρ c (Proc.devRef .tc main_arg0) := (W2_arr m ρ c 0).trans (((dat0 (VA1 m ρ) c).arrAt_in 0 rfl _).trans (A_eq0 (VA1 m ρ) c 0))
    _ = W0 m ρ c (Proc.devRef .tc main_arg0) := StableHlo.after_of_writes_sub hostOps0 (W0 m ρ c) hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 (W2 m ρ c) hostOps1_writes (by decide : main_arg1 ∉ hostOps1_W)
    _ = W1 m ρ c (Proc.devRef .tc main_arg1) := (W2_arr m ρ c 1).trans (((dat0 (VA1 m ρ) c).arrAt_in 1 rfl _).trans (A_eq0 (VA1 m ρ) c 1))
    _ = W0 m ρ c (Proc.devRef .tc main_arg1) := StableHlo.after_of_writes_sub hostOps0 (W0 m ρ c) hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 0).trans (((dat1 (VA3 m ρ) c).arrAt_in 0 rfl _).trans (A_eq1 (VA3 m ρ) c 0))
    _ = W2 m ρ c (Proc.devRef .tc main_arg2) := StableHlo.after_of_writes_sub hostOps1 (W2 m ρ c) hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 (W0 m ρ c) hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 (W2 m ρ c) hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 (W0 m ρ c) hostOps0_writes (by decide : main_arg3 ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 (W2 m ρ c) hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 (W0 m ρ c) hostOps0_writes (by decide : main_arg4 ∉ hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 (W2 m ρ c) hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 (W0 m ρ c) hostOps0_writes (by decide : main_arg5 ∉ hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 (W2 m ρ c) hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 (W0 m ρ c) hostOps0_writes (by decide : main_arg6 ∉ hostOps0_W)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 (W2 m ρ c) hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 (W0 m ρ c) hostOps0_writes (by decide : main_arg7 ∉ hostOps0_W)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 (W2 m ρ c) hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 (W0 m ρ c) hostOps0_writes (by decide : main_arg8 ∉ hostOps0_W)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 (W2 m ρ c) hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 (W0 m ρ c) hostOps0_writes (by decide : main_arg9 ∉ hostOps0_W)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 (W2 m ρ c) hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 (W0 m ρ c) hostOps0_writes (by decide : main_arg10 ∉ hostOps0_W)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 (W2 m ρ c) hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 (W0 m ρ c) hostOps0_writes (by decide : main_arg11 ∉ hostOps0_W)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 (W2 m ρ c) hostOps1_writes (by decide : main_arg12 ∉ hostOps1_W)
    _ = W1 m ρ c (Proc.devRef .tc main_arg12) := W2_of_ne m ρ c main_arg12 (by decide)
    _ = W0 m ρ c (Proc.devRef .tc main_arg12) := StableHlo.after_of_writes_sub hostOps0 (W0 m ρ c) hostOps0_writes (by decide : main_arg12 ∉ hostOps0_W)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 (W2 m ρ c) hostOps1_writes (by decide : main_arg13 ∉ hostOps1_W)
    _ = W1 m ρ c (Proc.devRef .tc main_arg13) := W2_of_ne m ρ c main_arg13 (by decide)
    _ = W0 m ρ c (Proc.devRef .tc main_arg13) := StableHlo.after_of_writes_sub hostOps0 (W0 m ρ c) hostOps0_writes (by decide : main_arg13 ∉ hostOps0_W)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 (W2 m ρ c) hostOps1_writes (by decide : main_arg14 ∉ hostOps1_W)
    _ = W1 m ρ c (Proc.devRef .tc main_arg14) := W2_of_ne m ρ c main_arg14 (by decide)
    _ = W0 m ρ c (Proc.devRef .tc main_arg14) := StableHlo.after_of_writes_sub hostOps0 (W0 m ρ c) hostOps0_writes (by decide : main_arg14 ∉ hostOps0_W)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 (W2 m ρ c) hostOps1_writes (by decide : main_arg15 ∉ hostOps1_W)
    _ = W1 m ρ c (Proc.devRef .tc main_arg15) := W2_of_ne m ρ c main_arg15 (by decide)
    _ = W0 m ρ c (Proc.devRef .tc main_arg15) := StableHlo.after_of_writes_sub hostOps0 (W0 m ρ c) hostOps0_writes (by decide : main_arg15 ∉ hostOps0_W)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 (W2 m ρ c) hostOps1_writes (by decide : main_arg16 ∉ hostOps1_W)
    _ = W1 m ρ c (Proc.devRef .tc main_arg16) := W2_of_ne m ρ c main_arg16 (by decide)
    _ = W0 m ρ c (Proc.devRef .tc main_arg16) := StableHlo.after_of_writes_sub hostOps0 (W0 m ρ c) hostOps0_writes (by decide : main_arg16 ∉ hostOps0_W)
    _ = m ((c : Thread nD τ).loc main_arg16) := rfl

/-- The result buffer at the end is what the output region's write-backs leave. -/
theorem W4_main_v15 (c : Dev nD) : W4 m ρ c (Proc.devRef .tc main_v15) = (dat1 (VA3 m ρ) c).arrAt 9 cfg1.N :=
  W4_arr m ρ c 9

/-! ## The proof data family and the thread state -/

abbrev admH : (p : Fin 2) → (pcfgs (F := F) p).Adm := fun p => (cfgs p).toPCfg_adm
/-- Every pipeline's proof data, each at its region's entry contents: a literal match. -/
def pdatsH : (p : Fin 2) → (c : Dev nD) → Dat τ (Elt F) Unit ℕ (UR sig nD τ) ℕ (Pipeline.pin (pcfgs (F := F)) admH p) c
  | ⟨0, _⟩ => fun c => dat0 (VA1 m ρ) c
  | ⟨1, _⟩ => fun c => dat1 (VA3 m ρ) c
abbrev 𝒱H : Variants := Variants.none
abbrev LH : GSem nD τ sig → Finset Unit := fun _ => ∅
abbrev lvH : GSem nD τ sig → Unit → ℕ := fun _ _ => 0
/-- What rides beside the buffers through every item: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0H : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VA1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (VA1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (VA1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = (dat0 (VA1 m ρ) c).Φ 0 from rfl]
    have h := hin0 (VA1 m ρ) c
    unfold Pipeline.ΦA at h
    iintro ⟨Hp, -, Hr⟩
    iapply h
    isplitl [Hr]; · iexact Hr
    iexact Hp
  hout c := by
    rw [Pipeline.ownSems0_none, show (pdatsH m ρ 0 c).Φ (Fin.last _) = (dat0 (VA1 m ρ) c).Φ (Fin.last cfg0.N) from rfl]
    have h := hout0 (VA1 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (VA1 m ρ c) (VA2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1H : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VA3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VA3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (VA3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (VA3 m ρ c) (VA4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (W0 m ρ)),
    .region (reg0H m ρ),
    .host (hsegH hostOps1 hostOps1_sub hostOps1_fresh (W2 m ρ)),
    .region (reg1H m ρ) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

/-- THE RUN WITH ITS RESULT NAMED: the result buffer ends at what the output region's write-backs leave, every
    argument array as launched. -/
theorem run_value : θ_run defs (onTc (τ := τ) (main (F := F))) ⟨m, fun _ => 0, ρ⟩ (fun r => ∀ c : Dev nD,
      r.2.mem ((c.tc : Thread nD τ).loc main_v15) = (dat1 (VA3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v15 (by decide))).trans (W4_main_v15 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

end Cert.KernelIdeal.Hand

end
-- ==== Proof.KIEntry.lean ====
/-
  What each of the two regions finds in its arrays when it is entered, in terms of the memory at launch.

  @main is four items: a host stretch that reshapes eight `[1024]` weight and bias rows to `[1, 1024]`, the score
  region, a host stretch that reshapes six more, and the output region. A reshape from `[1024]` to `[1, 1024]` reads,
  at `(0, ch)`, its operand at `ch`; a stretch leaves every buffer it does not write as it was; the score region
  leaves every buffer that is not one of its arrays as it was. Generic in the float instance.
-/
import proofs.«175229_j12481174962662_2_alg».proof.Proof.KIFrame
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem

variable {F : FTy → Type} [FloatOps F]
variable (m : (ℓ : Loc nD τ sig) → Buf (Elt F) ℓ) (ρ : Dev nD → PrngReg)

/-! ## The score region's arrays at its entry

The first host stretch writes eight `[1, 1024]` rows, each the reshape of a `[1024]` weight or bias argument, and
touches nothing else: the query and key arrays are as launched, and row `w` at `(0, ch)` is its argument at `ch`. -/

/-- The query array is as launched. -/
theorem entry0_q (c : Dev nD) : VA1 m ρ c (Pipeline.arrRef spec0 0) = m ((c : Thread nD τ).loc main_arg0) :=
  StableHlo.after_of_writes_sub hostOps0 (W0 m ρ c) hostOps0_writes (by decide : main_arg0 ∉ hostOps0_W)

/-- The key array is as launched. -/
theorem entry0_k (c : Dev nD) : VA1 m ρ c (Pipeline.arrRef spec0 1) = m ((c : Thread nD τ).loc main_arg1) :=
  StableHlo.after_of_writes_sub hostOps0 (W0 m ρ c) hostOps0_writes (by decide : main_arg1 ∉ hostOps0_W)

/-- After the first host stretch, row `main_v0` is argument 3 reshaped from `[1024]` to `[1, 1024]`. -/
theorem W1_main_v0 (c : Dev nD) :
    (W1 m ρ c (Proc.devRef .tc main_v0) : S1x1024.Idx → Elt F .f32)
      = shapeCast S1x1024 (m ((c : Thread nD τ).loc main_arg3)) shapeCasts_S1024_S1x1024 := by
  show StableHlo.after hostOps0 (W0 m ρ c) (Proc.devRef .tc main_v0) = _
  after_results
  rfl

/-- Window 2 of the score region, at `(0, ch)`: argument 3 at `ch`. -/
theorem entry0_row2 (c : Dev nD) (ch : Fin 1024) :
    VA1 m ρ c (Pipeline.arrRef spec0 2) (ix2 0 ch) = m ((c : Thread nD τ).loc main_arg3) (ix1 ch) := by
  show (W1 m ρ c (Proc.devRef .tc main_v0) : S1x1024.Idx → Elt F .f32) (ix2 0 ch) = _
  rw [W1_main_v0]
  exact shapeCast_a_1a_apply _ _ 0 ch

/-- After the first host stretch, row `main_v1` is argument 4 reshaped from `[1024]` to `[1, 1024]`. -/
theorem W1_main_v1 (c : Dev nD) :
    (W1 m ρ c (Proc.devRef .tc main_v1) : S1x1024.Idx → Elt F .f32)
      = shapeCast S1x1024 (m ((c : Thread nD τ).loc main_arg4)) shapeCasts_S1024_S1x1024 := by
  show StableHlo.after hostOps0 (W0 m ρ c) (Proc.devRef .tc main_v1) = _
  after_results
  rfl

/-- Window 3 of the score region, at `(0, ch)`: argument 4 at `ch`. -/
theorem entry0_row3 (c : Dev nD) (ch : Fin 1024) :
    VA1 m ρ c (Pipeline.arrRef spec0 3) (ix2 0 ch) = m ((c : Thread nD τ).loc main_arg4) (ix1 ch) := by
  show (W1 m ρ c (Proc.devRef .tc main_v1) : S1x1024.Idx → Elt F .f32) (ix2 0 ch) = _
  rw [W1_main_v1]
  exact shapeCast_a_1a_apply _ _ 0 ch

/-- After the first host stretch, row `main_v2` is argument 5 reshaped from `[1024]` to `[1, 1024]`. -/
theorem W1_main_v2 (c : Dev nD) :
    (W1 m ρ c (Proc.devRef .tc main_v2) : S1x1024.Idx → Elt F .f32)
      = shapeCast S1x1024 (m ((c : Thread nD τ).loc main_arg5)) shapeCasts_S1024_S1x1024 := by
  show StableHlo.after hostOps0 (W0 m ρ c) (Proc.devRef .tc main_v2) = _
  after_results
  rfl

/-- Window 4 of the score region, at `(0, ch)`: argument 5 at `ch`. -/
theorem entry0_row4 (c : Dev nD) (ch : Fin 1024) :
    VA1 m ρ c (Pipeline.arrRef spec0 4) (ix2 0 ch) = m ((c : Thread nD τ).loc main_arg5) (ix1 ch) := by
  show (W1 m ρ c (Proc.devRef .tc main_v2) : S1x1024.Idx → Elt F .f32) (ix2 0 ch) = _
  rw [W1_main_v2]
  exact shapeCast_a_1a_apply _ _ 0 ch

/-- After the first host stretch, row `main_v3` is argument 6 reshaped from `[1024]` to `[1, 1024]`. -/
theorem W1_main_v3 (c : Dev nD) :
    (W1 m ρ c (Proc.devRef .tc main_v3) : S1x1024.Idx → Elt F .f32)
      = shapeCast S1x1024 (m ((c : Thread nD τ).loc main_arg6)) shapeCasts_S1024_S1x1024 := by
  show StableHlo.after hostOps0 (W0 m ρ c) (Proc.devRef .tc main_v3) = _
  after_results
  rfl

/-- Window 5 of the score region, at `(0, ch)`: argument 6 at `ch`. -/
theorem entry0_row5 (c : Dev nD) (ch : Fin 1024) :
    VA1 m ρ c (Pipeline.arrRef spec0 5) (ix2 0 ch) = m ((c : Thread nD τ).loc main_arg6) (ix1 ch) := by
  show (W1 m ρ c (Proc.devRef .tc main_v3) : S1x1024.Idx → Elt F .f32) (ix2 0 ch) = _
  rw [W1_main_v3]
  exact shapeCast_a_1a_apply _ _ 0 ch

/-- After the first host stretch, row `main_v4` is argument 9 reshaped from `[1024]` to `[1, 1024]`. -/
theorem W1_main_v4 (c : Dev nD) :
    (W1 m ρ c (Proc.devRef .tc main_v4) : S1x1024.Idx → Elt F .f32)
      = shapeCast S1x1024 (m ((c : Thread nD τ).loc main_arg9)) shapeCasts_S1024_S1x1024 := by
  show StableHlo.after hostOps0 (W0 m ρ c) (Proc.devRef .tc main_v4) = _
  after_results
  rfl

/-- Window 6 of the score region, at `(0, ch)`: argument 9 at `ch`. -/
theorem entry0_row6 (c : Dev nD) (ch : Fin 1024) :
    VA1 m ρ c (Pipeline.arrRef spec0 6) (ix2 0 ch) = m ((c : Thread nD τ).loc main_arg9) (ix1 ch) := by
  show (W1 m ρ c (Proc.devRef .tc main_v4) : S1x1024.Idx → Elt F .f32) (ix2 0 ch) = _
  rw [W1_main_v4]
  exact shapeCast_a_1a_apply _ _ 0 ch

/-- After the first host stretch, row `main_v5` is argument 10 reshaped from `[1024]` to `[1, 1024]`. -/
theorem W1_main_v5 (c : Dev nD) :
    (W1 m ρ c (Proc.devRef .tc main_v5) : S1x1024.Idx → Elt F .f32)
      = shapeCast S1x1024 (m ((c : Thread nD τ).loc main_arg10)) shapeCasts_S1024_S1x1024 := by
  show StableHlo.after hostOps0 (W0 m ρ c) (Proc.devRef .tc main_v5) = _
  after_results
  rfl

/-- Window 7 of the score region, at `(0, ch)`: argument 10 at `ch`. -/
theorem entry0_row7 (c : Dev nD) (ch : Fin 1024) :
    VA1 m ρ c (Pipeline.arrRef spec0 7) (ix2 0 ch) = m ((c : Thread nD τ).loc main_arg10) (ix1 ch) := by
  show (W1 m ρ c (Proc.devRef .tc main_v5) : S1x1024.Idx → Elt F .f32) (ix2 0 ch) = _
  rw [W1_main_v5]
  exact shapeCast_a_1a_apply _ _ 0 ch

/-- After the first host stretch, row `main_v6` is argument 11 reshaped from `[1024]` to `[1, 1024]`. -/
theorem W1_main_v6 (c : Dev nD) :
    (W1 m ρ c (Proc.devRef .tc main_v6) : S1x1024.Idx → Elt F .f32)
      = shapeCast S1x1024 (m ((c : Thread nD τ).loc main_arg11)) shapeCasts_S1024_S1x1024 := by
  show StableHlo.after hostOps0 (W0 m ρ c) (Proc.devRef .tc main_v6) = _
  after_results
  rfl

/-- Window 8 of the score region, at `(0, ch)`: argument 11 at `ch`. -/
theorem entry0_row8 (c : Dev nD) (ch : Fin 1024) :
    VA1 m ρ c (Pipeline.arrRef spec0 8) (ix2 0 ch) = m ((c : Thread nD τ).loc main_arg11) (ix1 ch) := by
  show (W1 m ρ c (Proc.devRef .tc main_v6) : S1x1024.Idx → Elt F .f32) (ix2 0 ch) = _
  rw [W1_main_v6]
  exact shapeCast_a_1a_apply _ _ 0 ch

/-- After the first host stretch, row `main_v7` is argument 12 reshaped from `[1024]` to `[1, 1024]`. -/
theorem W1_main_v7 (c : Dev nD) :
    (W1 m ρ c (Proc.devRef .tc main_v7) : S1x1024.Idx → Elt F .f32)
      = shapeCast S1x1024 (m ((c : Thread nD τ).loc main_arg12)) shapeCasts_S1024_S1x1024 := by
  show StableHlo.after hostOps0 (W0 m ρ c) (Proc.devRef .tc main_v7) = _
  after_results
  rfl

/-- Window 9 of the score region, at `(0, ch)`: argument 12 at `ch`. -/
theorem entry0_row9 (c : Dev nD) (ch : Fin 1024) :
    VA1 m ρ c (Pipeline.arrRef spec0 9) (ix2 0 ch) = m ((c : Thread nD τ).loc main_arg12) (ix1 ch) := by
  show (W1 m ρ c (Proc.devRef .tc main_v7) : S1x1024.Idx → Elt F .f32) (ix2 0 ch) = _
  rw [W1_main_v7]
  exact shapeCast_a_1a_apply _ _ 0 ch

/-! ## The output region's arrays at its entry

The score region leaves every buffer that is not one of its arrays as it found it, and the second host stretch writes
six more reshaped rows and nothing else: the value array is as launched, row `w` at `(0, ch)` is its argument at
`ch`, and the two arrays of softmax weights are what the score region's write-backs left. -/

/-- An argument no region array and no host stretch writes is, after the score region, as launched. -/
theorem W2_arg_of (c : Dev nD) (b : Ref sig .tc) (hb : ∀ w, Pipeline.arrRef spec0 w ≠ b) (hW : b ∉ hostOps0_W) :
    W2 m ρ c (Proc.devRef .tc b) = W0 m ρ c (Proc.devRef .tc b) :=
  (W2_of_ne m ρ c b hb).trans (StableHlo.after_of_writes_sub hostOps0 (W0 m ρ c) hostOps0_writes hW)

/-- The value array is as launched. -/
theorem entry1_v (c : Dev nD) : VA3 m ρ c (Pipeline.arrRef spec1 0) = m ((c : Thread nD τ).loc main_arg2) :=
  (StableHlo.after_of_writes_sub hostOps1 (W2 m ρ c) hostOps1_writes (by decide : main_arg2 ∉ hostOps1_W)).trans
    (W2_arg_of m ρ c main_arg2 (by decide) (by decide))

/-- After the second host stretch, row `main_v9` is argument 7 reshaped from `[1024]` to `[1, 1024]`. -/
theorem W3_main_v9 (c : Dev nD) :
    (W3 m ρ c (Proc.devRef .tc main_v9) : S1x1024.Idx → Elt F .f32)
      = shapeCast S1x1024 (m ((c : Thread nD τ).loc main_arg7)) shapeCasts_S1024_S1x1024 := by
  show StableHlo.after hostOps1 (W2 m ρ c) (Proc.devRef .tc main_v9) = _
  after_results
  rw [W2_arg_of m ρ c main_arg7 (by decide) (by decide)]
  rfl

/-- Window 1 of the output region, at `(0, ch)`: argument 7 at `ch`. -/
theorem entry1_row1 (c : Dev nD) (ch : Fin 1024) :
    VA3 m ρ c (Pipeline.arrRef spec1 1) (ix2 0 ch) = m ((c : Thread nD τ).loc main_arg7) (ix1 ch) := by
  show (W3 m ρ c (Proc.devRef .tc main_v9) : S1x1024.Idx → Elt F .f32) (ix2 0 ch) = _
  rw [W3_main_v9]
  exact shapeCast_a_1a_apply _ _ 0 ch

/-- After the second host stretch, row `main_v10` is argument 8 reshaped from `[1024]` to `[1, 1024]`. -/
theorem W3_main_v10 (c : Dev nD) :
    (W3 m ρ c (Proc.devRef .tc main_v10) : S1x1024.Idx → Elt F .f32)
      = shapeCast S1x1024 (m ((c : Thread nD τ).loc main_arg8)) shapeCasts_S1024_S1x1024 := by
  show StableHlo.after hostOps1 (W2 m ρ c) (Proc.devRef .tc main_v10) = _
  after_results
  rw [W2_arg_of m ρ c main_arg8 (by decide) (by decide)]
  rfl

/-- Window 2 of the output region, at `(0, ch)`: argument 8 at `ch`. -/
theorem entry1_row2 (c : Dev nD) (ch : Fin 1024) :
    VA3 m ρ c (Pipeline.arrRef spec1 2) (ix2 0 ch) = m ((c : Thread nD τ).loc main_arg8) (ix1 ch) := by
  show (W3 m ρ c (Proc.devRef .tc main_v10) : S1x1024.Idx → Elt F .f32) (ix2 0 ch) = _
  rw [W3_main_v10]
  exact shapeCast_a_1a_apply _ _ 0 ch

/-- After the second host stretch, row `main_v11` is argument 13 reshaped from `[1024]` to `[1, 1024]`. -/
theorem W3_main_v11 (c : Dev nD) :
    (W3 m ρ c (Proc.devRef .tc main_v11) : S1x1024.Idx → Elt F .f32)
      = shapeCast S1x1024 (m ((c : Thread nD τ).loc main_arg13)) shapeCasts_S1024_S1x1024 := by
  show StableHlo.after hostOps1 (W2 m ρ c) (Proc.devRef .tc main_v11) = _
  after_results
  rw [W2_arg_of m ρ c main_arg13 (by decide) (by decide)]
  rfl

/-- Window 3 of the output region, at `(0, ch)`: argument 13 at `ch`. -/
theorem entry1_row3 (c : Dev nD) (ch : Fin 1024) :
    VA3 m ρ c (Pipeline.arrRef spec1 3) (ix2 0 ch) = m ((c : Thread nD τ).loc main_arg13) (ix1 ch) := by
  show (W3 m ρ c (Proc.devRef .tc main_v11) : S1x1024.Idx → Elt F .f32) (ix2 0 ch) = _
  rw [W3_main_v11]
  exact shapeCast_a_1a_apply _ _ 0 ch

/-- After the second host stretch, row `main_v12` is argument 14 reshaped from `[1024]` to `[1, 1024]`. -/
theorem W3_main_v12 (c : Dev nD) :
    (W3 m ρ c (Proc.devRef .tc main_v12) : S1x1024.Idx → Elt F .f32)
      = shapeCast S1x1024 (m ((c : Thread nD τ).loc main_arg14)) shapeCasts_S1024_S1x1024 := by
  show StableHlo.after hostOps1 (W2 m ρ c) (Proc.devRef .tc main_v12) = _
  after_results
  rw [W2_arg_of m ρ c main_arg14 (by decide) (by decide)]
  rfl

/-- Window 4 of the output region, at `(0, ch)`: argument 14 at `ch`. -/
theorem entry1_row4 (c : Dev nD) (ch : Fin 1024) :
    VA3 m ρ c (Pipeline.arrRef spec1 4) (ix2 0 ch) = m ((c : Thread nD τ).loc main_arg14) (ix1 ch) := by
  show (W3 m ρ c (Proc.devRef .tc main_v12) : S1x1024.Idx → Elt F .f32) (ix2 0 ch) = _
  rw [W3_main_v12]
  exact shapeCast_a_1a_apply _ _ 0 ch

/-- After the second host stretch, row `main_v13` is argument 15 reshaped from `[1024]` to `[1, 1024]`. -/
theorem W3_main_v13 (c : Dev nD) :
    (W3 m ρ c (Proc.devRef .tc main_v13) : S1x1024.Idx → Elt F .f32)
      = shapeCast S1x1024 (m ((c : Thread nD τ).loc main_arg15)) shapeCasts_S1024_S1x1024 := by
  show StableHlo.after hostOps1 (W2 m ρ c) (Proc.devRef .tc main_v13) = _
  after_results
  rw [W2_arg_of m ρ c main_arg15 (by decide) (by decide)]
  rfl

/-- Window 5 of the output region, at `(0, ch)`: argument 15 at `ch`. -/
theorem entry1_row5 (c : Dev nD) (ch : Fin 1024) :
    VA3 m ρ c (Pipeline.arrRef spec1 5) (ix2 0 ch) = m ((c : Thread nD τ).loc main_arg15) (ix1 ch) := by
  show (W3 m ρ c (Proc.devRef .tc main_v13) : S1x1024.Idx → Elt F .f32) (ix2 0 ch) = _
  rw [W3_main_v13]
  exact shapeCast_a_1a_apply _ _ 0 ch

/-- After the second host stretch, row `main_v14` is argument 16 reshaped from `[1024]` to `[1, 1024]`. -/
theorem W3_main_v14 (c : Dev nD) :
    (W3 m ρ c (Proc.devRef .tc main_v14) : S1x1024.Idx → Elt F .f32)
      = shapeCast S1x1024 (m ((c : Thread nD τ).loc main_arg16)) shapeCasts_S1024_S1x1024 := by
  show StableHlo.after hostOps1 (W2 m ρ c) (Proc.devRef .tc main_v14) = _
  after_results
  rw [W2_arg_of m ρ c main_arg16 (by decide) (by decide)]
  rfl

/-- Window 6 of the output region, at `(0, ch)`: argument 16 at `ch`. -/
theorem entry1_row6 (c : Dev nD) (ch : Fin 1024) :
    VA3 m ρ c (Pipeline.arrRef spec1 6) (ix2 0 ch) = m ((c : Thread nD τ).loc main_arg16) (ix1 ch) := by
  show (W3 m ρ c (Proc.devRef .tc main_v14) : S1x1024.Idx → Elt F .f32) (ix2 0 ch) = _
  rw [W3_main_v14]
  exact shapeCast_a_1a_apply _ _ 0 ch

/-- The global branch's softmax weights are what the score region's write-backs left in its window 10. -/
theorem entry1_attg (c : Dev nD) : VA3 m ρ c (Pipeline.arrRef spec1 7) = (dat0 (VA1 m ρ) c).arrAt 10 cfg0.N :=
  (StableHlo.after_of_writes_sub hostOps1 (W2 m ρ c) hostOps1_writes (by decide : main_v8_0 ∉ hostOps1_W)).trans
    (W2_arr m ρ c 10)

/-- The local branch's softmax weights are what the score region's write-backs left in its window 11. -/
theorem entry1_attl (c : Dev nD) : VA3 m ρ c (Pipeline.arrRef spec1 8) = (dat0 (VA1 m ρ) c).arrAt 11 cfg0.N :=
  (StableHlo.after_of_writes_sub hostOps1 (W2 m ρ c) hostOps1_writes (by decide : main_v8_1 ∉ hostOps1_W)).trans
    (W2_arr m ρ c 11)

end Cert.KernelIdeal.HandValue

end
-- ==== Proof.KIRegion0Blocks.lean ====
import proofs.«175229_j12481174962662_2_alg».proof.Proof.KIRegion0
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The score region: where each block sits in its array

Point `t` of the 8 × 2 grid is batch `t / 2`, token tile `t % 2`: the query and key windows' block at `t` is rows
`(t % 2) · 2048 …` of batch `t / 2`; the eight weight rows are one block; an attention window's block is batch `t / 2`. -/

theorem lt16 (t : Fin cfg0.N) : t.val < 16 := lt_of_lt_of_eq t.isLt (show cfg0.N = 16 from N_0)

/-- The batch a point works on. -/
def batchOf (t : Fin cfg0.N) : Fin 8 := ⟨t.val / 2, by have := lt16 t; omega⟩
/-- Row `n` of a point's token tile, as a row of the whole token axis. -/
def tokenOf (t : Fin cfg0.N) (n : Fin 2048) : Fin 4096 := ⟨t.val % 2 * 2048 + n.val, by have := n.isLt; omega⟩

/-- The printed index maps of the two streamed inputs and the two attention outputs, decided over the grid. -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_10.index t (0 : Fin 4) = t.val / 2 ∧ win0_10.index t (1 : Fin 4) = 0 ∧ win0_10.index t (2 : Fin 4) = 0 ∧ win0_10.index t (3 : Fin 4) = 0
    ∧ win0_11.index t (0 : Fin 4) = t.val / 2 ∧ win0_11.index t (1 : Fin 4) = 0 ∧ win0_11.index t (2 : Fin 4) = 0 ∧ win0_11.index t (3 : Fin 4) = 0 :=
  (by decide +kernel : ∀ t : Fin grid0.N, _)

/-- The eight weight rows are one block at every point. -/
theorem idx_rows0 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

section
variable (V : (c : Dev nD) → (b : Ref sig .tc) → Buf (Elt F) ((c : Thread nD τ).loc b))

/-- The query block at a point, read at a row and a channel, is the query array at that batch, token and channel. -/
theorem iblk0_0_apply (c : Dev nD) (t : Fin cfg0.N) (n : Fin 2048) (ch : Fin 1024) :
    iblk0 V c 0 t (ix3 0 n ch) = V c (Pipeline.arrRef spec0 0) (ix3 (batchOf t) (tokenOf t n) ch) := by
  obtain ⟨e0, e1, e2, -⟩ := idx_facts0 t
  show V c (Pipeline.arrRef spec0 0) (((cfg0.win 0).blk t).view.emb (ix3 0 n ch)) = _
  refine congrArg _ ?_
  funext a; apply Fin.ext
  match a with
  | ⟨0, _⟩ => show win0_0.index t (0 : Fin 3) * 1 + 1 * 0 = t.val / 2; omega
  | ⟨1, _⟩ => show win0_0.index t (1 : Fin 3) * 2048 + 1 * n.val = t.val % 2 * 2048 + n.val; omega
  | ⟨2, _⟩ => show win0_0.index t (2 : Fin 3) * 1024 + 1 * ch.val = ch.val; omega

/-- The same for the key block. -/
theorem iblk0_1_apply (c : Dev nD) (t : Fin cfg0.N) (n : Fin 2048) (ch : Fin 1024) :
    iblk0 V c 1 t (ix3 0 n ch) = V c (Pipeline.arrRef spec0 1) (ix3 (batchOf t) (tokenOf t n) ch) := by
  obtain ⟨-, -, -, e0, e1, e2, -⟩ := idx_facts0 t
  show V c (Pipeline.arrRef spec0 1) (((cfg0.win 1).blk t).view.emb (ix3 0 n ch)) = _
  refine congrArg _ ?_
  funext a; apply Fin.ext
  match a with
  | ⟨0, _⟩ => show win0_1.index t (0 : Fin 3) * 1 + 1 * 0 = t.val / 2; omega
  | ⟨1, _⟩ => show win0_1.index t (1 : Fin 3) * 2048 + 1 * n.val = t.val % 2 * 2048 + n.val; omega
  | ⟨2, _⟩ => show win0_1.index t (2 : Fin 3) * 1024 + 1 * ch.val = ch.val; omega

/-- A weight row's block is the row. -/
theorem iblk0_2_apply (c : Dev nD) (t : Fin cfg0.N) (ch : Fin 1024) :
    iblk0 V c 2 t (ix2 0 ch) = V c (Pipeline.arrRef spec0 2) (ix2 0 ch) := by
  obtain ⟨e0, e1, -⟩ := idx_rows0 t
  show V c (Pipeline.arrRef spec0 2) (((cfg0.win 2).blk t).view.emb (ix2 0 ch)) = _
  refine congrArg _ ?_
  funext a; apply Fin.ext
  match a with
  | ⟨0, _⟩ => show win0_2.index t (0 : Fin 2) * 1 + 1 * 0 = 0; omega
  | ⟨1, _⟩ => show win0_2.index t (1 : Fin 2) * 1024 + 1 * ch.val = ch.val; omega

/-- A weight row's block is the row. -/
theorem iblk0_3_apply (c : Dev nD) (t : Fin cfg0.N) (ch : Fin 1024) :
    iblk0 V c 3 t (ix2 0 ch) = V c (Pipeline.arrRef spec0 3) (ix2 0 ch) := by
  obtain ⟨-, -, e0, e1, -⟩ := idx_rows0 t
  show V c (Pipeline.arrRef spec0 3) (((cfg0.win 3).blk t).view.emb (ix2 0 ch)) = _
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * ch.val = ch.val; omega

/-- A weight row's block is the row. -/
theorem iblk0_4_apply (c : Dev nD) (t : Fin cfg0.N) (ch : Fin 1024) :
    iblk0 V c 4 t (ix2 0 ch) = V c (Pipeline.arrRef spec0 4) (ix2 0 ch) := by
  obtain ⟨-, -, -, -, e0, e1, -⟩ := idx_rows0 t
  show V c (Pipeline.arrRef spec0 4) (((cfg0.win 4).blk t).view.emb (ix2 0 ch)) = _
  refine congrArg _ ?_
  funext a; apply Fin.ext
  match a with
  | ⟨0, _⟩ => show win0_4.index t (0 : Fin 2) * 1 + 1 * 0 = 0; omega
  | ⟨1, _⟩ => show win0_4.index t (1 : Fin 2) * 1024 + 1 * ch.val = ch.val; omega

/-- A weight row's block is the row. -/
theorem iblk0_5_apply (c : Dev nD) (t : Fin cfg0.N) (ch : Fin 1024) :
    iblk0 V c 5 t (ix2 0 ch) = V c (Pipeline.arrRef spec0 5) (ix2 0 ch) := by
  obtain ⟨-, -, -, -, -, -, e0, e1, -⟩ := idx_rows0 t
  show V c (Pipeline.arrRef spec0 5) (((cfg0.win 5).blk t).view.emb (ix2 0 ch)) = _
  refine congrArg _ ?_
  funext a; apply Fin.ext
  match a with
  | ⟨0, _⟩ => show win0_5.index t (0 : Fin 2) * 1 + 1 * 0 = 0; omega
  | ⟨1, _⟩ => show win0_5.index t (1 : Fin 2) * 1024 + 1 * ch.val = ch.val; omega

/-- A weight row's block is the row. -/
theorem iblk0_6_apply (c : Dev nD) (t : Fin cfg0.N) (ch : Fin 1024) :
    iblk0 V c 6 t (ix2 0 ch) = V c (Pipeline.arrRef spec0 6) (ix2 0 ch) := by
  obtain ⟨-, -, -, -, -, -, -, -, e0, e1, -⟩ := idx_rows0 t
  show V c (Pipeline.arrRef spec0 6) (((cfg0.win 6).blk t).view.emb (ix2 0 ch)) = _
  refine congrArg _ ?_
  funext a; apply Fin.ext
  match a with
  | ⟨0, _⟩ => show win0_6.index t (0 : Fin 2) * 1 + 1 * 0 = 0; omega
  | ⟨1, _⟩ => show win0_6.index t (1 : Fin 2) * 1024 + 1 * ch.val = ch.val; omega

/-- A weight row's block is the row. -/
theorem iblk0_7_apply (c : Dev nD) (t : Fin cfg0.N) (ch : Fin 1024) :
    iblk0 V c 7 t (ix2 0 ch) = V c (Pipeline.arrRef spec0 7) (ix2 0 ch) := by
  obtain ⟨-, -, -, -, -, -, -, -, -, -, e0, e1, -⟩ := idx_rows0 t
  show V c (Pipeline.arrRef spec0 7) (((cfg0.win 7).blk t).view.emb (ix2 0 ch)) = _
  refine congrArg _ ?_
  funext a; apply Fin.ext
  match a with
  | ⟨0, _⟩ => show win0_7.index t (0 : Fin 2) * 1 + 1 * 0 = 0; omega
  | ⟨1, _⟩ => show win0_7.index t (1 : Fin 2) * 1024 + 1 * ch.val = ch.val; omega

/-- A weight row's block is the row. -/
theorem iblk0_8_apply (c : Dev nD) (t : Fin cfg0.N) (ch : Fin 1024) :
    iblk0 V c 8 t (ix2 0 ch) = V c (Pipeline.arrRef spec0 8) (ix2 0 ch) := by
  obtain ⟨-, -, -, -, -, -, -, -, -, -, -, -, e0, e1, -⟩ := idx_rows0 t
  show V c (Pipeline.arrRef spec0 8) (((cfg0.win 8).blk t).view.emb (ix2 0 ch)) = _
  refine congrArg _ ?_
  funext a; apply Fin.ext
  match a with
  | ⟨0, _⟩ => show win0_8.index t (0 : Fin 2) * 1 + 1 * 0 = 0; omega
  | ⟨1, _⟩ => show win0_8.index t (1 : Fin 2) * 1024 + 1 * ch.val = ch.val; omega

/-- A weight row's block is the row. -/
theorem iblk0_9_apply (c : Dev nD) (t : Fin cfg0.N) (ch : Fin 1024) :
    iblk0 V c 9 t (ix2 0 ch) = V c (Pipeline.arrRef spec0 9) (ix2 0 ch) := by
  obtain ⟨-, -, -, -, -, -, -, -, -, -, -, -, -, -, e0, e1⟩ := idx_rows0 t
  show V c (Pipeline.arrRef spec0 9) (((cfg0.win 9).blk t).view.emb (ix2 0 ch)) = _
  refine congrArg _ ?_
  funext a; apply Fin.ext
  match a with
  | ⟨0, _⟩ => show win0_9.index t (0 : Fin 2) * 1 + 1 * 0 = 0; omega
  | ⟨1, _⟩ => show win0_9.index t (1 : Fin 2) * 1024 + 1 * ch.val = ch.val; omega

end

end Cert.KernelIdeal.HandValue

end
-- ==== Proof.Spec.lean ====
/-
  The value both programs compute, index by index, on the extended reals.

  Tokens are indexed (batch, position, channel) over 8 × 4096 × 1024; the 1024 channels are 4 heads of 256 lanes,
  channel = head · 256 + lane. Each of q, k, v goes through a per-channel affine map x · w + b. For one head the
  score of a query lane against a key lane is the sum over the 4096 positions of the two affine images; the score is
  scaled by 2⁻⁵ (the word 0x3D000000), each row (over key lanes) has its maximum subtracted — the maximum taken from
  −∞ (the word 0xFF800000) and once more against −∞ —, is exponentiated and divided by its sum: a row softmax. The
  mix of a query lane at a position is the sum over key lanes of the softmax weight times v's affine image. Two such
  mixes, with two sets of weights (a global and a local branch), are added, and the sum goes through one more
  per-channel affine map.
-/
import Idealize.ShloMosaic.PureOps.Ideal
import Idealize.ShloMosaic.Lib.ValueIdx

noncomputable section

open scoped BigOperators

namespace Cert.Spec

open Idealize.ShloMosaic Idealize.ShloMosaic.ValueIdx

/-- Tokens: 8 batches × 4096 positions × 1024 channels. -/
abbrev SX : Shape := ⟨3, ![8, 4096, 1024]⟩
/-- One weight, or one bias, per channel. -/
abbrev SW : Shape := ⟨1, ![1024]⟩

/-- The channel of lane `d` of head `h`. -/
def chan (h : Fin 4) (d : Fin 256) : Fin 1024 :=
  ⟨h.val * 256 + d.val, by have := h.isLt; have := d.isLt; omega⟩
/-- The head a channel belongs to. -/
def head (ch : Fin 1024) : Fin 4 := ⟨ch.val / 256, by have := ch.isLt; omega⟩
/-- A channel's lane inside its head. -/
def lane (ch : Fin 1024) : Fin 256 := ⟨ch.val % 256, by have := ch.isLt; omega⟩

theorem chan_val (h : Fin 4) (d : Fin 256) : (chan h d).val = h.val * 256 + d.val := rfl
theorem head_val (ch : Fin 1024) : (head ch).val = ch.val / 256 := rfl
theorem lane_val (ch : Fin 1024) : (lane ch).val = ch.val % 256 := rfl

theorem chan_head_lane (ch : Fin 1024) : chan (head ch) (lane ch) = ch :=
  Fin.ext (by rw [chan_val, head_val, lane_val]; omega)
theorem head_chan (h : Fin 4) (d : Fin 256) : head (chan h d) = h :=
  Fin.ext (by rw [head_val, chan_val]; have := d.isLt; omega)
theorem lane_chan (h : Fin 4) (d : Fin 256) : lane (chan h d) = d :=
  Fin.ext (by rw [lane_val, chan_val]; have := d.isLt; omega)

/-- The per-channel affine map x · w + b, at batch `bb`, position `n`, channel `ch`. -/
def aff (x : SX.Idx → EReal) (w b : SW.Idx → EReal) (bb : Fin 8) (n : Fin 4096) (ch : Fin 1024) : EReal :=
  x (ix3 bb n ch) * w (ix1 ch) + b (ix1 ch)

/-- One head's score of query lane `qd` against key lane `kd`: the sum over the positions. -/
def score (q k : SX.Idx → EReal) (wq bq wk bk : SW.Idx → EReal)
    (bb : Fin 8) (h : Fin 4) (qd kd : Fin 256) : EReal :=
  ∑ n : Fin 4096, aff q wq bq bb n (chan h qd) * aff k wk bk bb n (chan h kd)

/-- The score times 2⁻⁵. -/
def scaled (q k : SX.Idx → EReal) (wq bq wk bk : SW.Idx → EReal)
    (bb : Fin 8) (h : Fin 4) (qd kd : Fin 256) : EReal :=
  score q k wq bq wk bk bb h qd kd * Ideal.ofBits .f32 0x3D000000#32

/-- A row's maximum over the key lanes, folded from −∞, and once more against −∞. -/
def rowmax (q k : SX.Idx → EReal) (wq bq wk bk : SW.Idx → EReal)
    (bb : Fin 8) (h : Fin 4) (qd : Fin 256) : EReal :=
  max (Ideal.ofBits .f32 0xFF800000#32)
    ((Finset.univ : Finset (Fin 256)).fold max (Ideal.ofBits .f32 0xFF800000#32)
      (fun kd => scaled q k wq bq wk bk bb h qd kd))

/-- The exponential of a scaled score less its row's maximum. -/
def e (q k : SX.Idx → EReal) (wq bq wk bk : SW.Idx → EReal)
    (bb : Fin 8) (h : Fin 4) (qd kd : Fin 256) : EReal :=
  Ideal.exp (scaled q k wq bq wk bk bb h qd kd - rowmax q k wq bq wk bk bb h qd)

/-- The softmax weight: the exponential divided by its row's sum. -/
def att (q k : SX.Idx → EReal) (wq bq wk bk : SW.Idx → EReal)
    (bb : Fin 8) (h : Fin 4) (qd kd : Fin 256) : EReal :=
  Ideal.div (e q k wq bq wk bk bb h qd kd) (∑ kd' : Fin 256, e q k wq bq wk bk bb h qd kd')

/-- One branch's mix at position `n`, head `h`, lane `qd`: the sum over key lanes of weight times v's affine image. -/
def mix (q k v : SX.Idx → EReal) (wq bq wk bk wv bv : SW.Idx → EReal)
    (bb : Fin 8) (n : Fin 4096) (h : Fin 4) (qd : Fin 256) : EReal :=
  ∑ kd : Fin 256, att q k wq bq wk bk bb h qd kd * aff v wv bv bb n (chan h kd)

/-- The result at batch `bb`, position `n`, channel `ch`: the two branches' mixes added, then · wp + bp. -/
def out (q k v : SX.Idx → EReal)
    (wq_g bq_g wk_g bk_g wv_g bv_g wq_l bq_l wk_l bk_l wv_l bv_l wp bp : SW.Idx → EReal)
    (bb : Fin 8) (n : Fin 4096) (ch : Fin 1024) : EReal :=
  (mix q k v wq_g bq_g wk_g bk_g wv_g bv_g bb n (head ch) (lane ch)
    + mix q k v wq_l bq_l wk_l bk_l wv_l bv_l bb n (head ch) (lane ch)) * wp (ix1 ch) + bp (ix1 ch)

/-- The result array, as one function of the seventeen argument arrays. -/
def G (q k v : SX.Idx → EReal)
    (wq_g bq_g wk_g bk_g wv_g bv_g wq_l bq_l wk_l bk_l wv_l bv_l wp bp : SW.Idx → EReal) : SX.Idx → EReal :=
  fun i => out q k v wq_g bq_g wk_g bk_g wv_g bv_g wq_l bq_l wk_l bk_l wv_l bv_l wp bp (i 0) (i 1) (i 2)

/-- `G` at an index given by its coordinates. -/
theorem G_ix3 (q k v : SX.Idx → EReal)
    (wq_g bq_g wk_g bk_g wv_g bv_g wq_l bq_l wk_l bk_l wv_l bv_l wp bp : SW.Idx → EReal)
    (bb : Fin 8) (n : Fin 4096) (ch : Fin 1024) :
    G q k v wq_g bq_g wk_g bk_g wv_g bv_g wq_l bq_l wk_l bk_l wv_l bv_l wp bp (ix3 bb n ch)
      = out q k v wq_g bq_g wk_g bk_g wv_g bv_g wq_l bq_l wk_l bk_l wv_l bv_l wp bp bb n ch := rfl

/-- `G` at lane `d` of head `h`. -/
theorem G_chan (q k v : SX.Idx → EReal)
    (wq_g bq_g wk_g bk_g wv_g bv_g wq_l bq_l wk_l bk_l wv_l bv_l wp bp : SW.Idx → EReal)
    (bb : Fin 8) (n : Fin 4096) (h : Fin 4) (d : Fin 256) :
    G q k v wq_g bq_g wk_g bk_g wv_g bv_g wq_l bq_l wk_l bk_l wv_l bv_l wp bp (ix3 bb n (chan h d))
      = (mix q k v wq_g bq_g wk_g bk_g wv_g bv_g bb n h d
          + mix q k v wq_l bq_l wk_l bk_l wv_l bv_l bb n h d) * wp (ix1 (chan h d)) + bp (ix1 (chan h d)) := by
  rw [G_ix3, out, head_chan, lane_chan]

end Cert.Spec

end
-- ==== Proof.KSpec.lean ====
/-
  The same result in the arrangement the kernel computes it in, and the proof that it is the specification's.

  The kernel accumulates each head's scores over two tiles of 2048 positions, starting from zero: the accumulator is
  (0 + first tile's partial sum) + second tile's partial sum, which is the sum over all 4096 positions — a finite
  sum split at 2048, and 0 + x = x. The softmax row is then the specification's, over the accumulator. For the mix
  the kernel places the global and the local branch side by side along the contracted axis, 256 + 256 = 512 terms:
  v's two affine images next to each other, the two softmax matrices (transposed) stacked; one sum over the 512 terms
  is the sum of the two branches' sums — a finite sum split at 256 — and each term is the specification's with its
  two factors exchanged. Only commutativity and associativity of + and ·, 0 + x = x, and re-indexing of finite sums
  are used.
-/
import proofs.«175229_j12481174962662_2_alg».proof.Proof.Spec
import Mathlib.Algebra.BigOperators.Fin

noncomputable section

open scoped BigOperators

namespace Cert.KSpec

open Cert.Spec Idealize.ShloMosaic Idealize.ShloMosaic.ValueIdx

/-! ## Finite sums split in two -/

/-- A sum over 4096 terms is the sum of its first 2048 and of its last 2048 terms. -/
theorem sum_4096_castAdd {M : Type*} [AddCommMonoid M] (f : Fin 4096 → M) :
    ∑ n : Fin 4096, f n
      = ∑ n : Fin 2048, f (Fin.castAdd 2048 n) + ∑ n : Fin 2048, f (Fin.natAdd 2048 n) :=
  Fin.sum_univ_add (a := 2048) (b := 2048) f

/-- The same, the two halves' indices written by their values: `n` and `2048 + n`. -/
theorem sum_4096_val {M : Type*} [AddCommMonoid M] (f : Fin 4096 → M) :
    ∑ n : Fin 4096, f n
      = ∑ n : Fin 2048, f ⟨n.val, by omega⟩ + ∑ n : Fin 2048, f ⟨2048 + n.val, by omega⟩ :=
  sum_4096_castAdd f

/-- The same, the second half's index written `n + 2048`. -/
theorem sum_4096_val' {M : Type*} [AddCommMonoid M] (f : Fin 4096 → M) :
    ∑ n : Fin 4096, f n
      = ∑ n : Fin 2048, f ⟨n.val, by omega⟩ + ∑ n : Fin 2048, f ⟨n.val + 2048, by omega⟩ := by
  rw [sum_4096_val f]
  exact congrArg _ (Finset.sum_congr rfl fun n _ => congrArg f (Fin.ext (Nat.add_comm _ _)))

/-- A sum over 512 terms is the sum of its first 256 and of its last 256 terms. -/
theorem sum_512_castAdd {M : Type*} [AddCommMonoid M] (f : Fin 512 → M) :
    ∑ j : Fin 512, f j = ∑ j : Fin 256, f (Fin.castAdd 256 j) + ∑ j : Fin 256, f (Fin.natAdd 256 j) :=
  Fin.sum_univ_add (a := 256) (b := 256) f

/-- The same, the two halves' indices written by their values: `j` and `256 + j`. -/
theorem sum_512_val {M : Type*} [AddCommMonoid M] (f : Fin 512 → M) :
    ∑ j : Fin 512, f j
      = ∑ j : Fin 256, f ⟨j.val, by omega⟩ + ∑ j : Fin 256, f ⟨256 + j.val, by omega⟩ :=
  sum_512_castAdd f

/-- The same, the second half's index written `j + 256`. -/
theorem sum_512_val' {M : Type*} [AddCommMonoid M] (f : Fin 512 → M) :
    ∑ j : Fin 512, f j
      = ∑ j : Fin 256, f ⟨j.val, by omega⟩ + ∑ j : Fin 256, f ⟨j.val + 256, by omega⟩ := by
  rw [sum_512_val f]
  exact congrArg _ (Finset.sum_congr rfl fun j _ => congrArg f (Fin.ext (Nat.add_comm _ _)))

/-! ## The accumulated score -/

/-- Position `n` of tile `tile`: the 4096 positions are two tiles of 2048. -/
def tileIdx (tile : Fin 2) (n : Fin 2048) : Fin 4096 := ⟨tile.val * 2048 + n.val, by omega⟩

theorem tileIdx_zero (n : Fin 2048) : tileIdx 0 n = ⟨n.val, by omega⟩ :=
  Fin.ext (by show 0 * 2048 + n.val = n.val; omega)
theorem tileIdx_one (n : Fin 2048) : tileIdx 1 n = ⟨2048 + n.val, by omega⟩ :=
  Fin.ext (by show 1 * 2048 + n.val = 2048 + n.val; omega)

/-- Zero, plus the first tile's terms, plus the second tile's terms: all 4096 terms. -/
theorem sum_two_tiles (f : Fin 4096 → EReal) :
    ((0 : EReal) + ∑ n : Fin 2048, f (tileIdx 0 n)) + ∑ n : Fin 2048, f (tileIdx 1 n) = ∑ n : Fin 4096, f n := by
  rw [zero_add, sum_4096_val f]
  exact congrArg₂ (· + ·) (Finset.sum_congr rfl fun n _ => congrArg f (tileIdx_zero n))
    (Finset.sum_congr rfl fun n _ => congrArg f (tileIdx_one n))

/-- One tile's partial score of query lane `qd` against key lane `kd`. -/
def part (q k : SX.Idx → EReal) (wq bq wk bk : SW.Idx → EReal)
    (bb : Fin 8) (tile : Fin 2) (h : Fin 4) (qd kd : Fin 256) : EReal :=
  ∑ n : Fin 2048, aff q wq bq bb (tileIdx tile n) (chan h qd) * aff k wk bk bb (tileIdx tile n) (chan h kd)

/-- The accumulator after both tiles: reset to zero, the first tile added, the second tile added. -/
def acc (q k : SX.Idx → EReal) (wq bq wk bk : SW.Idx → EReal)
    (bb : Fin 8) (h : Fin 4) (qd kd : Fin 256) : EReal :=
  ((0 : EReal) + part q k wq bq wk bk bb 0 h qd kd) + part q k wq bq wk bk bb 1 h qd kd

/-- The accumulator holds the score. -/
theorem acc_eq_score (q k : SX.Idx → EReal) (wq bq wk bk : SW.Idx → EReal)
    (bb : Fin 8) (h : Fin 4) (qd kd : Fin 256) :
    acc q k wq bq wk bk bb h qd kd = score q k wq bq wk bk bb h qd kd :=
  sum_two_tiles fun n => aff q wq bq bb n (chan h qd) * aff k wk bk bb n (chan h kd)

/-! ## The softmax row over the accumulator -/

/-- The accumulator times 2⁻⁵. -/
def kscaled (q k : SX.Idx → EReal) (wq bq wk bk : SW.Idx → EReal)
    (bb : Fin 8) (h : Fin 4) (qd kd : Fin 256) : EReal :=
  acc q k wq bq wk bk bb h qd kd * Ideal.ofBits .f32 0x3D000000#32

/-- The row's maximum, folded from −∞ and once more against −∞. -/
def krowmax (q k : SX.Idx → EReal) (wq bq wk bk : SW.Idx → EReal)
    (bb : Fin 8) (h : Fin 4) (qd : Fin 256) : EReal :=
  max (Ideal.ofBits .f32 0xFF800000#32)
    ((Finset.univ : Finset (Fin 256)).fold max (Ideal.ofBits .f32 0xFF800000#32)
      (fun kd => kscaled q k wq bq wk bk bb h qd kd))

/-- The exponential of the scaled accumulator less its row's maximum. -/
def ke (q k : SX.Idx → EReal) (wq bq wk bk : SW.Idx → EReal)
    (bb : Fin 8) (h : Fin 4) (qd kd : Fin 256) : EReal :=
  Ideal.exp (kscaled q k wq bq wk bk bb h qd kd - krowmax q k wq bq wk bk bb h qd)

/-- The softmax weight. -/
def katt (q k : SX.Idx → EReal) (wq bq wk bk : SW.Idx → EReal)
    (bb : Fin 8) (h : Fin 4) (qd kd : Fin 256) : EReal :=
  Ideal.div (ke q k wq bq wk bk bb h qd kd) (∑ kd' : Fin 256, ke q k wq bq wk bk bb h qd kd')

theorem kscaled_eq_scaled (q k : SX.Idx → EReal) (wq bq wk bk : SW.Idx → EReal)
    (bb : Fin 8) (h : Fin 4) (qd kd : Fin 256) :
    kscaled q k wq bq wk bk bb h qd kd = scaled q k wq bq wk bk bb h qd kd := by
  unfold kscaled scaled
  rw [acc_eq_score]

theorem krowmax_eq_rowmax (q k : SX.Idx → EReal) (wq bq wk bk : SW.Idx → EReal)
    (bb : Fin 8) (h : Fin 4) (qd : Fin 256) :
    krowmax q k wq bq wk bk bb h qd = rowmax q k wq bq wk bk bb h qd := by
  unfold krowmax rowmax
  rw [show (fun kd => kscaled q k wq bq wk bk bb h qd kd) = fun kd => scaled q k wq bq wk bk bb h qd kd from
    funext fun kd => kscaled_eq_scaled q k wq bq wk bk bb h qd kd]

theorem ke_eq_e (q k : SX.Idx → EReal) (wq bq wk bk : SW.Idx → EReal)
    (bb : Fin 8) (h : Fin 4) (qd kd : Fin 256) :
    ke q k wq bq wk bk bb h qd kd = e q k wq bq wk bk bb h qd kd := by
  unfold ke e
  rw [kscaled_eq_scaled, krowmax_eq_rowmax]

/-- Over the accumulator the softmax row is the specification's. -/
theorem katt_eq_att (q k : SX.Idx → EReal) (wq bq wk bk : SW.Idx → EReal)
    (bb : Fin 8) (h : Fin 4) (qd kd : Fin 256) :
    katt q k wq bq wk bk bb h qd kd = att q k wq bq wk bk bb h qd kd := by
  unfold katt att
  rw [ke_eq_e, Finset.sum_congr rfl fun kd' _ => ke_eq_e q k wq bq wk bk bb h qd kd']

/-! ## The two branches side by side -/

/-- v's global and local affine images next to each other along the contracted axis. -/
def vcat (v : SX.Idx → EReal) (wvg bvg wvl bvl : SW.Idx → EReal)
    (bb : Fin 8) (n : Fin 4096) (h : Fin 4) (j : Fin 512) : EReal :=
  if hj : j.val < 256 then aff v wvg bvg bb n (chan h ⟨j.val, hj⟩)
  else aff v wvl bvl bb n (chan h ⟨j.val - 256, by omega⟩)

/-- The two transposed softmax matrices stacked: row `j`, column `qd`; `attg qd kd` is the softmax's (qd, kd) entry. -/
def acat (attg attl : Fin 256 → Fin 256 → EReal) (j : Fin 512) (qd : Fin 256) : EReal :=
  if hj : j.val < 256 then attg qd ⟨j.val, hj⟩ else attl qd ⟨j.val - 256, by omega⟩

/-- A sum over 512 products whose factors are each given in two halves is the first halves' sum of products plus
    the second halves'. -/
theorem sum_cat (a b c d : Fin 256 → EReal) :
    ∑ j : Fin 512, (if hj : j.val < 256 then a ⟨j.val, hj⟩ else b ⟨j.val - 256, by omega⟩)
        * (if hj : j.val < 256 then c ⟨j.val, hj⟩ else d ⟨j.val - 256, by omega⟩)
      = ∑ kd : Fin 256, a kd * c kd + ∑ kd : Fin 256, b kd * d kd := by
  rw [sum_512_val]
  refine congrArg₂ (· + ·) (Finset.sum_congr rfl fun j _ => ?_) (Finset.sum_congr rfl fun j _ => ?_)
  · have hj : (⟨j.val, by omega⟩ : Fin 512).val < 256 := j.isLt
    rw [dif_pos hj, dif_pos hj]
  · have hj : ¬ (⟨256 + j.val, by omega⟩ : Fin 512).val < 256 := by
      show ¬ 256 + j.val < 256
      omega
    rw [dif_neg hj, dif_neg hj]
    exact congrArg₂ (· * ·) (congrArg b (Fin.ext (by show 256 + j.val - 256 = j.val; omega)))
      (congrArg d (Fin.ext (by show 256 + j.val - 256 = j.val; omega)))

/-- The kernel's result at batch `bb`, position `n`, head `h`, lane `qd`: one contraction over the 512 stacked terms,
    then · wp + bp. -/
def kout (q k v : SX.Idx → EReal)
    (wq_g bq_g wk_g bk_g wv_g bv_g wq_l bq_l wk_l bk_l wv_l bv_l wp bp : SW.Idx → EReal)
    (bb : Fin 8) (n : Fin 4096) (h : Fin 4) (qd : Fin 256) : EReal :=
  (∑ j : Fin 512, vcat v wv_g bv_g wv_l bv_l bb n h j
      * acat (katt q k wq_g bq_g wk_g bk_g bb h) (katt q k wq_l bq_l wk_l bk_l bb h) j qd)
    * wp (ix1 (chan h qd)) + bp (ix1 (chan h qd))

/-- The contraction over the stacked terms is the two branches' mixes added. -/
theorem kout_eq (q k v : SX.Idx → EReal)
    (wq_g bq_g wk_g bk_g wv_g bv_g wq_l bq_l wk_l bk_l wv_l bv_l wp bp : SW.Idx → EReal)
    (bb : Fin 8) (n : Fin 4096) (h : Fin 4) (qd : Fin 256) :
    kout q k v wq_g bq_g wk_g bk_g wv_g bv_g wq_l bq_l wk_l bk_l wv_l bv_l wp bp bb n h qd
      = (mix q k v wq_g bq_g wk_g bk_g wv_g bv_g bb n h qd
          + mix q k v wq_l bq_l wk_l bk_l wv_l bv_l bb n h qd) * wp (ix1 (chan h qd)) + bp (ix1 (chan h qd)) := by
  unfold kout
  rw [show (∑ j : Fin 512, vcat v wv_g bv_g wv_l bv_l bb n h j
        * acat (katt q k wq_g bq_g wk_g bk_g bb h) (katt q k wq_l bq_l wk_l bk_l bb h) j qd)
      = ∑ kd : Fin 256, aff v wv_g bv_g bb n (chan h kd) * katt q k wq_g bq_g wk_g bk_g bb h qd kd
        + ∑ kd : Fin 256, aff v wv_l bv_l bb n (chan h kd) * katt q k wq_l bq_l wk_l bk_l bb h qd kd from
    sum_cat (fun kd => aff v wv_g bv_g bb n (chan h kd)) (fun kd => aff v wv_l bv_l bb n (chan h kd))
      (fun kd => katt q k wq_g bq_g wk_g bk_g bb h qd kd) (fun kd => katt q k wq_l bq_l wk_l bk_l bb h qd kd)]
  unfold mix
  rw [Finset.sum_congr rfl fun kd _ => show
        aff v wv_g bv_g bb n (chan h kd) * katt q k wq_g bq_g wk_g bk_g bb h qd kd
          = att q k wq_g bq_g wk_g bk_g bb h qd kd * aff v wv_g bv_g bb n (chan h kd) by
        rw [katt_eq_att, mul_comm],
    Finset.sum_congr rfl fun kd _ => show
        aff v wv_l bv_l bb n (chan h kd) * katt q k wq_l bq_l wk_l bk_l bb h qd kd
          = att q k wq_l bq_l wk_l bk_l bb h qd kd * aff v wv_l bv_l bb n (chan h kd) by
        rw [katt_eq_att, mul_comm]]

/-- The kernel's result array, as one function of the seventeen argument arrays. -/
def KG (q k v : SX.Idx → EReal)
    (wq_g bq_g wk_g bk_g wv_g bv_g wq_l bq_l wk_l bk_l wv_l bv_l wp bp : SW.Idx → EReal) : SX.Idx → EReal :=
  fun i => kout q k v wq_g bq_g wk_g bk_g wv_g bv_g wq_l bq_l wk_l bk_l wv_l bv_l wp bp
    (i 0) (i 1) (head (i 2)) (lane (i 2))

/-- `KG` at an index given by its coordinates. -/
theorem KG_ix3 (q k v : SX.Idx → EReal)
    (wq_g bq_g wk_g bk_g wv_g bv_g wq_l bq_l wk_l bk_l wv_l bv_l wp bp : SW.Idx → EReal)
    (bb : Fin 8) (n : Fin 4096) (ch : Fin 1024) :
    KG q k v wq_g bq_g wk_g bk_g wv_g bv_g wq_l bq_l wk_l bk_l wv_l bv_l wp bp (ix3 bb n ch)
      = kout q k v wq_g bq_g wk_g bk_g wv_g bv_g wq_l bq_l wk_l bk_l wv_l bv_l wp bp bb n (head ch) (lane ch) := rfl

/-- The kernel's arrangement computes the specification. -/
theorem KG_eq_G (q k v : SX.Idx → EReal)
    (wq_g bq_g wk_g bk_g wv_g bv_g wq_l bq_l wk_l bk_l wv_l bv_l wp bp : SW.Idx → EReal) :
    KG q k v wq_g bq_g wk_g bk_g wv_g bv_g wq_l bq_l wk_l bk_l wv_l bv_l wp bp
      = Cert.Spec.G q k v wq_g bq_g wk_g bk_g wv_g bv_g wq_l bq_l wk_l bk_l wv_l bv_l wp bp := by
  funext i
  obtain ⟨bb, n, ch, rfl⟩ : ∃ (bb : Fin 8) (n : Fin 4096) (ch : Fin 1024), i = ix3 bb n ch :=
    ⟨i 0, i 1, i 2, eq_ix3 i⟩
  rw [KG_ix3, G_ix3, kout_eq, out, chan_head_lane]

end Cert.KSpec

end
-- ==== Proof.KIRegion0Cover.lean ====
import proofs.«175229_j12481174962662_2_alg».proof.Proof.KIRegion0Blocks
import proofs.«175229_j12481174962662_2_alg».proof.Proof.KSpec

set_option maxRecDepth 16384

noncomputable section

namespace Cert.KernelIdeal.HandValue

open Cert.KernelIdeal Cert.KernelIdeal.Gen Cert.KernelIdeal.Hand
open Idealize.ShloMosaic.ValueIdx
open Cert.Spec Cert.KSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The score region: the attention arrays as whole-array functions, and which point covers which index -/

/-- A [1, 1024] weight row read as a [1024] array. -/
def rowOf (r : S1x1024.Idx → EReal) : SW.Idx → EReal := fun j => r (ix2 0 (j 0))
theorem rowOf_ix1 (r : S1x1024.Idx → EReal) (ch : Fin 1024) : rowOf r (ix1 ch) = r (ix2 0 ch) := rfl

/-- The attention array the score region leaves, in the kernel's order of operations: entry (bb, h, kd, qd) is the
    softmax, over the key channel, of the scaled scores accumulated over the two token tiles — stored TRANSPOSED. -/
def attT (Q K : SX.Idx → EReal) (wq bq wk bk : S1x1024.Idx → EReal) : S8x4x256x256.Idx → EReal :=
  fun i => katt Q K (rowOf wq) (rowOf bq) (rowOf wk) (rowOf bk) (i 0) (i 1) (i 3) (i 2)
theorem attT_ix4 (Q K : SX.Idx → EReal) (wq bq wk bk : S1x1024.Idx → EReal) (bb : Fin 8) (h : Fin 4) (kd qd : Fin 256) :
    attT Q K wq bq wk bk (ix4 bb h kd qd) = katt Q K (rowOf wq) (rowOf bq) (rowOf wk) (rowOf bk) bb h qd kd := rfl

/-! ## An odd point and the point before it -/

/-- The point before an odd point: the same batch's first token tile. -/
def prevOf (t : Fin cfg0.N) : Fin cfg0.N := ⟨t.val - 1, Nat.lt_of_le_of_lt (Nat.sub_le _ _) t.isLt⟩
theorem prevOf_val (t : Fin cfg0.N) : (prevOf t).val = t.val - 1 := rfl
theorem prev_even (t : Fin cfg0.N) (hodd : t.val % 2 = 1) : (prevOf t).val % 2 = 0 := by rw [prevOf_val]; omega
theorem prev_not_odd (t : Fin cfg0.N) (hodd : t.val % 2 = 1) : ¬(prevOf t).val % 2 = 1 := by rw [prevOf_val]; omega
theorem batchOf_prev (t : Fin cfg0.N) (hodd : t.val % 2 = 1) : batchOf (prevOf t) = batchOf t :=
  Fin.ext (by show (t.val - 1) / 2 = t.val / 2; omega)
theorem tokenOf_prev (t : Fin cfg0.N) (hodd : t.val % 2 = 1) (n : Fin 2048) : tokenOf (prevOf t) n = tileIdx 0 n :=
  Fin.ext (by show (t.val - 1) % 2 * 2048 + n.val = (0 : Fin 2).val * 2048 + n.val; have : (t.val - 1) % 2 = 0 := by omega
              rw [this]; rfl)
theorem tokenOf_odd (t : Fin cfg0.N) (hodd : t.val % 2 = 1) (n : Fin 2048) : tokenOf t n = tileIdx 1 n :=
  Fin.ext (by show t.val % 2 * 2048 + n.val = (1 : Fin 2).val * 2048 + n.val; rw [hodd]; rfl)

/-! ## Which point's block holds an index of an attention array -/

theorem mem_blk0_10 (t : Fin cfg0.N) (i : S8x4x256x256.Idx) :
    i ∈ ((cfg0.win 10).blk t).view.set ↔ ∀ a : Fin 4, win0_10.index t a * S1x4x256x256.size a ≤ (i a).val ∧ (i a).val < win0_10.index t a * S1x4x256x256.size a + S1x4x256x256.size a := by
  show i ∈ ((View.whole main_v8_0).slice (win0_10.rect t)).set ↔ _
  rw [View.set_slice_whole, Rect.mem_set_unit]
  exact Iff.rfl
theorem mem_blk0_11 (t : Fin cfg0.N) (i : S8x4x256x256.Idx) :
    i ∈ ((cfg0.win 11).blk t).view.set ↔ ∀ a : Fin 4, win0_11.index t a * S1x4x256x256.size a ≤ (i a).val ∧ (i a).val < win0_11.index t a * S1x4x256x256.size a + S1x4x256x256.size a := by
  show i ∈ ((View.whole main_v8_1).slice (win0_11.rect t)).set ↔ _
  rw [View.set_slice_whole, Rect.mem_set_unit]
  exact Iff.rfl

/-- The last-tile point of batch `bb`. -/
def lastOf (bb : Fin 8) : Fin cfg0.N := ⟨2 * bb.val + 1, by rw [show cfg0.N = 16 from N_0]; have := bb.isLt; omega⟩

/-- Every index of an attention array lies in the block of its batch's last-tile point, which writes it back. -/
theorem cover0_10 (i : S8x4x256x256.Idx) :
    ∃ t : Fin cfg0.N, (cfg0.win 10).flush t = true ∧ i ∈ ((cfg0.win 10).blk t).view.set := by
  have h0 : (i 0).val < 8 := (i 0).isLt
  have h1 : (i 1).val < 4 := (i 1).isLt
  have h2 : (i 2).val < 256 := (i 2).isLt
  have h3 : (i 3).val < 256 := (i 3).isLt
  refine ⟨lastOf ⟨(i 0).val, h0⟩, (flush0_10 _).mpr (by show (2 * (i 0).val + 1) % 2 = 1; omega), ?_⟩
  rw [mem_blk0_10]
  obtain ⟨-, -, -, -, -, -, e0, e1, e2, e3, -⟩ := idx_facts0 (lastOf ⟨(i 0).val, h0⟩)
  have ev : (lastOf ⟨(i 0).val, h0⟩).val / 2 = (i 0).val := by show (2 * (i 0).val + 1) / 2 = (i 0).val; omega
  intro a
  match a with
  | ⟨0, _⟩ => show win0_10.index _ (0 : Fin 4) * 1 ≤ (i 0).val ∧ (i 0).val < win0_10.index _ (0 : Fin 4) * 1 + 1; omega
  | ⟨1, _⟩ => show win0_10.index _ (1 : Fin 4) * 4 ≤ (i 1).val ∧ (i 1).val < win0_10.index _ (1 : Fin 4) * 4 + 4; omega
  | ⟨2, _⟩ => show win0_10.index _ (2 : Fin 4) * 256 ≤ (i 2).val ∧ (i 2).val < win0_10.index _ (2 : Fin 4) * 256 + 256; omega
  | ⟨3, _⟩ => show win0_10.index _ (3 : Fin 4) * 256 ≤ (i 3).val ∧ (i 3).val < win0_10.index _ (3 : Fin 4) * 256 + 256; omega
theorem cover0_11 (i : S8x4x256x256.Idx) :
    ∃ t : Fin cfg0.N, (cfg0.win 11).flush t = true ∧ i ∈ ((cfg0.win 11).blk t).view.set := by
  have h0 : (i 0).val < 8 := (i 0).isLt
  have h1 : (i 1).val < 4 := (i 1).isLt
  have h2 : (i 2).val < 256 := (i 2).isLt
  have h3 : (i 3).val < 256 := (i 3).isLt
  refine ⟨lastOf ⟨(i 0).val, h0⟩, (flush0_11 _).mpr (by show (2 * (i 0).val + 1) % 2 = 1; omega), ?_⟩
  rw [mem_blk0_11]
  obtain ⟨-, -, -, -, -, -, -, -, -, -, e0, e1, e2, e3⟩ := idx_facts0 (lastOf ⟨(i 0).val, h0⟩)
  have ev : (lastOf ⟨(i 0).val, h0⟩).val / 2 = (i 0).val := by show (2 * (i 0).val + 1) / 2 = (i 0).val; omega
  intro a
  match a with
  | ⟨0, _⟩ => show win0_11.index _ (0 : Fin 4) * 1 ≤ (i 0).val ∧ (i 0).val < win0_11.index _ (0 : Fin 4) * 1 + 1; omega
  | ⟨1, _⟩ => show win0_11.index _ (1 : Fin 4) * 4 ≤ (i 1).val ∧ (i 1).val < win0_11.index _ (1 : Fin 4) * 4 + 4; omega
  | ⟨2, _⟩ => show win0_11.index _ (2 : Fin 4) * 256 ≤ (i 2).val ∧ (i 2).val < win0_11.index _ (2 : Fin 4) * 256 + 256; omega
  | ⟨3, _⟩ => show win0_11.index _ (3 : Fin 4) * 256 ≤ (i 3).val ∧ (i 3).val < win0_11.index _ (3 : Fin 4) * 256 + 256; omega

/-- Where an element of an attention block sits in its array. -/
theorem blk0_10_emb (t : Fin cfg0.N) (h : Fin 4) (kd qd : Fin 256) :
    ((cfg0.win 10).blk t).view.emb (ix4 0 h kd qd) = ix4 (batchOf t) h kd qd := by
  obtain ⟨-, -, -, -, -, -, e0, e1, e2, e3, -⟩ := idx_facts0 t
  funext a; apply Fin.ext
  match a with
  | ⟨0, _⟩ => show win0_10.index t (0 : Fin 4) * 1 + 1 * 0 = t.val / 2; omega
  | ⟨1, _⟩ => show win0_10.index t (1 : Fin 4) * 4 + 1 * h.val = h.val; omega
  | ⟨2, _⟩ => show win0_10.index t (2 : Fin 4) * 256 + 1 * kd.val = kd.val; omega
  | ⟨3, _⟩ => show win0_10.index t (3 : Fin 4) * 256 + 1 * qd.val = qd.val; omega
theorem blk0_11_emb (t : Fin cfg0.N) (h : Fin 4) (kd qd : Fin 256) :
    ((cfg0.win 11).blk t).view.emb (ix4 0 h kd qd) = ix4 (batchOf t) h kd qd := by
  obtain ⟨-, -, -, -, -, -, -, -, -, -, e0, e1, e2, e3⟩ := idx_facts0 t
  funext a; apply Fin.ext
  match a with
  | ⟨0, _⟩ => show win0_11.index t (0 : Fin 4) * 1 + 1 * 0 = t.val / 2; omega
  | ⟨1, _⟩ => show win0_11.index t (1 : Fin 4) * 4 + 1 * h.val = h.val; omega
  | ⟨2, _⟩ => show win0_11.index t (2 : Fin 4) * 256 + 1 * kd.val = kd.val; omega
  | ⟨3, _⟩ => show win0_11.index t (3 : Fin 4) * 256 + 1 * qd.val = qd.val; omega

end Cert.KernelIdeal.HandValue

end
-- ==== Proof.KIPay0.lean ====
/-
  The score kernel's pure payloads read at an index, on the extended reals.

  The kernel sees one batch and a tile of 2048 positions of the 1024 channels (4 heads of 256 lanes; channel =
  head · 256 + lane). Its arithmetic is: four per-channel affine images x · w + b of the query and key blocks (a global
  and a local branch); for each head and branch, the product of the query image's and the key image's 256 columns of
  that head, contracted over the 2048 positions and added to a [256, 256] slab of the running scores; and the two
  resets of the running scores to zero. Each lemma here reads one of these payloads at an index given by coordinates,
  as a term over the payload's operands at indices given by coordinates. Only 0 + x = x is used of the arithmetic.
-/
import proofs.«175229_j12481174962662_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.PayVal

open Cert.KernelIdeal Cert.KernelIdeal.Gen Idealize.ShloMosaic Idealize.ShloMosaic.ValueIdx

/-- The channel of lane `d` of head `h`: the 1024 channels are 4 heads of 256 lanes. -/
def chan (h : Fin 4) (d : Fin 256) : Fin 1024 :=
  ⟨h.val * 256 + d.val, by have := h.isLt; have := d.isLt; omega⟩

theorem chan_val (h : Fin 4) (d : Fin 256) : (chan h d).val = h.val * 256 + d.val := rfl

/-! ## The two reset payloads: the zero word everywhere -/

theorem pay5_apply (i : S4x256x256.Idx) : k0_pay5 (F := Ideal) i = 0 := by
  unfold k0_pay5
  rw [shapeCast_self]
  exact Ideal.ofBits_zero_f32

theorem pay6_apply (i : S4x256x256.Idx) : k0_pay6 (F := Ideal) i = 0 := by
  unfold k0_pay6
  rw [shapeCast_self]
  exact Ideal.ofBits_zero_f32

/-! ## The affine payloads: a block times a row of weights plus a row of biases -/

/-- A `[1, 1024]` row taken to `[1024]` and back, then broadcast over the 2048 positions, reads the row at the channel. -/
theorem row_bcast_apply (v : Vec Ideal S1x1024 .f32) (n : Fin 2048) (ch : Fin 1024) :
    broadcastTo S2048x1024 (shapeCast S1x1024 (shapeCast S1024 v shapeCasts_S1x1024_S1024) shapeCasts_S1024_S1x1024)
      broadcasts_S1x1024_S2048x1024 (ix2 n ch) = v (ix2 0 ch) := by
  rw [shapeCast_shapeCast]
  exact broadcastTo_1b_ab_apply v _ n ch

/-- The global branch's query image at position `n`, channel `ch`. -/
theorem aff_g_q (v3 : Vec Ideal S1x2048x1024 .f32) (v7 v9 : Vec Ideal S1x1024 .f32) (n : Fin 2048) (ch : Fin 1024) :
    k0_pay13 (F := Ideal) v3 v7 v9 (ix2 n ch) = v3 (ix3 0 n ch) * v7 (ix2 0 ch) + v9 (ix2 0 ch) := by
  unfold k0_pay13 k0_pay7
  rw [addf_apply, mulf_apply, row_bcast_apply, row_bcast_apply, shapeCast_1ab_ab_apply]

/-- The global branch's key image. -/
theorem aff_g_k (v5 : Vec Ideal S1x2048x1024 .f32) (v11 v13 : Vec Ideal S1x1024 .f32) (n : Fin 2048) (ch : Fin 1024) :
    k0_pay16 (F := Ideal) (k0_pay14 (F := Ideal) v5 v11) (k0_pay15 (F := Ideal) v13) (ix2 n ch)
      = v5 (ix3 0 n ch) * v11 (ix2 0 ch) + v13 (ix2 0 ch) := by
  unfold k0_pay16 k0_pay14 k0_pay15 k0_pay8
  rw [addf_apply, mulf_apply, row_bcast_apply, row_bcast_apply, shapeCast_1ab_ab_apply]

/-- The local branch's query image. -/
theorem aff_l_q (v3 : Vec Ideal S1x2048x1024 .f32) (v15 v17 : Vec Ideal S1x1024 .f32) (n : Fin 2048) (ch : Fin 1024) :
    k0_pay17 (F := Ideal) (k0_pay7 (F := Ideal) v3) (k0_pay9 (F := Ideal) v15) (k0_pay10 (F := Ideal) v17) (ix2 n ch)
      = v3 (ix3 0 n ch) * v15 (ix2 0 ch) + v17 (ix2 0 ch) := by
  unfold k0_pay17 k0_pay7 k0_pay9 k0_pay10
  rw [addf_apply, mulf_apply, row_bcast_apply, row_bcast_apply, shapeCast_1ab_ab_apply]

/-- The local branch's key image. -/
theorem aff_l_k (v5 : Vec Ideal S1x2048x1024 .f32) (v19 v21 : Vec Ideal S1x1024 .f32) (n : Fin 2048) (ch : Fin 1024) :
    k0_pay18 (F := Ideal) (k0_pay8 (F := Ideal) v5) (k0_pay11 (F := Ideal) v19) (k0_pay12 (F := Ideal) v21) (ix2 n ch)
      = v5 (ix3 0 n ch) * v19 (ix2 0 ch) + v21 (ix2 0 ch) := by
  unfold k0_pay18 k0_pay8 k0_pay11 k0_pay12
  rw [addf_apply, mulf_apply, row_bcast_apply, row_bcast_apply, shapeCast_1ab_ab_apply]

/-! ## One head's partial scores: the product of two column slices, contracted over the positions -/

/-- The operand indices of the kernel's matmul (axis 0 of both operands contracted): the left operand is read at
    (position, the output's row), the right operand at (position, the output's column). -/
theorem lhs_cols_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
theorem lhs_cols_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide),
    dif_pos (show (1 : Fin S2048x256.rank) ∈ dot_S2048x256_S2048x256_S256x256_0_0_1_1_n_n.lhsNonContracting by decide)]
  rfl
theorem rhs_cols_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q
theorem rhs_cols_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide),
    dif_pos (show (1 : Fin S2048x256.rank) ∈ dot_S2048x256_S2048x256_S256x256_0_0_1_1_n_n.rhsNonContracting by decide)]
  rfl

/-- Into the zero splat, entry `(qd, kd)` of the matmul is the sum over the 2048 positions of the left operand's
    column `qd` times the right operand's column `kd`. -/
theorem matmul_cols_apply (L R : FVec Ideal S2048x256 .f32) (qd kd : Fin 256) :
    matmul dot_S2048x256_S2048x256_S256x256_0_0_1_1_n_n (some .fp32) L R (constant (F := Ideal) S256x256 .f32 0x00000000#32)
        (ix2 qd kd)
      = ∑ n : Fin 2048, L (ix2 n qd) * R (ix2 n kd) := by
  simp only [matmul]
  rw [Ideal.matmul_constant_zero_apply,
    ← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  have el : dot_S2048x256_S2048x256_S256x256_0_0_1_1_n_n.lhsIdx (ix2 qd kd)
      ((contrEquiv1 dot_S2048x256_S2048x256_S256x256_0_0_1_1_n_n 2048 rfl rfl).symm k) = ix2 k qd :=
    funext fun a => Fin.ext (by
      match a with
      | ⟨0, _⟩ => exact (lhs_cols_0 _ _).trans hk
      | ⟨1, _⟩ => exact lhs_cols_1 _ _)
  have er : dot_S2048x256_S2048x256_S256x256_0_0_1_1_n_n.rhsIdx (ix2 qd kd)
      ((contrEquiv1 dot_S2048x256_S2048x256_S256x256_0_0_1_1_n_n 2048 rfl rfl).symm k) = ix2 k kd :=
    funext fun a => Fin.ext (by
      match a with
      | ⟨0, _⟩ => exact (rhs_cols_0 _ _).trans hk
      | ⟨1, _⟩ => exact rhs_cols_1 _ _)
  rw [el, er]

/-- ONE HEAD'S SLAB UPDATE. The columns of head `h` (offset `h · 256`) are cut out of two `[2048, 1024]` images, their
    product is contracted over the 2048 positions into the zero splat, and the result is added to the loaded slab:
    entry `(qd, kd)` is the slab's entry plus the sum over the positions of the first image at channel
    `h · 256 + qd` times the second at channel `h · 256 + kd`. -/
theorem slab_add_apply (o : Nat) (hs : S2048x1024.Slices ![0, o] S2048x256) (h : Fin 4) (ho : o = h.val * 256)
    (A B : FVec Ideal S2048x1024 .f32) (Z : Vec Ideal S1x256x256 .f32) (qd kd : Fin 256) :
    shapeCast S1x256x256
        (addf (shapeCast S256x256 Z shapeCasts_S1x256x256_S256x256)
          (matmul dot_S2048x256_S2048x256_S256x256_0_0_1_1_n_n (some .fp32)
            (extractStridedSlice S2048x256 ![0, o] A hs) (extractStridedSlice S2048x256 ![0, o] B hs)
            (constant (F := Ideal) S256x256 .f32 0x00000000#32)))
        shapeCasts_S256x256_S1x256x256 (ix3 0 qd kd)
      = Z (ix3 0 qd kd) + ∑ n : Fin 2048, A (ix2 n (chan h qd)) * B (ix2 n (chan h kd)) := by
  rw [shapeCast_ab_1ab_apply, addf_apply, shapeCast_1ab_ab_apply, matmul_cols_apply]
  refine congrArg (Z (ix3 0 qd kd) + ·) (Finset.sum_congr rfl fun n _ => ?_)
  rw [slice2_axis1_apply o A hs n qd (chan h qd) (by rw [chan_val, ho]),
    slice2_axis1_apply o B hs n kd (chan h kd) (by rw [chan_val, ho])]

/-- Head 0, global branch. -/
theorem slab_g_h0 (A v31 : FVec Ideal S2048x1024 .f32) (v32 : FVec Ideal S1x1024 .f32) (Z : Vec Ideal S1x256x256 .f32)
    (qd kd : Fin 256) :
    k0_pay19 (F := Ideal) A v31 v32 Z (ix3 0 qd kd)
      = Z (ix3 0 qd kd) + ∑ n : Fin 2048, A (ix2 n (chan 0 qd)) * k0_pay16 (F := Ideal) v31 v32 (ix2 n (chan 0 kd)) := by
  unfold k0_pay19
  exact slab_add_apply 0 slices_S2048x1024_o0_0_S2048x256 0 rfl A (k0_pay16 (F := Ideal) v31 v32) Z qd kd

/-- Head 0, local branch. -/
theorem slab_l_h0 (v4 v6 : FVec Ideal S2048x1024 .f32) (v16 v18 v20 v22 : FVec Ideal S1024 .f32)
    (Z : Vec Ideal S1x256x256 .f32) (qd kd : Fin 256) :
    k0_pay20 (F := Ideal) v4 v6 v16 v18 v20 v22 Z (ix3 0 qd kd)
      = Z (ix3 0 qd kd) + ∑ n : Fin 2048, k0_pay17 (F := Ideal) v4 v16 v18 (ix2 n (chan 0 qd))
          * k0_pay18 (F := Ideal) v6 v20 v22 (ix2 n (chan 0 kd)) := by
  unfold k0_pay20
  exact slab_add_apply 0 slices_S2048x1024_o0_0_S2048x256 0 rfl (k0_pay17 (F := Ideal) v4 v16 v18)
    (k0_pay18 (F := Ideal) v6 v20 v22) Z qd kd

/-- Head 1, global branch. -/
theorem slab_g_h1 (A v31 : FVec Ideal S2048x1024 .f32) (v32 : FVec Ideal S1x1024 .f32) (Z : Vec Ideal S1x256x256 .f32)
    (qd kd : Fin 256) :
    k0_pay23 (F := Ideal) (k0_pay21 (F := Ideal) A v31 v32) Z (ix3 0 qd kd)
      = Z (ix3 0 qd kd) + ∑ n : Fin 2048, A (ix2 n (chan 1 qd)) * k0_pay16 (F := Ideal) v31 v32 (ix2 n (chan 1 kd)) := by
  unfold k0_pay23 k0_pay21
  exact slab_add_apply 256 slices_S2048x1024_o0_256_S2048x256 1 rfl A (k0_pay16 (F := Ideal) v31 v32) Z qd kd

/-- Head 1, local branch. -/
theorem slab_l_h1 (v4 v6 : FVec Ideal S2048x1024 .f32) (v16 v18 v20 v22 : FVec Ideal S1024 .f32)
    (Z : Vec Ideal S1x256x256 .f32) (qd kd : Fin 256) :
    k0_pay24 (F := Ideal) (k0_pay22 (F := Ideal) v4 v6 v16 v18 v20 v22) Z (ix3 0 qd kd)
      = Z (ix3 0 qd kd) + ∑ n : Fin 2048, k0_pay17 (F := Ideal) v4 v16 v18 (ix2 n (chan 1 qd))
          * k0_pay18 (F := Ideal) v6 v20 v22 (ix2 n (chan 1 kd)) := by
  unfold k0_pay24 k0_pay22
  exact slab_add_apply 256 slices_S2048x1024_o0_256_S2048x256 1 rfl (k0_pay17 (F := Ideal) v4 v16 v18)
    (k0_pay18 (F := Ideal) v6 v20 v22) Z qd kd

/-- Head 2, global branch. -/
theorem slab_g_h2 (A B : FVec Ideal S2048x1024 .f32) (Z : Vec Ideal S1x256x256 .f32) (qd kd : Fin 256) :
    k0_pay25 (F := Ideal) A B Z (ix3 0 qd kd)
      = Z (ix3 0 qd kd) + ∑ n : Fin 2048, A (ix2 n (chan 2 qd)) * B (ix2 n (chan 2 kd)) := by
  unfold k0_pay25
  exact slab_add_apply 512 slices_S2048x1024_o0_512_S2048x256 2 rfl A B Z qd kd

/-- Head 2, local branch. -/
theorem slab_l_h2 (A B : FVec Ideal S2048x1024 .f32) (Z : Vec Ideal S1x256x256 .f32) (qd kd : Fin 256) :
    k0_pay26 (F := Ideal) A B Z (ix3 0 qd kd)
      = Z (ix3 0 qd kd) + ∑ n : Fin 2048, A (ix2 n (chan 2 qd)) * B (ix2 n (chan 2 kd)) := by
  unfold k0_pay26
  exact slab_add_apply 512 slices_S2048x1024_o0_512_S2048x256 2 rfl A B Z qd kd

/-- Head 3, global branch. -/
theorem slab_g_h3 (A B : FVec Ideal S2048x1024 .f32) (Z : Vec Ideal S1x256x256 .f32) (qd kd : Fin 256) :
    k0_pay1 (F := Ideal) (k0_pay27 (F := Ideal) A) (k0_pay28 (F := Ideal) B) Z (ix3 0 qd kd)
      = Z (ix3 0 qd kd) + ∑ n : Fin 2048, A (ix2 n (chan 3 qd)) * B (ix2 n (chan 3 kd)) := by
  unfold k0_pay1 k0_pay27 k0_pay28
  exact slab_add_apply 768 slices_S2048x1024_o0_768_S2048x256 3 rfl A B Z qd kd

/-- Head 3, local branch. -/
theorem slab_l_h3 (A B : FVec Ideal S2048x1024 .f32) (Z : Vec Ideal S1x256x256 .f32) (qd kd : Fin 256) :
    k0_pay2 (F := Ideal) (k0_pay29 (F := Ideal) A) (k0_pay30 (F := Ideal) B) Z (ix3 0 qd kd)
      = Z (ix3 0 qd kd) + ∑ n : Fin 2048, A (ix2 n (chan 3 qd)) * B (ix2 n (chan 3 kd)) := by
  unfold k0_pay2 k0_pay29 k0_pay30
  exact slab_add_apply 768 slices_S2048x1024_o0_768_S2048x256 3 rfl A B Z qd kd

end Cert.KernelIdeal.PayVal

end
-- ==== Proof.KIRegion0Value.lean ====
/-
  What the score kernel's two control cases leave in its two score accumulators and its two attention windows,
  read at an index.

  An accumulator is a [4, 256, 256] buffer: one [256, 256] slab of scores per head. The body writes it slab by slab,
  head 0 first: each store replaces slab h by the slab it loaded plus that head's partial scores of the tile — the
  sum over the tile's 2048 positions of the query image at channel h · 256 + qd times the key image at channel
  h · 256 + kd, the images being the per-channel affine maps x · w + b of the query and key blocks. At a first-tile
  point a store of zeros over the whole buffer comes before the four slab stores, so the slab a store loads is zero;
  at a last-tile point the slab loaded is what the point before left. Reading the buffer after the stores at
  (h, qd, kd): the stores of the other heads' slabs do not hold the index, the store of slab h holds it at its own
  index (0, qd, kd), and what that store loaded is, at a first-tile point, the zero store's value seen through the
  earlier slab stores (which do not hold the index either) and, at a last-tile point, the earlier contents there.
  At a last-tile point each attention window then receives ONE whole store: the softmax payload of the accumulator
  as the four slab stores left it.
-/
import proofs.«175229_j12481174962662_2_alg».proof.Proof.KIRegion0
import proofs.«175229_j12481174962662_2_alg».proof.Proof.KIPay0
import proofs.«175229_j12481174962662_2_alg».proof.Proof.Spec
import Idealize.ShloMosaic.Lib.ValueIdx
import Idealize.ShloMosaic.Lib.Pipeline.Value
import Idealize.ShloMosaic.Lib.Pipeline.FrameBody
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Cert.KernelIdeal.PayVal hiding chan chan_val
open Cert.Spec Idealize.ShloMosaic Idealize.ShloMosaic.ValueIdx

/-- The two spellings of the channel of a head's lane are one function. -/
theorem pchan_eq (h : Fin 4) (d : Fin 256) : Cert.KernelIdeal.PayVal.chan h d = chan h d := rfl

/-- The zero offsets of a whole-buffer rectangle, at ranks two, three and four. -/
theorem offs_zero2 : (![0, 0] : Fin 2 → Nat) = fun _ => 0 := funext fun a => by fin_cases a <;> rfl
theorem offs_zero3 : (![0, 0, 0] : Fin 3 → Nat) = fun _ => 0 := funext fun a => by fin_cases a <;> rfl
theorem offs_zero4 : (![0, 0, 0, 0] : Fin 4 → Nat) = fun _ => 0 := funext fun a => by fin_cases a <;> rfl

section Slabs
variable {Val : EltTy → Type} [∀ e, Nonempty (Val e)]

/-- A piece whose rectangle does not hold head `h` on the head axis leaves the canon at (h, qd, kd) to the earlier
    pieces. -/
theorem canon_skip (off size : Fin 3 → Nat) (inb : ∀ a, off a + size a ≤ S4x256x256.size a)
    (w : (Rect.unit (s := S4x256x256) off size inb).shape.Idx → Val .f32) (L : List (View.Piece Val S4x256x256 .f32))
    (h : Fin 4) (qd kd : Fin 256) (hne : ¬(off 0 ≤ h.val ∧ h.val < off 0 + size 0)) :
    View.canon (⟨Rect.unit (s := S4x256x256) off size inb, w⟩ :: L) (ix3 h qd kd) = View.canon L (ix3 h qd kd) :=
  View.canon_cons_of_not_mem _ L fun hm =>
    hne ((Rect.mem_set_unit (s := S4x256x256) (off := off) (size := size) (inb := inb) (i := ix3 h qd kd)).mp hm 0)

/-- A piece whose rectangle places its own index `x` at (h, qd, kd) gives the canon there its payload at `x`. -/
theorem canon_hit (off size : Fin 3 → Nat) (inb : ∀ a, off a + size a ≤ S4x256x256.size a)
    (w : (Rect.unit (s := S4x256x256) off size inb).shape.Idx → Val .f32) (L : List (View.Piece Val S4x256x256 .f32))
    (h : Fin 4) (qd kd : Fin 256) (x : (Rect.unit (s := S4x256x256) off size inb).shape.Idx)
    (h0 : off 0 + (x 0).val = h.val) (h1 : off 1 + (x 1).val = qd.val) (h2 : off 2 + (x 2).val = kd.val) :
    View.canon (⟨Rect.unit (s := S4x256x256) off size inb, w⟩ :: L) (ix3 h qd kd) = w x := by
  have e : (ix3 h qd kd : S4x256x256.Idx) = (Rect.unit (s := S4x256x256) off size inb).emb x :=
    funext fun a => Fin.ext (by
      match a with
      | ⟨0, _⟩ => show h.val = off 0 + 1 * (x 0).val; omega
      | ⟨1, _⟩ => show qd.val = off 1 + 1 * (x 1).val; omega
      | ⟨2, _⟩ => show kd.val = off 2 + 1 * (x 2).val; omega)
  rw [e]
  exact View.canon_cons_emb _ w L x

/-- A load of slab `k` reads the contents at (k, qd, kd). -/
theorem ld_slab (X : S4x256x256.Idx → Val .f32) (k : Nat) (size : Fin 3 → Nat)
    (inb : ∀ a, (![k, 0, 0] : Fin 3 → Nat) a + size a ≤ S4x256x256.size a)
    (x : (Rect.unit (s := S4x256x256) ![k, 0, 0] size inb).shape.Idx) (h : Fin 4) (qd kd : Fin 256)
    (h0 : k + (x 0).val = h.val) (h1 : (x 1).val = qd.val) (h2 : (x 2).val = kd.val) :
    View.ld X (Rect.unit (s := S4x256x256) ![k, 0, 0] size inb) x = X (ix3 h qd kd) :=
  congrArg X (funext fun a => Fin.ext (by
    match a with
    | ⟨0, _⟩ => show k + 1 * (x 0).val = h.val; omega
    | ⟨1, _⟩ => show 0 + 1 * (x 1).val = qd.val; omega
    | ⟨2, _⟩ => show 0 + 1 * (x 2).val = kd.val; omega))

end Slabs

/-- A per-channel affine image of a [1, 2048, 1024] block: x · w + b at position n, channel ch. -/
def affb (x : Vec Ideal S1x2048x1024 .f32) (w b : Vec Ideal S1x1024 .f32) (n : Fin 2048) (ch : Fin 1024) : EReal :=
  x (ix3 0 n ch) * w (ix2 0 ch) + b (ix2 0 ch)

section Slabs2
variable {Val : EltTy → Type} [∀ e, Nonempty (Val e)]

/-- A covered load of slab `k` after the writes `L` reads their canon at (k, qd, kd). -/
theorem readCov_slab {sig' : RefSig} {κ : Kind} {sp : Space} (v : View sig' κ sp S4x256x256 .f32)
    (L : List (View.Piece Val S4x256x256 .f32)) (k : Nat) (size : Fin 3 → Nat)
    (inb : ∀ a, (![k, 0, 0] : Fin 3 → Nat) a + size a ≤ S4x256x256.size a)
    (x : (Rect.unit (s := S4x256x256) ![k, 0, 0] size inb).shape.Idx) (h : Fin 4) (qd kd : Fin 256)
    (h0 : k + (x 0).val = h.val) (h1 : (x 1).val = qd.val) (h2 : (x 2).val = kd.val) :
    v.readCov L (Rect.unit (s := S4x256x256) ![k, 0, 0] size inb).toLoadRect x = View.canon L (ix3 h qd kd) :=
  (congrFun (View.readCov_eq_canon' v L _) x).trans (congrArg (View.canon L) (funext fun a => Fin.ext (by
    match a with
    | ⟨0, _⟩ => show k + 1 * (x 0).val = h.val; omega
    | ⟨1, _⟩ => show 0 + 1 * (x 1).val = qd.val; omega
    | ⟨2, _⟩ => show 0 + 1 * (x 2).val = kd.val; omega)))

end Slabs2

/-! ## The accumulators after a last-tile point -/

/-- The global accumulator: what the point before left plus this tile's partial scores. -/
theorem sout0_B_0_apply (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 x1 : Vec Ideal S1x2048x1024 .f32) (x2 x3 x4 x5 x6 x7 x8 x9 : Vec Ideal S1x1024 .f32) (xs0 xs1 : Vec Ideal S4x256x256 .f32) (h : Fin 4) (qd kd : Fin 256) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 (ix3 h qd kd)
      = xs0 (ix3 h qd kd) + ∑ n : Fin 2048, affb x0 x2 x3 n (chan h qd) * affb x1 x4 x5 n (chan h kd) := by
  unfold sout0_B_0
  rw [View.read_writes_junk_eq_canon]
  unfold kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread, harg14.read_unread,
    View.ld_unit_zero (S := S1x2048x1024) offs_zero3, View.ld_unit_zero (S := S1x1024) offs_zero2]
  match h with
  | ⟨0, _⟩ =>
    refine (canon_skip _ _ _ _ _ _ qd kd (by show ¬((3 : Nat) ≤ 0 ∧ (0 : Nat) < 3 + 1); omega)).trans ?_
    refine (canon_skip _ _ _ _ _ _ qd kd (by show ¬((2 : Nat) ≤ 0 ∧ (0 : Nat) < 2 + 1); omega)).trans ?_
    refine (canon_skip _ _ _ _ _ _ qd kd (by show ¬((1 : Nat) ≤ 0 ∧ (0 : Nat) < 1 + 1); omega)).trans ?_
    refine (canon_hit _ _ _ _ _ _ qd kd (ix3 (0 : Fin 1) qd kd) rfl (Nat.zero_add _) (Nat.zero_add _)).trans ?_
    refine (slab_g_h0 _ _ _ _ qd kd).trans ?_
    exact congrArg₂ (· + ·) (ld_slab xs0 0 _ _ _ _ qd kd rfl rfl rfl)
      (Finset.sum_congr rfl fun n _ => congrArg₂ (· * ·) (aff_g_q x0 x2 x3 n _) (aff_g_k x1 x4 x5 n _))
  | ⟨1, _⟩ =>
    refine (canon_skip _ _ _ _ _ _ qd kd (by show ¬((3 : Nat) ≤ 1 ∧ (1 : Nat) < 3 + 1); omega)).trans ?_
    refine (canon_skip _ _ _ _ _ _ qd kd (by show ¬((2 : Nat) ≤ 1 ∧ (1 : Nat) < 2 + 1); omega)).trans ?_
    refine (canon_hit _ _ _ _ _ _ qd kd (ix3 (0 : Fin 1) qd kd) rfl (Nat.zero_add _) (Nat.zero_add _)).trans ?_
    refine (slab_g_h1 _ _ _ _ qd kd).trans ?_
    exact congrArg₂ (· + ·) (ld_slab xs0 1 _ _ _ _ qd kd rfl rfl rfl)
      (Finset.sum_congr rfl fun n _ => congrArg₂ (· * ·) (aff_g_q x0 x2 x3 n _) (aff_g_k x1 x4 x5 n _))
  | ⟨2, _⟩ =>
    refine (canon_skip _ _ _ _ _ _ qd kd (by show ¬((3 : Nat) ≤ 2 ∧ (2 : Nat) < 3 + 1); omega)).trans ?_
    refine (canon_hit _ _ _ _ _ _ qd kd (ix3 (0 : Fin 1) qd kd) rfl (Nat.zero_add _) (Nat.zero_add _)).trans ?_
    refine (slab_g_h2 _ _ _ qd kd).trans ?_
    exact congrArg₂ (· + ·) (ld_slab xs0 2 _ _ _ _ qd kd rfl rfl rfl)
      (Finset.sum_congr rfl fun n _ => congrArg₂ (· * ·) (aff_g_q x0 x2 x3 n _) (aff_g_k x1 x4 x5 n _))
  | ⟨3, _⟩ =>
    refine (canon_hit _ _ _ _ _ _ qd kd (ix3 (0 : Fin 1) qd kd) rfl (Nat.zero_add _) (Nat.zero_add _)).trans ?_
    refine (slab_g_h3 _ _ _ qd kd).trans ?_
    exact congrArg₂ (· + ·) (ld_slab xs0 3 _ _ _ _ qd kd rfl rfl rfl)
      (Finset.sum_congr rfl fun n _ => congrArg₂ (· * ·) (aff_g_q x0 x2 x3 n _) (aff_g_k x1 x4 x5 n _))

/-- The local accumulator, the same with the local branch's weights. -/
theorem sout0_B_1_apply (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 x1 : Vec Ideal S1x2048x1024 .f32) (x2 x3 x4 x5 x6 x7 x8 x9 : Vec Ideal S1x1024 .f32) (xs0 xs1 : Vec Ideal S4x256x256 .f32) (h : Fin 4) (qd kd : Fin 256) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 (ix3 h qd kd)
      = xs1 (ix3 h qd kd) + ∑ n : Fin 2048, affb x0 x6 x7 n (chan h qd) * affb x1 x8 x9 n (chan h kd) := by
  unfold sout0_B_1
  rw [View.read_writes_junk_eq_canon]
  unfold kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread, harg15.read_unread,
    View.ld_unit_zero (S := S1x2048x1024) offs_zero3, View.ld_unit_zero (S := S1x1024) offs_zero2]
  match h with
  | ⟨0, _⟩ =>
    refine (canon_skip _ _ _ _ _ _ qd kd (by show ¬((3 : Nat) ≤ 0 ∧ (0 : Nat) < 3 + 1); omega)).trans ?_
    refine (canon_skip _ _ _ _ _ _ qd kd (by show ¬((2 : Nat) ≤ 0 ∧ (0 : Nat) < 2 + 1); omega)).trans ?_
    refine (canon_skip _ _ _ _ _ _ qd kd (by show ¬((1 : Nat) ≤ 0 ∧ (0 : Nat) < 1 + 1); omega)).trans ?_
    refine (canon_hit _ _ _ _ _ _ qd kd (ix3 (0 : Fin 1) qd kd) rfl (Nat.zero_add _) (Nat.zero_add _)).trans ?_
    refine (slab_l_h0 _ _ _ _ _ _ _ qd kd).trans ?_
    exact congrArg₂ (· + ·) (ld_slab xs1 0 _ _ _ _ qd kd rfl rfl rfl)
      (Finset.sum_congr rfl fun n _ => congrArg₂ (· * ·) (aff_l_q x0 x6 x7 n _) (aff_l_k x1 x8 x9 n _))
  | ⟨1, _⟩ =>
    refine (canon_skip _ _ _ _ _ _ qd kd (by show ¬((3 : Nat) ≤ 1 ∧ (1 : Nat) < 3 + 1); omega)).trans ?_
    refine (canon_skip _ _ _ _ _ _ qd kd (by show ¬((2 : Nat) ≤ 1 ∧ (1 : Nat) < 2 + 1); omega)).trans ?_
    refine (canon_hit _ _ _ _ _ _ qd kd (ix3 (0 : Fin 1) qd kd) rfl (Nat.zero_add _) (Nat.zero_add _)).trans ?_
    refine (slab_l_h1 _ _ _ _ _ _ _ qd kd).trans ?_
    exact congrArg₂ (· + ·) (ld_slab xs1 1 _ _ _ _ qd kd rfl rfl rfl)
      (Finset.sum_congr rfl fun n _ => congrArg₂ (· * ·) (aff_l_q x0 x6 x7 n _) (aff_l_k x1 x8 x9 n _))
  | ⟨2, _⟩ =>
    refine (canon_skip _ _ _ _ _ _ qd kd (by show ¬((3 : Nat) ≤ 2 ∧ (2 : Nat) < 3 + 1); omega)).trans ?_
    refine (canon_hit _ _ _ _ _ _ qd kd (ix3 (0 : Fin 1) qd kd) rfl (Nat.zero_add _) (Nat.zero_add _)).trans ?_
    refine (slab_l_h2 _ _ _ qd kd).trans ?_
    exact congrArg₂ (· + ·) (ld_slab xs1 2 _ _ _ _ qd kd rfl rfl rfl)
      (Finset.sum_congr rfl fun n _ => congrArg₂ (· * ·) (aff_l_q x0 x6 x7 n _) (aff_l_k x1 x8 x9 n _))
  | ⟨3, _⟩ =>
    refine (canon_hit _ _ _ _ _ _ qd kd (ix3 (0 : Fin 1) qd kd) rfl (Nat.zero_add _) (Nat.zero_add _)).trans ?_
    refine (slab_l_h3 _ _ _ qd kd).trans ?_
    exact congrArg₂ (· + ·) (ld_slab xs1 3 _ _ _ _ qd kd rfl rfl rfl)
      (Finset.sum_congr rfl fun n _ => congrArg₂ (· * ·) (aff_l_q x0 x6 x7 n _) (aff_l_k x1 x8 x9 n _))

/-! ## The accumulators after a first-tile point -/

/-- The global accumulator: zero plus this tile's partial scores. -/
theorem sout0_A_0_apply (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 x1 : Vec Ideal S1x2048x1024 .f32) (x2 x3 x4 x5 x6 x7 x8 x9 : Vec Ideal S1x1024 .f32) (h : Fin 4) (qd kd : Fin 256) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 h qd kd)
      = (0 : EReal) + ∑ n : Fin 2048, affb x0 x2 x3 n (chan h qd) * affb x1 x4 x5 n (chan h kd) := by
  unfold sout0_A_0
  rw [View.read_writes_junk_eq_canon]
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1x2048x1024) offs_zero3, View.ld_unit_zero (S := S1x1024) offs_zero2]
  match h with
  | ⟨0, _⟩ =>
    refine (canon_skip _ _ _ _ _ _ qd kd (by show ¬((3 : Nat) ≤ 0 ∧ (0 : Nat) < 3 + 1); omega)).trans ?_
    refine (canon_skip _ _ _ _ _ _ qd kd (by show ¬((2 : Nat) ≤ 0 ∧ (0 : Nat) < 2 + 1); omega)).trans ?_
    refine (canon_skip _ _ _ _ _ _ qd kd (by show ¬((1 : Nat) ≤ 0 ∧ (0 : Nat) < 1 + 1); omega)).trans ?_
    refine (canon_hit _ _ _ _ _ _ qd kd (ix3 (0 : Fin 1) qd kd) rfl (Nat.zero_add _) (Nat.zero_add _)).trans ?_
    refine (slab_g_h0 _ _ _ _ qd kd).trans ?_
    refine congrArg₂ (· + ·) ?_
      (Finset.sum_congr rfl fun n _ => congrArg₂ (· * ·) (aff_g_q x0 x2 x3 n _) (aff_g_k x1 x4 x5 n _))
    refine (readCov_slab arg14.view _ 0 _ _ _ (⟨0, by omega⟩ : Fin 4) qd kd rfl rfl rfl).trans ?_
    exact (congrFun (View.canon_unit_zero offs_zero3 _ _) _).trans (Cert.KernelIdeal.PayVal.pay5_apply _)
  | ⟨1, _⟩ =>
    refine (canon_skip _ _ _ _ _ _ qd kd (by show ¬((3 : Nat) ≤ 1 ∧ (1 : Nat) < 3 + 1); omega)).trans ?_
    refine (canon_skip _ _ _ _ _ _ qd kd (by show ¬((2 : Nat) ≤ 1 ∧ (1 : Nat) < 2 + 1); omega)).trans ?_
    refine (canon_hit _ _ _ _ _ _ qd kd (ix3 (0 : Fin 1) qd kd) rfl (Nat.zero_add _) (Nat.zero_add _)).trans ?_
    refine (slab_g_h1 _ _ _ _ qd kd).trans ?_
    refine congrArg₂ (· + ·) ?_
      (Finset.sum_congr rfl fun n _ => congrArg₂ (· * ·) (aff_g_q x0 x2 x3 n _) (aff_g_k x1 x4 x5 n _))
    refine (readCov_slab arg14.view _ 1 _ _ _ (⟨1, by omega⟩ : Fin 4) qd kd rfl rfl rfl).trans ?_
    refine (canon_skip _ _ _ _ _ _ qd kd (by show ¬((0 : Nat) ≤ 1 ∧ (1 : Nat) < 0 + 1); omega)).trans ?_
    exact (congrFun (View.canon_unit_zero offs_zero3 _ _) _).trans (Cert.KernelIdeal.PayVal.pay5_apply _)
  | ⟨2, _⟩ =>
    refine (canon_skip _ _ _ _ _ _ qd kd (by show ¬((3 : Nat) ≤ 2 ∧ (2 : Nat) < 3 + 1); omega)).trans ?_
    refine (canon_hit _ _ _ _ _ _ qd kd (ix3 (0 : Fin 1) qd kd) rfl (Nat.zero_add _) (Nat.zero_add _)).trans ?_
    refine (slab_g_h2 _ _ _ qd kd).trans ?_
    refine congrArg₂ (· + ·) ?_
      (Finset.sum_congr rfl fun n _ => congrArg₂ (· * ·) (aff_g_q x0 x2 x3 n _) (aff_g_k x1 x4 x5 n _))
    refine (readCov_slab arg14.view _ 2 _ _ _ (⟨2, by omega⟩ : Fin 4) qd kd rfl rfl rfl).trans ?_
    refine (canon_skip _ _ _ _ _ _ qd kd (by show ¬((1 : Nat) ≤ 2 ∧ (2 : Nat) < 1 + 1); omega)).trans ?_
    refine (canon_skip _ _ _ _ _ _ qd kd (by show ¬((0 : Nat) ≤ 2 ∧ (2 : Nat) < 0 + 1); omega)).trans ?_
    exact (congrFun (View.canon_unit_zero offs_zero3 _ _) _).trans (Cert.KernelIdeal.PayVal.pay5_apply _)
  | ⟨3, _⟩ =>
    refine (canon_hit _ _ _ _ _ _ qd kd (ix3 (0 : Fin 1) qd kd) rfl (Nat.zero_add _) (Nat.zero_add _)).trans ?_
    refine (slab_g_h3 _ _ _ qd kd).trans ?_
    refine congrArg₂ (· + ·) ?_
      (Finset.sum_congr rfl fun n _ => congrArg₂ (· * ·) (aff_g_q x0 x2 x3 n _) (aff_g_k x1 x4 x5 n _))
    refine (readCov_slab arg14.view _ 3 _ _ _ (⟨3, by omega⟩ : Fin 4) qd kd rfl rfl rfl).trans ?_
    refine (canon_skip _ _ _ _ _ _ qd kd (by show ¬((2 : Nat) ≤ 3 ∧ (3 : Nat) < 2 + 1); omega)).trans ?_
    refine (canon_skip _ _ _ _ _ _ qd kd (by show ¬((1 : Nat) ≤ 3 ∧ (3 : Nat) < 1 + 1); omega)).trans ?_
    refine (canon_skip _ _ _ _ _ _ qd kd (by show ¬((0 : Nat) ≤ 3 ∧ (3 : Nat) < 0 + 1); omega)).trans ?_
    exact (congrFun (View.canon_unit_zero offs_zero3 _ _) _).trans (Cert.KernelIdeal.PayVal.pay5_apply _)

/-- The local accumulator, the same with the local branch's weights. -/
theorem sout0_A_1_apply (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : cond0_0 i) (hc1 : ¬cond0_1 i)
    (x0 x1 : Vec Ideal S1x2048x1024 .f32) (x2 x3 x4 x5 x6 x7 x8 x9 : Vec Ideal S1x1024 .f32) (h : Fin 4) (qd kd : Fin 256) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 h qd kd)
      = (0 : EReal) + ∑ n : Fin 2048, affb x0 x6 x7 n (chan h qd) * affb x1 x8 x9 n (chan h kd) := by
  unfold sout0_A_1
  rw [View.read_writes_junk_eq_canon]
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1x2048x1024) offs_zero3, View.ld_unit_zero (S := S1x1024) offs_zero2]
  match h with
  | ⟨0, _⟩ =>
    refine (canon_skip _ _ _ _ _ _ qd kd (by show ¬((3 : Nat) ≤ 0 ∧ (0 : Nat) < 3 + 1); omega)).trans ?_
    refine (canon_skip _ _ _ _ _ _ qd kd (by show ¬((2 : Nat) ≤ 0 ∧ (0 : Nat) < 2 + 1); omega)).trans ?_
    refine (canon_skip _ _ _ _ _ _ qd kd (by show ¬((1 : Nat) ≤ 0 ∧ (0 : Nat) < 1 + 1); omega)).trans ?_
    refine (canon_hit _ _ _ _ _ _ qd kd (ix3 (0 : Fin 1) qd kd) rfl (Nat.zero_add _) (Nat.zero_add _)).trans ?_
    refine (slab_l_h0 _ _ _ _ _ _ _ qd kd).trans ?_
    refine congrArg₂ (· + ·) ?_
      (Finset.sum_congr rfl fun n _ => congrArg₂ (· * ·) (aff_l_q x0 x6 x7 n _) (aff_l_k x1 x8 x9 n _))
    refine (readCov_slab arg15.view _ 0 _ _ _ (⟨0, by omega⟩ : Fin 4) qd kd rfl rfl rfl).trans ?_
    exact (congrFun (View.canon_unit_zero offs_zero3 _ _) _).trans (Cert.KernelIdeal.PayVal.pay6_apply _)
  | ⟨1, _⟩ =>
    refine (canon_skip _ _ _ _ _ _ qd kd (by show ¬((3 : Nat) ≤ 1 ∧ (1 : Nat) < 3 + 1); omega)).trans ?_
    refine (canon_skip _ _ _ _ _ _ qd kd (by show ¬((2 : Nat) ≤ 1 ∧ (1 : Nat) < 2 + 1); omega)).trans ?_
    refine (canon_hit _ _ _ _ _ _ qd kd (ix3 (0 : Fin 1) qd kd) rfl (Nat.zero_add _) (Nat.zero_add _)).trans ?_
    refine (slab_l_h1 _ _ _ _ _ _ _ qd kd).trans ?_
    refine congrArg₂ (· + ·) ?_
      (Finset.sum_congr rfl fun n _ => congrArg₂ (· * ·) (aff_l_q x0 x6 x7 n _) (aff_l_k x1 x8 x9 n _))
    refine (readCov_slab arg15.view _ 1 _ _ _ (⟨1, by omega⟩ : Fin 4) qd kd rfl rfl rfl).trans ?_
    refine (canon_skip _ _ _ _ _ _ qd kd (by show ¬((0 : Nat) ≤ 1 ∧ (1 : Nat) < 0 + 1); omega)).trans ?_
    exact (congrFun (View.canon_unit_zero offs_zero3 _ _) _).trans (Cert.KernelIdeal.PayVal.pay6_apply _)
  | ⟨2, _⟩ =>
    refine (canon_skip _ _ _ _ _ _ qd kd (by show ¬((3 : Nat) ≤ 2 ∧ (2 : Nat) < 3 + 1); omega)).trans ?_
    refine (canon_hit _ _ _ _ _ _ qd kd (ix3 (0 : Fin 1) qd kd) rfl (Nat.zero_add _) (Nat.zero_add _)).trans ?_
    refine (slab_l_h2 _ _ _ qd kd).trans ?_
    refine congrArg₂ (· + ·) ?_
      (Finset.sum_congr rfl fun n _ => congrArg₂ (· * ·) (aff_l_q x0 x6 x7 n _) (aff_l_k x1 x8 x9 n _))
    refine (readCov_slab arg15.view _ 2 _ _ _ (⟨2, by omega⟩ : Fin 4) qd kd rfl rfl rfl).trans ?_
    refine (canon_skip _ _ _ _ _ _ qd kd (by show ¬((1 : Nat) ≤ 2 ∧ (2 : Nat) < 1 + 1); omega)).trans ?_
    refine (canon_skip _ _ _ _ _ _ qd kd (by show ¬((0 : Nat) ≤ 2 ∧ (2 : Nat) < 0 + 1); omega)).trans ?_
    exact (congrFun (View.canon_unit_zero offs_zero3 _ _) _).trans (Cert.KernelIdeal.PayVal.pay6_apply _)
  | ⟨3, _⟩ =>
    refine (canon_hit _ _ _ _ _ _ qd kd (ix3 (0 : Fin 1) qd kd) rfl (Nat.zero_add _) (Nat.zero_add _)).trans ?_
    refine (slab_l_h3 _ _ _ qd kd).trans ?_
    refine congrArg₂ (· + ·) ?_
      (Finset.sum_congr rfl fun n _ => congrArg₂ (· * ·) (aff_l_q x0 x6 x7 n _) (aff_l_k x1 x8 x9 n _))
    refine (readCov_slab arg15.view _ 3 _ _ _ (⟨3, by omega⟩ : Fin 4) qd kd rfl rfl rfl).trans ?_
    refine (canon_skip _ _ _ _ _ _ qd kd (by show ¬((2 : Nat) ≤ 3 ∧ (3 : Nat) < 2 + 1); omega)).trans ?_
    refine (canon_skip _ _ _ _ _ _ qd kd (by show ¬((1 : Nat) ≤ 3 ∧ (3 : Nat) < 1 + 1); omega)).trans ?_
    refine (canon_skip _ _ _ _ _ _ qd kd (by show ¬((0 : Nat) ≤ 3 ∧ (3 : Nat) < 0 + 1); omega)).trans ?_
    exact (congrFun (View.canon_unit_zero offs_zero3 _ _) _).trans (Cert.KernelIdeal.PayVal.pay6_apply _)

/-! ## The attention windows after a last-tile point -/

/-- The global attention window: its one whole store's payload, the softmax of the accumulator as the slab stores
    left it (a load of the whole accumulator after them reads what they leave). -/
theorem out0_B_10_eq (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 x1 : Vec Ideal S1x2048x1024 .f32) (x2 x3 x4 x5 x6 x7 x8 x9 : Vec Ideal S1x1024 .f32) (xs0 xs1 : Vec Ideal S4x256x256 .f32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1
      = k0_pay3 (F := Ideal) (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1) := by
  unfold out0_B_10 sout0_B_0
  rw [View.read_writes_junk_eq_canon, View.read_writes_junk_eq_canon]
  unfold kernelRun0_B
  dsimp only
  sl_unfold_words
  refine (View.canon_unit_zero (S := S1x4x256x256) offs_zero4 _ _).trans ?_
  refine congrArg (k0_pay3 (F := Ideal)) ?_
  refine (View.readCov_eq_canon' _ _ _).trans ?_
  exact View.ld_unit_zero (S := S4x256x256) offs_zero3 _ _

/-- The local attention window, the same over the local accumulator. -/
theorem out0_B_11_eq (c : Dev nD) (i : grid0.Coords) (arg2 : Memref sig .tc .vmem S1x2048x1024 .f32) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x4x256x256 .f32) (harg12 : arg12.IsWhole) (arg13 : Memref sig .tc .vmem S1x4x256x256 .f32) (harg13 : arg13.IsWhole) (arg14 : Memref sig .tc .vmem S4x256x256 .f32) (harg14 : arg14.IsWhole) (arg15 : Memref sig .tc .vmem S4x256x256 .f32) (harg15 : arg15.IsWhole) (hc0 : ¬cond0_0 i) (hc1 : cond0_1 i)
    (x0 x1 : Vec Ideal S1x2048x1024 .f32) (x2 x3 x4 x5 x6 x7 x8 x9 : Vec Ideal S1x1024 .f32) (xs0 xs1 : Vec Ideal S4x256x256 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1
      = k0_pay4 (F := Ideal) (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1) := by
  unfold out0_B_11 sout0_B_1
  rw [View.read_writes_junk_eq_canon, View.read_writes_junk_eq_canon]
  unfold kernelRun0_B
  dsimp only
  sl_unfold_words
  refine (View.canon_unit_zero (S := S1x4x256x256) offs_zero4 _ _).trans ?_
  refine congrArg (k0_pay4 (F := Ideal)) ?_
  refine (View.readCov_eq_canon' _ _ _).trans ?_
  exact View.ld_unit_zero (S := S4x256x256) offs_zero3 _ _

end Cert.KernelIdeal.HandValue

end
-- ==== Proof.KIPay0Softmax.lean ====
/-
  The score kernel's softmax payload read at an index, on the extended reals.

  On the last tile the kernel holds the running scores of the 4 heads as a [4, 256, 256] array (head, query lane, key
  lane). It scales them by 2⁻⁵ (the word 0x3D000000), subtracts from each row (head, query lane) the row's maximum over
  the key lanes — the maximum folded from −∞ (the word 0xFF800000) and taken once more against −∞ —, exponentiates,
  divides each row by its sum (a real division), and stores the result with the last two axes swapped: the stored
  entry (head, key lane, query lane) is the weight of the key lane in the row (head, query lane). The lemmas read the
  layout steps and the two lane reductions at an index; no law of the arithmetic is used.
-/
import proofs.«175229_j12481174962662_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.PayVal

open Cert.KernelIdeal Cert.KernelIdeal.Gen Idealize.ShloMosaic Idealize.ShloMosaic.ValueIdx

/-! ## Layout pieces of the row softmax -/

/-- A `[4, 256]` array cast to `[4, 256, 1]` reads, at `(a, b, u)`, the operand at `(a, b)`. -/
theorem shapeCast_keepdims_apply {α : Type} (x : S4x256.Idx → α) (a : Fin 4) (b : Fin 256) (u : Fin 1) :
    shapeCast S4x256x1 x shapeCasts_S4x256_S4x256x1 (ix3 a b u) = x (ix2 a b) :=
  shapeCast_apply x _ _ _ (by
    have hu : u.val = 0 := by omega
    rw [Shape.rowMajor_val_two, Shape.rowMajor_val_three]
    show a.val * 256 + b.val = (a.val * 256 + b.val) * 1 + u.val
    rw [hu, Nat.mul_one, Nat.add_zero])

/-- A `[4, 256, 1]` column broadcast along the last axis to `[4, 256, 256]` reads, at `(a, b, c)`, the operand at
    `(a, b, 0)`. -/
theorem broadcastTo_col_apply {α : Type} (x : S4x256x1.Idx → α) (a : Fin 4) (b c : Fin 256) :
    broadcastTo S4x256x256 x broadcasts_S4x256x1_S4x256x256 (ix3 a b c) = x (ix3 a b (0 : Fin 1)) := by
  refine broadcastTo_apply x _ (ix3 a b c) (ix3 a b (0 : Fin 1)) fun ax => ?_
  match ax with
  | ⟨0, _⟩ => show a.val = if (4 : Nat) = 1 then 0 else a.val; rw [if_neg (by decide)]
  | ⟨1, _⟩ => show b.val = if (256 : Nat) = 1 then 0 else b.val; rw [if_neg (by decide)]
  | ⟨2, _⟩ => show 0 = if (1 : Nat) = 1 then 0 else c.val; rw [if_pos rfl]

/-- A per-row value `[4, 256]` spread over the row's 256 lanes reads the row's value. -/
theorem row_spread_apply {α : Type} (x : S4x256.Idx → α) (a : Fin 4) (b c : Fin 256) :
    broadcastTo S4x256x256 (shapeCast S4x256x1 x shapeCasts_S4x256_S4x256x1) broadcasts_S4x256x1_S4x256x256 (ix3 a b c)
      = x (ix2 a b) := by
  rw [broadcastTo_col_apply, shapeCast_keepdims_apply]

/-- The maximum over the last axis, from the word of −∞: at row `(a, b)` the fold of `max` over the row's 256 lanes. -/
theorem rowMax_apply (src : FVec Ideal S4x256x256 .f32) (hφ : FTy.f32 = FTy.f32 ∨ FTy.f32 = FTy.bf16)
    (hacc : (0xFF800000#32 : BitVec 32) = 0xFF800000#32) (a : Fin 4) (b : Fin 256) :
    multiReduction (F := Ideal) .maximumf [2] S4x256 src 0xFF800000#32 reduces_S4x256x256_S4x256 hφ hacc (ix2 a b)
      = (Finset.univ : Finset (Fin 256)).fold max (Ideal.ofBits .f32 0xFF800000#32) (fun c => src (ix3 a b c)) := by
  refine (Ideal.multiReduction_maximumf_single src 0xFF800000#32 reduces_S4x256x256_S4x256 hφ hacc (ix2 a b)).trans ?_
  show (Finset.univ : Finset (Fin 256)).fold max (Ideal.ofBits .f32 0xFF800000#32)
      (src ∘ reduces_S4x256x256_S4x256.lift (ix2 a b)) = _
  have e : ∀ c : Fin 256, reduces_S4x256x256_S4x256.lift (ix2 a b) c = ix3 a b c := fun c =>
    funext fun ax => Fin.ext (by
      match ax with
      | ⟨0, _⟩ => rfl
      | ⟨1, _⟩ => rfl
      | ⟨2, _⟩ => rfl)
  exact congrArg (fun f => (Finset.univ : Finset (Fin 256)).fold max (Ideal.ofBits .f32 0xFF800000#32) f)
    (funext fun c => congrArg src (e c))

/-- The sum over the last axis: at row `(a, b)` the sum over the row's 256 lanes. -/
theorem rowSum_apply (src : FVec Ideal S4x256x256 .f32) (hφ : FTy.f32 = FTy.f32 ∨ FTy.f32 = FTy.bf16)
    (hacc : (0x00000000#32 : BitVec 32) = 0x00000000#32) (a : Fin 4) (b : Fin 256) :
    multiReduction (F := Ideal) .add [2] S4x256 src 0x00000000#32 reduces_S4x256x256_S4x256 hφ hacc (ix2 a b)
      = ∑ c : Fin 256, src (ix3 a b c) := by
  refine (Ideal.multiReduction_add_single src 0x00000000#32 reduces_S4x256x256_S4x256 hφ hacc (ix2 a b)).trans ?_
  show ∑ c : Fin 256, src (reduces_S4x256x256_S4x256.lift (ix2 a b) c) = _
  refine Finset.sum_congr rfl fun c _ => congrArg src (funext fun ax => Fin.ext ?_)
  match ax with
  | ⟨0, _⟩ => rfl
  | ⟨1, _⟩ => rfl
  | ⟨2, _⟩ => rfl

/-- An exponential at an index is the exponential of the element. -/
theorem exp_apply {s : Shape} {φ : FTy} (a : FVec Ideal s φ) (i : s.Idx) : exp a i = Ideal.exp (a i) := rfl

/-! ## The row softmax, stored transposed -/

/-- The exponential of a score times 2⁻⁵ (the word 0x3D000000) less its row's maximum: the maximum over the row's 256
    key lanes of the scaled scores, folded from −∞ (the word 0xFF800000) and taken once more against −∞. The row is
    `(h, qd)`: head and query lane. -/
def rowExp (S : Vec Ideal S4x256x256 .f32) (h : Fin 4) (qd kd : Fin 256) : EReal :=
  Ideal.exp (S (ix3 h qd kd) * Ideal.ofBits .f32 0x3D000000#32
    - max (Ideal.ofBits .f32 0xFF800000#32)
        ((Finset.univ : Finset (Fin 256)).fold max (Ideal.ofBits .f32 0xFF800000#32)
          (fun k' => S (ix3 h qd k') * Ideal.ofBits .f32 0x3D000000#32)))

theorem rowExp_eq (S : Vec Ideal S4x256x256 .f32) (h : Fin 4) (qd kd : Fin 256) :
    rowExp S h qd kd = Ideal.exp (S (ix3 h qd kd) * Ideal.ofBits .f32 0x3D000000#32
      - max (Ideal.ofBits .f32 0xFF800000#32)
          ((Finset.univ : Finset (Fin 256)).fold max (Ideal.ofBits .f32 0xFF800000#32)
            (fun k' => S (ix3 h qd k') * Ideal.ofBits .f32 0x3D000000#32))) := rfl

/-- THE SOFTMAX PAYLOAD (global branch). The stored entry `(h, kd, qd)` — key lane before query lane: the block is
    stored transposed — is the weight of key lane `kd` in row `(h, qd)`: the row's exponential at `kd` divided by
    the sum of the row's exponentials. -/
theorem softmax_T_g (S : Vec Ideal S4x256x256 .f32) (h : Fin 4) (kd qd : Fin 256) :
    k0_pay3 (F := Ideal) S (ix4 0 h kd qd)
      = Ideal.div (rowExp S h qd kd) (∑ kd' : Fin 256, rowExp S h qd kd') := by
  unfold k0_pay3
  rw [shapeCast_abc_1abc_apply, transpose_ix3_021_apply]
  rw [divf_apply, row_spread_apply, rowSum_apply]
  refine congrArg₂ Ideal.div ?_ (Finset.sum_congr rfl fun c _ => ?_)
  · rw [exp_apply, subf_apply, row_spread_apply, maximumf_apply, rowMax_apply]
    rfl
  · rw [exp_apply, subf_apply, row_spread_apply, maximumf_apply, rowMax_apply]
    rfl

/-- The local branch's softmax payload is the same term. -/
theorem softmax_T_l (S : Vec Ideal S4x256x256 .f32) (h : Fin 4) (kd qd : Fin 256) :
    k0_pay4 (F := Ideal) S (ix4 0 h kd qd)
      = Ideal.div (rowExp S h qd kd) (∑ kd' : Fin 256, rowExp S h qd kd') :=
  softmax_T_g S h kd qd

end Cert.KernelIdeal.PayVal

end
-- ==== Proof.KIRegion0Final.lean ====
import proofs.«175229_j12481174962662_2_alg».proof.Proof.KIRegion0Cover
import proofs.«175229_j12481174962662_2_alg».proof.Proof.KIRegion0Value
import proofs.«175229_j12481174962662_2_alg».proof.Proof.KIPay0Softmax

set_option maxRecDepth 16384

noncomputable section

namespace Cert.KernelIdeal.HandValue

open Cert.KernelIdeal Cert.KernelIdeal.Gen Cert.KernelIdeal.Hand
open Idealize.ShloMosaic.ValueIdx
open Cert.Spec Cert.KSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The score region: what a last-tile point writes back, and the attention arrays after the region -/

variable (V : (c : Dev nD) → (b : Ref sig .tc) → Buf (Elt Ideal) ((c : Thread nD τ).loc b))

/-- The global accumulator after a last-tile point: zero, plus the first tile's partial scores, plus the second's —
    the kernel-order accumulated score of the point's batch. -/
theorem acc_g_odd (c : Dev nD) (t : Fin cfg0.N) (hodd : t.val % 2 = 1) (h : Fin 4) (qd kd : Fin 256) :
    (outsAt0 V c t.val t.isLt).2.2.1 (ix3 h qd kd) = acc (V c (Pipeline.arrRef spec0 0)) (V c (Pipeline.arrRef spec0 1)) (rowOf (V c (Pipeline.arrRef spec0 2))) (rowOf (V c (Pipeline.arrRef spec0 3))) (rowOf (V c (Pipeline.arrRef spec0 4))) (rowOf (V c (Pipeline.arrRef spec0 5))) (batchOf t) h qd kd := by
  have h0 : ¬t.val % 2 = 0 := by omega
  rw [outsAt0_B V c t h0 hodd]
  dsimp only
  rw [sout0_B_0_apply]
  have hprev := outsAt0_A V c (prevOf t) (prev_even t hodd) (prev_not_odd t hodd)
  rw [show outsAt0 V c (t.val - 1) (Nat.lt_of_le_of_lt (Nat.sub_le _ _) t.isLt) = outsAt0 V c (prevOf t).val (prevOf t).isLt from rfl, hprev]
  dsimp only
  rw [sout0_A_0_apply]
  unfold acc part affb
  refine congrArg₂ (· + ·) (congrArg ((0 : EReal) + ·) (Finset.sum_congr rfl fun n _ => ?_)) (Finset.sum_congr rfl fun n _ => ?_)
  · rw [iblk0_0_apply, iblk0_1_apply, iblk0_2_apply, iblk0_3_apply, iblk0_4_apply, iblk0_5_apply,
      batchOf_prev t hodd, tokenOf_prev t hodd]
    rfl
  · rw [iblk0_0_apply, iblk0_1_apply, iblk0_2_apply, iblk0_3_apply, iblk0_4_apply, iblk0_5_apply,
      tokenOf_odd t hodd]
    rfl

/-- WHAT A LAST-TILE POINT WRITES BACK into the global attention window is its block of the attention array. -/
theorem flushed_eq0_10 (c : Dev nD) (t : Fin cfg0.N) (hf : (cfg0.win 10).flush t = true) :
    (dat0 V c).flushed 10 t = ((cfg0.win 10).blk t).view.read (Elt Ideal) (attT (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  have hodd : t.val % 2 = 1 := (flush0_10 t).mp hf
  have h0 : ¬t.val % 2 = 0 := by omega
  show (cfg0.win 10).cut (grid0.coords t) ((dat0 V c).after 10 t) = _
  rw [after0_10]
  funext y
  obtain ⟨h, kd, qd, rfl⟩ : ∃ (h : Fin 4) (kd qd : Fin 256), y = ix4 0 h kd qd :=
    ⟨y 1, y 2, y 3, by
      have e : y 0 = (0 : Fin 1) := Fin.ext (by have h' : (y 0).val < 1 := (y 0).isLt; show (y 0).val = 0; omega)
      exact (eq_ix4 y).trans (congrArg (fun z => ix4 z (y 1) (y 2) (y 3)) e)⟩
  show (outsAt0 V c t.val t.isLt).1 (ix4 0 h kd qd) = attT _ _ _ _ _ _ (((cfg0.win 10).blk t).view.emb (ix4 0 h kd qd))
  rw [blk0_10_emb, attT_ix4]
  have hS : (outsAt0 V c t.val t.isLt).1 = k0_pay3 (F := Ideal) ((outsAt0 V c t.val t.isLt).2.2.1) := by
    rw [outsAt0_B V c t h0 hodd]
    dsimp only
    exact out0_B_10_eq _ _ _ _ _ _ _ _ _ _ _ _ _ _ _ _ _ _ _ _ _ _ _ _ _ _ _ _ _ _ _ _ _ _ _ _ _ _ _ _ _ _ _ _
  rw [hS, Cert.KernelIdeal.PayVal.softmax_T_g]
  unfold katt ke krowmax kscaled Cert.KernelIdeal.PayVal.rowExp
  simp only [acc_g_odd V c t hodd]

/-- THE GLOBAL ATTENTION ARRAY after the score region. -/
theorem final0_10 (c : Dev nD) :
    (dat0 V c).arrAt 10 cfg0.N = attT (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 10 _ (fun t hf => flushed_eq0_10 V c t hf) cover0_10

/-- The local accumulator after a last-tile point: zero, plus the first tile's partial scores, plus the second's —
    the kernel-order accumulated score of the point's batch. -/
theorem acc_l_odd (c : Dev nD) (t : Fin cfg0.N) (hodd : t.val % 2 = 1) (h : Fin 4) (qd kd : Fin 256) :
    (outsAt0 V c t.val t.isLt).2.2.2 (ix3 h qd kd) = acc (V c (Pipeline.arrRef spec0 0)) (V c (Pipeline.arrRef spec0 1)) (rowOf (V c (Pipeline.arrRef spec0 6))) (rowOf (V c (Pipeline.arrRef spec0 7))) (rowOf (V c (Pipeline.arrRef spec0 8))) (rowOf (V c (Pipeline.arrRef spec0 9))) (batchOf t) h qd kd := by
  have h0 : ¬t.val % 2 = 0 := by omega
  rw [outsAt0_B V c t h0 hodd]
  dsimp only
  rw [sout0_B_1_apply]
  have hprev := outsAt0_A V c (prevOf t) (prev_even t hodd) (prev_not_odd t hodd)
  rw [show outsAt0 V c (t.val - 1) (Nat.lt_of_le_of_lt (Nat.sub_le _ _) t.isLt) = outsAt0 V c (prevOf t).val (prevOf t).isLt from rfl, hprev]
  dsimp only
  rw [sout0_A_1_apply]
  unfold acc part affb
  refine congrArg₂ (· + ·) (congrArg ((0 : EReal) + ·) (Finset.sum_congr rfl fun n _ => ?_)) (Finset.sum_congr rfl fun n _ => ?_)
  · rw [iblk0_0_apply, iblk0_1_apply, iblk0_6_apply, iblk0_7_apply, iblk0_8_apply, iblk0_9_apply,
      batchOf_prev t hodd, tokenOf_prev t hodd]
    rfl
  · rw [iblk0_0_apply, iblk0_1_apply, iblk0_6_apply, iblk0_7_apply, iblk0_8_apply, iblk0_9_apply,
      tokenOf_odd t hodd]
    rfl

/-- WHAT A LAST-TILE POINT WRITES BACK into the local attention window is its block of the attention array. -/
theorem flushed_eq0_11 (c : Dev nD) (t : Fin cfg0.N) (hf : (cfg0.win 11).flush t = true) :
    (dat0 V c).flushed 11 t = ((cfg0.win 11).blk t).view.read (Elt Ideal) (attT (V c (Pipeline.arrRef spec0 0)) (V c (Pipeline.arrRef spec0 1)) (V c (Pipeline.arrRef spec0 6)) (V c (Pipeline.arrRef spec0 7)) (V c (Pipeline.arrRef spec0 8)) (V c (Pipeline.arrRef spec0 9))) := by
  have hodd : t.val % 2 = 1 := (flush0_11 t).mp hf
  have h0 : ¬t.val % 2 = 0 := by omega
  show (cfg0.win 11).cut (grid0.coords t) ((dat0 V c).after 11 t) = _
  rw [after0_11]
  funext y
  obtain ⟨h, kd, qd, rfl⟩ : ∃ (h : Fin 4) (kd qd : Fin 256), y = ix4 0 h kd qd :=
    ⟨y 1, y 2, y 3, by
      have e : y 0 = (0 : Fin 1) := Fin.ext (by have h' : (y 0).val < 1 := (y 0).isLt; show (y 0).val = 0; omega)
      exact (eq_ix4 y).trans (congrArg (fun z => ix4 z (y 1) (y 2) (y 3)) e)⟩
  show (outsAt0 V c t.val t.isLt).2.1 (ix4 0 h kd qd) = attT _ _ _ _ _ _ (((cfg0.win 11).blk t).view.emb (ix4 0 h kd qd))
  rw [blk0_11_emb, attT_ix4]
  have hS : (outsAt0 V c t.val t.isLt).2.1 = k0_pay4 (F := Ideal) ((outsAt0 V c t.val t.isLt).2.2.2) := by
    rw [outsAt0_B V c t h0 hodd]
    dsimp only
    exact out0_B_11_eq _ _ _ _ _ _ _ _ _ _ _ _ _ _ _ _ _ _ _ _ _ _ _ _ _ _ _ _ _ _ _ _ _ _ _ _ _ _ _ _ _ _ _ _
  rw [hS, Cert.KernelIdeal.PayVal.softmax_T_l]
  unfold katt ke krowmax kscaled Cert.KernelIdeal.PayVal.rowExp
  simp only [acc_l_odd V c t hodd]

/-- THE LOCAL ATTENTION ARRAY after the score region. -/
theorem final0_11 (c : Dev nD) :
    (dat0 V c).arrAt 11 cfg0.N = attT (V c (Pipeline.arrRef spec0 0)) (V c (Pipeline.arrRef spec0 1)) (V c (Pipeline.arrRef spec0 6)) (V c (Pipeline.arrRef spec0 7)) (V c (Pipeline.arrRef spec0 8)) (V c (Pipeline.arrRef spec0 9)) :=
  (dat0 V c).arrAt_eq_of_cover 11 _ (fun t hf => flushed_eq0_11 V c t hf) cover0_11

end Cert.KernelIdeal.HandValue

end
-- ==== Proof.KIRegion1Value.lean ====
/- Region 1 of the idealized kernel program, read at an index. The body's output block [1, 2048, 1024] is four column
   slices of 256 channels, one per head. At row n and lane qd of head h the stored value is

     (∑ j < 512, vcat(n, j) · acat(j, qd)) · wp(ch) + bp(ch),      ch = h · 256 + qd,

   where vcat(n, ·) is the row of 512 made of the global affine image x · w_g + b_g of the value block on head h's 256
   channels followed by the local one x · w_l + b_l on the same channels, and acat(·, qd) is the column of 512 made
   of head h's transposed global attention matrix stacked on the local one. Only the definitions of the operations
   are used: the contraction is the sum over its one contracted axis, the concatenations, slices, casts and the row
   broadcast are re-indexings, and the arithmetic is the extended reals' pointwise. -/
import proofs.«175229_j12481174962662_2_alg».proof.Proof.KIRegion1
import proofs.«175229_j12481174962662_2_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx
open Cert.Spec (chan head lane chan_val head_val lane_val head_chan lane_chan chan_head_lane)

/-! ## The contraction at an index -/

/-- The contraction's dimension numbers: [2048, 512] against [512, 256], the 512 axes contracted, no batch axis. -/
abbrev MM : DotDims S2048x512 S512x256 S2048x256 := dot_S2048x512_S512x256_S2048x256_1_0_0_1_n_n

theorem mm_lhs_0 (i : S2048x256.Idx) (q : MM.contr.Idx) : (MM.lhsIdx i q 0).val = (i 0).val := by
  unfold DotDims.lhsIdx
  rw [dif_neg (show ¬(0 : Fin S2048x512.rank) ∈ MM.lhsBatch by decide), dif_pos (show (0 : Fin S2048x512.rank) ∈ MM.lhsNonContracting by decide)]
  rfl
theorem mm_lhs_1 (i : S2048x256.Idx) (q : MM.contr.Idx) : (MM.lhsIdx i q 1).val = (q ⟨0, by decide⟩).val :=
  MM.lhsIdx_val_of_single rfl i q
theorem mm_rhs_0 (i : S2048x256.Idx) (q : MM.contr.Idx) : (MM.rhsIdx i q 0).val = (q ⟨0, by decide⟩).val :=
  MM.rhsIdx_val_of_single rfl i q
theorem mm_rhs_1 (i : S2048x256.Idx) (q : MM.contr.Idx) : (MM.rhsIdx i q 1).val = (i 1).val := by
  unfold DotDims.rhsIdx
  rw [dif_neg (show ¬(1 : Fin S512x256.rank) ∈ MM.rhsBatch by decide), dif_pos (show (1 : Fin S512x256.rank) ∈ MM.rhsNonContracting by decide)]
  rfl

/-- The product of a [2048, 512] and a [512, 256] matrix into the zero matrix, at (n, qd): the sum over the 512. -/
theorem mm_apply (L : FVec Ideal S2048x512 .f32) (R : FVec Ideal S512x256 .f32) (n : Fin 2048) (qd : Fin 256) :
    matmul MM (some .fp32) L R (constant (F := Ideal) S2048x256 .f32 0x00000000#32) (ix2 n qd)
      = ∑ k : Fin 512, L (ix2 n k) * R (ix2 k qd) := by
  simp only [matmul]
  rw [Ideal.matmul_constant_zero_apply, ← Equiv.sum_comp (contrEquiv1 MM 512 rfl rfl).symm]
  refine Finset.sum_congr rfl fun k _ => ?_
  have hk := contrEquiv1_symm_val MM 512 rfl rfl k
  have el : MM.lhsIdx (ix2 n qd) ((contrEquiv1 MM 512 rfl rfl).symm k) = ix2 n k := funext fun a => Fin.ext (by
    match a with
    | ⟨0, _⟩ => exact mm_lhs_0 _ _
    | ⟨1, _⟩ => exact (mm_lhs_1 _ _).trans hk)
  have er : MM.rhsIdx (ix2 n qd) ((contrEquiv1 MM 512 rfl rfl).symm k) = ix2 k qd := funext fun a => Fin.ext (by
    match a with
    | ⟨0, _⟩ => exact (mm_rhs_0 _ _).trans hk
    | ⟨1, _⟩ => exact mm_rhs_1 _ _)
  rw [el, er]

/-! ## The affine images and the attention matrices at an index -/

/-- The global affine image of the value block, at row n and channel ch: x · w + b. -/
theorem pay6_apply (v0 : Vec Ideal S1x2048x1024 .f32) (w b : Vec Ideal S1x1024 .f32) (n : Fin 2048) (ch : Fin 1024) :
    k1_pay6 (F := Ideal) v0 w b (ix2 n ch) = v0 (ix3 0 n ch) * w (ix2 0 ch) + b (ix2 0 ch) := by
  unfold k1_pay6 k1_pay3
  simp only [addf_apply, mulf_apply]
  rw [shapeCast_1ab_ab_apply, broadcastTo_1b_ab_apply, shapeCast_a_1a_apply, shapeCast_1a_a_apply,
    broadcastTo_1b_ab_apply, shapeCast_a_1a_apply, shapeCast_1a_a_apply]

/-- The local affine image, the same. -/
theorem pay7_apply (v0 : Vec Ideal S1x2048x1024 .f32) (w b : Vec Ideal S1x1024 .f32) (n : Fin 2048) (ch : Fin 1024) :
    k1_pay7 (F := Ideal) v0 w b (ix2 n ch) = v0 (ix3 0 n ch) * w (ix2 0 ch) + b (ix2 0 ch) := by
  unfold k1_pay7 k1_pay3
  simp only [addf_apply, mulf_apply]
  rw [shapeCast_1ab_ab_apply, broadcastTo_1b_ab_apply, shapeCast_a_1a_apply, shapeCast_1a_a_apply,
    broadcastTo_1b_ab_apply, shapeCast_a_1a_apply, shapeCast_1a_a_apply]

/-- One head's attention matrix [1, 1, 256, 256] as a [256, 256] matrix. -/
theorem att_cast_apply (P : Vec Ideal S1x1x256x256 .f32) (h : S1x1x256x256.ShapeCasts S256x256) (a b : Fin 256) :
    shapeCast S256x256 P h (ix2 a b) = P (ix4 (0 : Fin 1) (0 : Fin 1) a b) :=
  shapeCast_apply P h _ _ (by
    rw [Shape.rowMajor_val_four, Shape.rowMajor_val_two]
    show ((0 * 1 + 0) * 256 + a.val) * 256 + b.val = a.val * 256 + b.val
    omega)

/-! ## The two concatenations and the slices at an index -/

/-- Two [2048, 256] matrices side by side, at (n, j): the left one for j < 256, the right one at j − 256 otherwise. -/
theorem vcat_apply (X Y : FVec Ideal S2048x256 .f32) (n : Fin 2048) (j : Fin 512) :
    concatenate S2048x512 1 [⟨S2048x256, X⟩, ⟨S2048x256, Y⟩] concatenates_S2048x256_S2048x256_S2048x512_d1 (ix2 n j)
      = if hj : j.val < 256 then X (ix2 n ⟨j.val, hj⟩) else Y (ix2 n ⟨j.val - 256, by have := j.isLt; omega⟩) := by
  by_cases hj : j.val < 256
  · rw [dif_pos hj]
    exact concatenate_pair_apply_left (1 : Fin S2048x512.rank) X Y _ (ix2 n j) rfl (ix2 n ⟨j.val, hj⟩)
      (fun b => match b with | ⟨0, _⟩ => rfl | ⟨1, _⟩ => rfl)
  · rw [dif_neg hj]
    exact concatenate_pair_apply_right (1 : Fin S2048x512.rank) X Y _ (ix2 n j) rfl rfl (ix2 n ⟨j.val - 256, by have := j.isLt; omega⟩)
      (fun b => match b with | ⟨0, _⟩ => fun _ => rfl | ⟨1, _⟩ => fun hb => absurd rfl hb)
      (by show j.val - 256 + 256 = j.val; omega)

/-- Two [256, 256] matrices one above the other, at (j, qd): the upper one for j < 256, the lower one at j − 256. -/
theorem acat_apply (X Y : FVec Ideal S256x256 .f32) (j : Fin 512) (qd : Fin 256) :
    concatenate S512x256 0 [⟨S256x256, X⟩, ⟨S256x256, Y⟩] concatenates_S256x256_S256x256_S512x256_d0 (ix2 j qd)
      = if hj : j.val < 256 then X (ix2 ⟨j.val, hj⟩ qd) else Y (ix2 ⟨j.val - 256, by have := j.isLt; omega⟩ qd) := by
  by_cases hj : j.val < 256
  · rw [dif_pos hj]
    exact concatenate_pair_apply_left (0 : Fin S512x256.rank) X Y _ (ix2 j qd) rfl (ix2 ⟨j.val, hj⟩ qd)
      (fun b => match b with | ⟨0, _⟩ => rfl | ⟨1, _⟩ => rfl)
  · rw [dif_neg hj]
    exact concatenate_pair_apply_right (0 : Fin S512x256.rank) X Y _ (ix2 j qd) rfl rfl (ix2 ⟨j.val - 256, by have := j.isLt; omega⟩ qd)
      (fun b => match b with | ⟨0, _⟩ => fun hb => absurd rfl hb | ⟨1, _⟩ => fun _ => rfl)
      (by show j.val - 256 + 256 = j.val; omega)

/-- 256 consecutive entries of a vector of 1024, from offset O: entry qd is the vector's at O + qd. -/
theorem slice1_apply (O : ℕ) (x : FVec Ideal S1024 .f32) (h : S1024.Slices ![O] S256) (qd : Fin 256) (ch : Fin 1024)
    (hch : ch.val = O + qd.val) : extractStridedSlice S256 ![O] x h (ix1 qd) = x (ix1 ch) :=
  extractStridedSlice_apply _ _ _ _ _ (fun ax => match ax with | ⟨0, _⟩ => hch)

/-! ## One head's stored slice -/

/-- What each of the four stores writes, as one term in the head's channel offset O = 256 · h: the affine images A
    (global) and B (local) cut to the head's 256 channels and set side by side, times the head's global attention
    matrix P stacked on the local one Q, times the projection weight's slice, plus the bias's. -/
def headPay (O : ℕ) (hs2 : S2048x1024.Slices ![0, O] S2048x256) (hs1 : S1024.Slices ![O] S256)
    (w b : FVec Ideal S1024 .f32) (A B : FVec Ideal S2048x1024 .f32) (P Q : Vec Ideal S1x1x256x256 .f32) : FVec Ideal S1x2048x256 .f32 :=
  shapeCast S1x2048x256
    (addf (mulf (matmul MM (some .fp32)
        (concatenate S2048x512 1 [⟨S2048x256, extractStridedSlice S2048x256 ![0, O] A hs2⟩, ⟨S2048x256, extractStridedSlice S2048x256 ![0, O] B hs2⟩] concatenates_S2048x256_S2048x256_S2048x512_d1 : FVec Ideal S2048x512 .f32)
        (concatenate S512x256 0 [⟨S256x256, (shapeCast S256x256 P shapeCasts_S1x1x256x256_S256x256 : FVec Ideal S256x256 .f32)⟩, ⟨S256x256, (shapeCast S256x256 Q shapeCasts_S1x1x256x256_S256x256 : FVec Ideal S256x256 .f32)⟩] concatenates_S256x256_S256x256_S512x256_d0 : FVec Ideal S512x256 .f32)
        (constant (F := Ideal) S2048x256 .f32 0x00000000#32))
      (broadcastTo S2048x256 (shapeCast S1x256 (extractStridedSlice S256 ![O] w hs1) shapeCasts_S256_S1x256) broadcasts_S1x256_S2048x256))
      (broadcastTo S2048x256 (shapeCast S1x256 (extractStridedSlice S256 ![O] b hs1) shapeCasts_S256_S1x256) broadcasts_S1x256_S2048x256))
    shapeCasts_S2048x256_S1x2048x256

/-- Its value at row n, lane qd. -/
theorem headPay_apply (O : ℕ) (hs2 : S2048x1024.Slices ![0, O] S2048x256) (hs1 : S1024.Slices ![O] S256) (hO : O + 256 ≤ 1024)
    (w b : FVec Ideal S1024 .f32) (A B : FVec Ideal S2048x1024 .f32) (P Q : Vec Ideal S1x1x256x256 .f32) (n : Fin 2048) (qd : Fin 256) :
    headPay O hs2 hs1 w b A B P Q (ix3 (0 : Fin 1) n qd)
      = (∑ j : Fin 512,
            (if hj : j.val < 256 then A (ix2 n ⟨O + j.val, by omega⟩) else B (ix2 n ⟨O + (j.val - 256), by have := j.isLt; omega⟩))
            * (if hj : j.val < 256 then P (ix4 (0 : Fin 1) (0 : Fin 1) ⟨j.val, hj⟩ qd) else Q (ix4 (0 : Fin 1) (0 : Fin 1) ⟨j.val - 256, by have := j.isLt; omega⟩ qd)))
          * w (ix1 ⟨O + qd.val, by have := qd.isLt; omega⟩) + b (ix1 ⟨O + qd.val, by have := qd.isLt; omega⟩) := by
  unfold headPay
  rw [shapeCast_ab_1ab_apply]
  simp only [addf_apply, mulf_apply]
  rw [mm_apply, broadcastTo_1b_ab_apply, shapeCast_a_1a_apply, broadcastTo_1b_ab_apply, shapeCast_a_1a_apply,
    slice1_apply O w hs1 qd ⟨O + qd.val, by have := qd.isLt; omega⟩ rfl, slice1_apply O b hs1 qd ⟨O + qd.val, by have := qd.isLt; omega⟩ rfl]
  congr 2
  refine Finset.sum_congr rfl fun j _ => ?_
  rw [vcat_apply, acat_apply]
  by_cases hj : j.val < 256
  · rw [dif_pos hj, dif_pos hj, dif_pos hj, dif_pos hj, att_cast_apply,
      slice2_axis1_apply O A hs2 n ⟨j.val, hj⟩ ⟨O + j.val, by omega⟩ rfl]
  · rw [dif_neg hj, dif_neg hj, dif_neg hj, dif_neg hj, att_cast_apply,
      slice2_axis1_apply O B hs2 n ⟨j.val - 256, by have := j.isLt; omega⟩ ⟨O + (j.val - 256), by have := j.isLt; omega⟩ rfl]

/-! ## The four stored payloads are that term -/

theorem pay10_eq (w b : FVec Ideal S1024 .f32) (v0 : Vec Ideal S1x2048x1024 .f32) (v2 v4 v6 v8 : Vec Ideal S1x1024 .f32) (P Q : Vec Ideal S1x1x256x256 .f32) :
    k1_pay10 w b (k1_pay8 v0 v2 v4 v6 v8) (k1_pay9 P Q) (constant (F := Ideal) S2048x256 .f32 0x00000000#32)
      = headPay 0 slices_S2048x1024_o0_0_S2048x256 slices_S1024_o0_S256 w b (k1_pay6 v0 v2 v4) (k1_pay7 v0 v6 v8) P Q := rfl
theorem pay11_eq (w b : FVec Ideal S1024 .f32) (A B : FVec Ideal S2048x1024 .f32) (P Q : Vec Ideal S1x1x256x256 .f32) :
    k1_pay11 w b A B P Q = headPay 256 slices_S2048x1024_o0_256_S2048x256 slices_S1024_o256_S256 w b A B P Q := rfl
theorem pay1_eq (w b : FVec Ideal S1024 .f32) (A B : FVec Ideal S2048x1024 .f32) (P Q : Vec Ideal S1x1x256x256 .f32) :
    k1_pay1 w b (k1_pay12 A) (k1_pay13 B) (k1_pay14 P) Q = headPay 512 slices_S2048x1024_o0_512_S2048x256 slices_S1024_o512_S256 w b A B P Q := rfl
theorem pay2_eq (w b : FVec Ideal S1024 .f32) (A B : FVec Ideal S2048x1024 .f32) (P Q : Vec Ideal S1x1x256x256 .f32) :
    k1_pay2 w b A B P Q = headPay 768 slices_S2048x1024_o0_768_S2048x256 slices_S1024_o768_S256 w b A B P Q := rfl

/-! ## The block's value, by coordinates -/

/-- Row n of the 512-wide left factor for head h, over the blocks: the global affine image on the head's channels,
    then the local one. -/
def vcatB (x0 : Vec Ideal S1x2048x1024 .f32) (x1 x2 x3 x4 : Vec Ideal S1x1024 .f32) (n : Fin 2048) (h : Fin 4) (j : Fin 512) : EReal :=
  if hj : j.val < 256 then
    x0 (ix3 (0 : Fin 1) n (chan h ⟨j.val, hj⟩)) * x1 (ix2 (0 : Fin 1) (chan h ⟨j.val, hj⟩)) + x2 (ix2 (0 : Fin 1) (chan h ⟨j.val, hj⟩))
  else
    x0 (ix3 (0 : Fin 1) n (chan h ⟨j.val - 256, by have := j.isLt; omega⟩)) * x3 (ix2 (0 : Fin 1) (chan h ⟨j.val - 256, by have := j.isLt; omega⟩))
      + x4 (ix2 (0 : Fin 1) (chan h ⟨j.val - 256, by have := j.isLt; omega⟩))

/-- Column qd of the 512-tall right factor for head h, over the blocks: the head's transposed global attention matrix,
    then the local one. -/
def acatB (x7 x8 : Vec Ideal S1x4x256x256 .f32) (h : Fin 4) (j : Fin 512) (qd : Fin 256) : EReal :=
  if hj : j.val < 256 then x7 (ix4 (0 : Fin 1) h ⟨j.val, hj⟩ qd) else x8 (ix4 (0 : Fin 1) h ⟨j.val - 256, by have := j.isLt; omega⟩ qd)

/-- The stored value at row n, lane qd of head h. -/
def headVal (x0 : Vec Ideal S1x2048x1024 .f32) (x1 x2 x3 x4 x5 x6 : Vec Ideal S1x1024 .f32) (x7 x8 : Vec Ideal S1x4x256x256 .f32) (n : Fin 2048) (h : Fin 4) (qd : Fin 256) : EReal :=
  (∑ j : Fin 512, vcatB x0 x1 x2 x3 x4 n h j * acatB x7 x8 h j qd) * x5 (ix2 (0 : Fin 1) (chan h qd)) + x6 (ix2 (0 : Fin 1) (chan h qd))

/-- The whole output block as one function of its index. -/
def blockG (x0 : Vec Ideal S1x2048x1024 .f32) (x1 x2 x3 x4 x5 x6 : Vec Ideal S1x1024 .f32) (x7 x8 : Vec Ideal S1x4x256x256 .f32) : S1x2048x1024.Idx → EReal :=
  fun y => headVal x0 x1 x2 x3 x4 x5 x6 x7 x8 (y 1) (head (y 2)) (lane (y 2))

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

/-- A load of head H's matrix of an attention block, at (kd, qd). -/
theorem ld_att (H : Fin 4) (inbA : ∀ a, (![0, H.val, 0, 0] : Fin 4 → ℕ) a + S1x1x256x256.size a ≤ S1x4x256x256.size a)
    (x : Vec Ideal S1x4x256x256 .f32) (kd qd : Fin 256) :
    View.ld x (Rect.unit (s := S1x4x256x256) ![0, H.val, 0, 0] S1x1x256x256.size inbA) (ix4 (0 : Fin 1) (0 : Fin 1) kd qd) = x (ix4 (0 : Fin 1) H kd qd) :=
  congrArg x (funext fun a => Fin.ext (by
    match a with
    | ⟨0, _⟩ => show 0 + 1 * 0 = 0; rfl
    | ⟨1, _⟩ => show H.val + 1 * 0 = H.val; omega
    | ⟨2, _⟩ => show 0 + 1 * kd.val = kd.val; omega
    | ⟨3, _⟩ => show 0 + 1 * qd.val = qd.val; omega))

/-- Head H's payload over the loaded blocks, at row n, lane qd. -/
theorem head_value (H : Fin 4) (O : ℕ) (hO : O = H.val * 256) (hs2 : S2048x1024.Slices ![0, O] S2048x256) (hs1 : S1024.Slices ![O] S256)
    (inbA : ∀ a, (![0, H.val, 0, 0] : Fin 4 → ℕ) a + S1x1x256x256.size a ≤ S1x4x256x256.size a)
    (x0 : Vec Ideal S1x2048x1024 .f32) (x1 x2 x3 x4 x5 x6 : Vec Ideal S1x1024 .f32) (x7 x8 : Vec Ideal S1x4x256x256 .f32) (n : Fin 2048) (qd : Fin 256) :
    headPay O hs2 hs1 (k1_pay4 (View.ld x5 r1_row)) (k1_pay5 (View.ld x6 r1_row))
        (k1_pay6 (View.ld x0 r1_v) (View.ld x1 r1_row) (View.ld x2 r1_row)) (k1_pay7 (View.ld x0 r1_v) (View.ld x3 r1_row) (View.ld x4 r1_row))
        (View.ld x7 (Rect.unit (s := S1x4x256x256) ![0, H.val, 0, 0] S1x1x256x256.size inbA)) (View.ld x8 (Rect.unit (s := S1x4x256x256) ![0, H.val, 0, 0] S1x1x256x256.size inbA)) (ix3 (0 : Fin 1) n qd)
      = headVal x0 x1 x2 x3 x4 x5 x6 x7 x8 n H qd := by
  subst hO
  have hH := H.isLt
  rw [headPay_apply (H.val * 256) hs2 hs1 (by omega)]
  unfold headVal
  have e0 : View.ld x0 r1_v = x0 := View.ld_unit_zero (S := S1x2048x1024) hz3 _ x0
  have e1 : View.ld x1 r1_row = x1 := View.ld_unit_zero (S := S1x1024) hz2 _ x1
  have e2 : View.ld x2 r1_row = x2 := View.ld_unit_zero (S := S1x1024) hz2 _ x2
  have e3 : View.ld x3 r1_row = x3 := View.ld_unit_zero (S := S1x1024) hz2 _ x3
  have e4 : View.ld x4 r1_row = x4 := View.ld_unit_zero (S := S1x1024) hz2 _ x4
  have e5 : View.ld x5 r1_row = x5 := View.ld_unit_zero (S := S1x1024) hz2 _ x5
  have e6 : View.ld x6 r1_row = x6 := View.ld_unit_zero (S := S1x1024) hz2 _ x6
  rw [e0, e1, e2, e3, e4, e5, e6]
  have hw : k1_pay4 (F := Ideal) x5 (ix1 (⟨H.val * 256 + qd.val, by have := qd.isLt; omega⟩ : Fin 1024)) = x5 (ix2 (0 : Fin 1) (chan H qd)) := by
    unfold k1_pay4; exact shapeCast_1a_a_apply _ _ _
  have hb : k1_pay5 (F := Ideal) x6 (ix1 (⟨H.val * 256 + qd.val, by have := qd.isLt; omega⟩ : Fin 1024)) = x6 (ix2 (0 : Fin 1) (chan H qd)) := by
    unfold k1_pay5; exact shapeCast_1a_a_apply _ _ _
  rw [hw, hb]
  congr 2
  refine Finset.sum_congr rfl fun j _ => ?_
  unfold vcatB acatB
  by_cases hj : j.val < 256
  · rw [dif_pos hj, dif_pos hj, dif_pos hj, dif_pos hj, pay6_apply, ld_att]
    rfl
  · rw [dif_neg hj, dif_neg hj, dif_neg hj, dif_neg hj, pay7_apply, ld_att]
    rfl

/-- Head H's stored slice is the block function on the slice's rectangle. -/
theorem piece_value (H : Fin 4) (O : ℕ) (hO : O = H.val * 256) (hs2 : S2048x1024.Slices ![0, O] S2048x256) (hs1 : S1024.Slices ![O] S256)
    (inbA : ∀ a, (![0, H.val, 0, 0] : Fin 4 → ℕ) a + S1x1x256x256.size a ≤ S1x4x256x256.size a)
    (inbO : ∀ a, (![0, 0, O] : Fin 3 → ℕ) a + S1x2048x256.size a ≤ S1x2048x1024.size a)
    (x0 : Vec Ideal S1x2048x1024 .f32) (x1 x2 x3 x4 x5 x6 : Vec Ideal S1x1024 .f32) (x7 x8 : Vec Ideal S1x4x256x256 .f32) (x : (Rect.unit (s := S1x2048x1024) ![0, 0, O] S1x2048x256.size inbO).shape.Idx) :
    headPay O hs2 hs1 (k1_pay4 (View.ld x5 r1_row)) (k1_pay5 (View.ld x6 r1_row))
        (k1_pay6 (View.ld x0 r1_v) (View.ld x1 r1_row) (View.ld x2 r1_row)) (k1_pay7 (View.ld x0 r1_v) (View.ld x3 r1_row) (View.ld x4 r1_row))
        (View.ld x7 (Rect.unit (s := S1x4x256x256) ![0, H.val, 0, 0] S1x1x256x256.size inbA)) (View.ld x8 (Rect.unit (s := S1x4x256x256) ![0, H.val, 0, 0] S1x1x256x256.size inbA)) x
      = blockG x0 x1 x2 x3 x4 x5 x6 x7 x8 ((Rect.unit (s := S1x2048x1024) ![0, 0, O] S1x2048x256.size inbO).emb x) := by
  obtain ⟨u, n, qd, rfl⟩ : ∃ (u : Fin 1) (n : Fin 2048) (qd : Fin 256), x = ix3 u n qd := ⟨x 0, x 1, x 2, eq_ix3 x⟩
  obtain rfl : u = 0 := Subsingleton.elim _ _
  have hemb : (Rect.unit (s := S1x2048x1024) ![0, 0, O] S1x2048x256.size inbO).emb (ix3 (0 : Fin 1) n qd) = ix3 (0 : Fin 1) n (chan H qd) := funext fun a => Fin.ext (by
    match a with
    | ⟨0, _⟩ => show 0 + 1 * 0 = 0; rfl
    | ⟨1, _⟩ => show 0 + 1 * n.val = n.val; omega
    | ⟨2, _⟩ => show O + 1 * qd.val = H.val * 256 + qd.val; omega)
  rw [hemb]
  show _ = headVal x0 x1 x2 x3 x4 x5 x6 x7 x8 n (head (chan H qd)) (lane (chan H qd))
  rw [head_chan, lane_chan]
  exact head_value H O hO hs2 hs1 inbA x0 x1 x2 x3 x4 x5 x6 x7 x8 n qd

/-- THE BLOCK: what the body leaves in the output window's buffer is `blockG` of the nine input blocks. -/
theorem out1_9_eq (x0 : Vec Ideal S1x2048x1024 .f32) (x1 x2 x3 x4 x5 x6 : Vec Ideal S1x1024 .f32) (x7 x8 : Vec Ideal S1x4x256x256 .f32) : out1_9 x0 x1 x2 x3 x4 x5 x6 x7 x8 = blockG x0 x1 x2 x3 x4 x5 x6 x7 x8 := by
  funext y
  unfold out1_9
  refine View.canon_apply_of_pieces (blockG x0 x1 x2 x3 x4 x5 x6 x7 x8) (pieces1_9 x0 x1 x2 x3 x4 x5 x6 x7 x8) ?_ y (cover1_9 x0 x1 x2 x3 x4 x5 x6 x7 x8 y)
  intro p hp x
  unfold pieces1_9 at hp
  simp only [List.mem_cons, List.not_mem_nil, or_false] at hp
  rcases hp with rfl | rfl | rfl | rfl
  · exact (congrFun (pay2_eq _ _ _ _ _ _) x).trans
      (piece_value 3 768 rfl slices_S2048x1024_o0_768_S2048x256 slices_S1024_o768_S256 inb_S1x4x256x256_S1x1x256x256_0_3_0_0 inb_S1x2048x1024_S1x2048x256_0_0_768 x0 x1 x2 x3 x4 x5 x6 x7 x8 x)
  · exact (congrFun (pay1_eq _ _ _ _ _ _) x).trans
      (piece_value 2 512 rfl slices_S2048x1024_o0_512_S2048x256 slices_S1024_o512_S256 inb_S1x4x256x256_S1x1x256x256_0_2_0_0 inb_S1x2048x1024_S1x2048x256_0_0_512 x0 x1 x2 x3 x4 x5 x6 x7 x8 x)
  · exact (congrFun (pay11_eq _ _ _ _ _ _) x).trans
      (piece_value 1 256 rfl slices_S2048x1024_o0_256_S2048x256 slices_S1024_o256_S256 inb_S1x4x256x256_S1x1x256x256_0_1_0_0 inb_S1x2048x1024_S1x2048x256_0_0_256 x0 x1 x2 x3 x4 x5 x6 x7 x8 x)
  · exact (congrFun (pay10_eq _ _ _ _ _ _ _ _ _) x).trans
      (piece_value 0 0 rfl slices_S2048x1024_o0_0_S2048x256 slices_S1024_o0_S256 inb_S1x4x256x256_S1x1x256x256_0_0_0_0 inb_S1x2048x1024_S1x2048x256_0_0_0 x0 x1 x2 x3 x4 x5 x6 x7 x8 x)

/-- The block at row n, lane qd of head h. -/
theorem out1_9_apply (x0 : Vec Ideal S1x2048x1024 .f32) (x1 x2 x3 x4 x5 x6 : Vec Ideal S1x1024 .f32) (x7 x8 : Vec Ideal S1x4x256x256 .f32) (n : Fin 2048) (h : Fin 4) (qd : Fin 256) :
    out1_9 x0 x1 x2 x3 x4 x5 x6 x7 x8 (ix3 (0 : Fin 1) n (chan h qd)) = headVal x0 x1 x2 x3 x4 x5 x6 x7 x8 n h qd := by
  rw [out1_9_eq]
  show headVal x0 x1 x2 x3 x4 x5 x6 x7 x8 n (head (chan h qd)) (lane (chan h qd)) = _
  rw [head_chan, lane_chan]

end Cert.KernelIdeal.HandValue

end
-- ==== Proof.KIRegion1Final.lean ====
/- Region 1 of the idealized kernel program, from its blocks to the whole array. The grid has 16 points; point t works
   on batch t / 2 and on the half t % 2 of that batch's 4096 positions: the value window and the output window hold
   block (t / 2, t % 2, 0) of extents [1, 2048, 1024], the six row windows their one block, the two attention windows
   block (t / 2, 0, 0, 0) of extents [1, 4, 256, 256]. Every point writes its output block back, and the 16 blocks tile
   the [8, 4096, 1024] array; so the array ends holding, at (bb, n, ch) with ch = h · 256 + qd,

     (∑ j < 512, vcat(bb, n, h, j) · acat(bb, h, j, qd)) · wp(ch) + bp(ch)

   over the arrays as the region finds them. -/
import proofs.«175229_j12481174962662_2_alg».proof.Proof.KIRegion1Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.Spec (chan head lane chan_val head_val lane_val head_chan lane_chan chan_head_lane)

section Regions
-- the TensorCore's buffer contents when the region is entered
variable (V : (c : Dev nD) → (b : Ref sig .tc) → Buf (Elt Ideal) ((c : Thread nD τ).loc b))

/-- The arrays as the region finds them, at their literal index and element types: the value array, the six rows
    (global weight, global bias, local weight, local bias, projection weight, projection bias), the two transposed
    attention arrays (global, local). -/
abbrev aX (c : Dev nD) : S8x4096x1024.Idx → EReal := V c (Pipeline.arrRef spec1 0)
abbrev aR1 (c : Dev nD) : S1x1024.Idx → EReal := V c (Pipeline.arrRef spec1 1)
abbrev aR2 (c : Dev nD) : S1x1024.Idx → EReal := V c (Pipeline.arrRef spec1 2)
abbrev aR3 (c : Dev nD) : S1x1024.Idx → EReal := V c (Pipeline.arrRef spec1 3)
abbrev aR4 (c : Dev nD) : S1x1024.Idx → EReal := V c (Pipeline.arrRef spec1 4)
abbrev aR5 (c : Dev nD) : S1x1024.Idx → EReal := V c (Pipeline.arrRef spec1 5)
abbrev aR6 (c : Dev nD) : S1x1024.Idx → EReal := V c (Pipeline.arrRef spec1 6)
abbrev aG (c : Dev nD) : S8x4x256x256.Idx → EReal := V c (Pipeline.arrRef spec1 7)
abbrev aL (c : Dev nD) : S8x4x256x256.Idx → EReal := V c (Pipeline.arrRef spec1 8)

/-! ## The array's value, by coordinates -/

/-- Entry j of the 512-wide row of batch bb, position n, head h: the global affine image of the value array on the
    head's channels, then the local one. -/
def vcat1 (c : Dev nD) (bb : Fin 8) (n : Fin 4096) (h : Fin 4) (j : Fin 512) : EReal :=
  if hj : j.val < 256 then
    aX V c (ix3 bb n (chan h ⟨j.val, hj⟩)) * aR1 V c (ix2 (0 : Fin 1) (chan h ⟨j.val, hj⟩)) + aR2 V c (ix2 (0 : Fin 1) (chan h ⟨j.val, hj⟩))
  else
    aX V c (ix3 bb n (chan h ⟨j.val - 256, by have := j.isLt; omega⟩)) * aR3 V c (ix2 (0 : Fin 1) (chan h ⟨j.val - 256, by have := j.isLt; omega⟩))
      + aR4 V c (ix2 (0 : Fin 1) (chan h ⟨j.val - 256, by have := j.isLt; omega⟩))

/-- Entry j of the 512-tall column of batch bb, head h, lane qd: the transposed global attention array, then the local. -/
def acat1 (c : Dev nD) (bb : Fin 8) (h : Fin 4) (j : Fin 512) (qd : Fin 256) : EReal :=
  if hj : j.val < 256 then aG V c (ix4 bb h ⟨j.val, hj⟩ qd) else aL V c (ix4 bb h ⟨j.val - 256, by have := j.isLt; omega⟩ qd)

/-- What the output array ends holding, as one function of its index. -/
def KG1 (c : Dev nD) : S8x4096x1024.Idx → EReal := fun i =>
  (∑ j : Fin 512, vcat1 V c (i 0) (i 1) (head (i 2)) j * acat1 V c (i 0) (head (i 2)) j (lane (i 2)))
    * aR5 V c (ix2 (0 : Fin 1) (i 2)) + aR6 V c (ix2 (0 : Fin 1) (i 2))

/-! ## The grid -/

theorem tlt (t : Fin cfg1.N) : t.val < 16 := lt_of_lt_of_eq t.isLt N_1

/-- The batch point t works on, -/
def bOf (t : Fin cfg1.N) : Fin 8 := ⟨t.val / 2, by have := tlt t; omega⟩
/-- and the position, in the array, of row n of its block. -/
def nOf (t : Fin cfg1.N) (n : Fin 2048) : Fin 4096 := ⟨t.val % 2 * 2048 + n.val, by have := n.isLt; omega⟩

/-- The printed index maps, decided over the grid. -/
theorem idx_facts1 : ∀ t : Fin cfg1.N, win1_0.index t (0 : Fin 3) = t.val / 2
    ∧ win1_0.index t (1 : Fin 3) = t.val % 2
    ∧ win1_0.index t (2 : Fin 3) = 0
    ∧ win1_9.index t (0 : Fin 3) = t.val / 2
    ∧ win1_9.index t (1 : Fin 3) = t.val % 2
    ∧ win1_9.index t (2 : Fin 3) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 4) = t.val / 2
    ∧ win1_7.index t (1 : Fin 4) = 0
    ∧ win1_7.index t (2 : Fin 4) = 0
    ∧ win1_7.index t (3 : Fin 4) = 0
    ∧ win1_8.index t (0 : Fin 4) = t.val / 2
    ∧ win1_8.index t (1 : Fin 4) = 0
    ∧ win1_8.index t (2 : Fin 4) = 0
    ∧ win1_8.index t (3 : Fin 4) = 0 :=
  (by decide +kernel : ∀ t : Fin grid1.N, _)

/-! ## Each input block read where the array has it -/

theorem blk0_read (c : Dev nD) (t : Fin cfg1.N) (n : Fin 2048) (ch : Fin 1024) :
    iblk1 V c 0 t (ix3 (0 : Fin 1) n ch) = aX V c (ix3 (bOf t) (nOf t n) ch) := by
  show aX V c (((cfg1.win 0).blk t).view.emb (ix3 (0 : Fin 1) n ch)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_0.index t (0 : Fin 3) * 1 + 1 * 0 = t.val / 2; omega
  | ⟨1, _⟩ => show win1_0.index t (1 : Fin 3) * 2048 + 1 * n.val = t.val % 2 * 2048 + n.val; omega
  | ⟨2, _⟩ => show win1_0.index t (2 : Fin 3) * 1024 + 1 * ch.val = ch.val; omega
theorem blk1_read (c : Dev nD) (t : Fin cfg1.N) (ch : Fin 1024) :
    iblk1 V c 1 t (ix2 (0 : Fin 1) ch) = aR1 V c (ix2 (0 : Fin 1) ch) := by
  show aR1 V c (((cfg1.win 1).blk t).view.emb (ix2 (0 : Fin 1) ch)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_1.index t (0 : Fin 2) * 1 + 1 * 0 = 0; omega
  | ⟨1, _⟩ => show win1_1.index t (1 : Fin 2) * 1024 + 1 * ch.val = ch.val; omega
theorem blk2_read (c : Dev nD) (t : Fin cfg1.N) (ch : Fin 1024) :
    iblk1 V c 2 t (ix2 (0 : Fin 1) ch) = aR2 V c (ix2 (0 : Fin 1) ch) := by
  show aR2 V c (((cfg1.win 2).blk t).view.emb (ix2 (0 : Fin 1) ch)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * ch.val = ch.val; omega
theorem blk3_read (c : Dev nD) (t : Fin cfg1.N) (ch : Fin 1024) :
    iblk1 V c 3 t (ix2 (0 : Fin 1) ch) = aR3 V c (ix2 (0 : Fin 1) ch) := by
  show aR3 V c (((cfg1.win 3).blk t).view.emb (ix2 (0 : Fin 1) ch)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_3.index t (0 : Fin 2) * 1 + 1 * 0 = 0; omega
  | ⟨1, _⟩ => show win1_3.index t (1 : Fin 2) * 1024 + 1 * ch.val = ch.val; omega
theorem blk4_read (c : Dev nD) (t : Fin cfg1.N) (ch : Fin 1024) :
    iblk1 V c 4 t (ix2 (0 : Fin 1) ch) = aR4 V c (ix2 (0 : Fin 1) ch) := by
  show aR4 V c (((cfg1.win 4).blk t).view.emb (ix2 (0 : Fin 1) ch)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_4.index t (0 : Fin 2) * 1 + 1 * 0 = 0; omega
  | ⟨1, _⟩ => show win1_4.index t (1 : Fin 2) * 1024 + 1 * ch.val = ch.val; omega
theorem blk5_read (c : Dev nD) (t : Fin cfg1.N) (ch : Fin 1024) :
    iblk1 V c 5 t (ix2 (0 : Fin 1) ch) = aR5 V c (ix2 (0 : Fin 1) ch) := by
  show aR5 V c (((cfg1.win 5).blk t).view.emb (ix2 (0 : Fin 1) ch)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_5.index t (0 : Fin 2) * 1 + 1 * 0 = 0; omega
  | ⟨1, _⟩ => show win1_5.index t (1 : Fin 2) * 1024 + 1 * ch.val = ch.val; omega
theorem blk6_read (c : Dev nD) (t : Fin cfg1.N) (ch : Fin 1024) :
    iblk1 V c 6 t (ix2 (0 : Fin 1) ch) = aR6 V c (ix2 (0 : Fin 1) ch) := by
  show aR6 V c (((cfg1.win 6).blk t).view.emb (ix2 (0 : Fin 1) ch)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_6.index t (0 : Fin 2) * 1 + 1 * 0 = 0; omega
  | ⟨1, _⟩ => show win1_6.index t (1 : Fin 2) * 1024 + 1 * ch.val = ch.val; omega
theorem blk7_read (c : Dev nD) (t : Fin cfg1.N) (h : Fin 4) (kd qd : Fin 256) :
    iblk1 V c 7 t (ix4 (0 : Fin 1) h kd qd) = aG V c (ix4 (bOf t) h kd qd) := by
  show aG V c (((cfg1.win 7).blk t).view.emb (ix4 (0 : Fin 1) h kd qd)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_7.index t (0 : Fin 4) * 1 + 1 * 0 = t.val / 2; omega
  | ⟨1, _⟩ => show win1_7.index t (1 : Fin 4) * 4 + 1 * h.val = h.val; omega
  | ⟨2, _⟩ => show win1_7.index t (2 : Fin 4) * 256 + 1 * kd.val = kd.val; omega
  | ⟨3, _⟩ => show win1_7.index t (3 : Fin 4) * 256 + 1 * qd.val = qd.val; omega
theorem blk8_read (c : Dev nD) (t : Fin cfg1.N) (h : Fin 4) (kd qd : Fin 256) :
    iblk1 V c 8 t (ix4 (0 : Fin 1) h kd qd) = aL V c (ix4 (bOf t) h kd qd) := by
  show aL V c (((cfg1.win 8).blk t).view.emb (ix4 (0 : Fin 1) h kd qd)) = _
  obtain ⟨f0, f1, f2, f3, f4, f5, f6, f7, f8, f9, f10, f11, f12, f13, f14, f15, f16, f17, f18, f19, f20, f21, f22, f23, f24, f25⟩ := idx_facts1 t
  refine congrArg _ (funext fun a => Fin.ext ?_)
  match a with
  | ⟨0, _⟩ => show win1_8.index t (0 : Fin 4) * 1 + 1 * 0 = t.val / 2; omega
  | ⟨1, _⟩ => show win1_8.index t (1 : Fin 4) * 4 + 1 * h.val = h.val; omega
  | ⟨2, _⟩ => show win1_8.index t (2 : Fin 4) * 256 + 1 * kd.val = kd.val; omega
  | ⟨3, _⟩ => show win1_8.index t (3 : Fin 4) * 256 + 1 * qd.val = qd.val; omega

/-! ## What a point writes back -/

/-- Point t writes back block t of `KG1`: the body leaves `blockG` of the nine input blocks, each input block is
    the array's entries at block index × block size + the coordinate inside the block, and the output block sits at
    the same batch and positions. -/
theorem flushed_eq1 (c : Dev nD) (t : Fin cfg1.N) :
    (dat1 V c).flushed 9 t = ((cfg1.win 9).blk t).view.read (Elt Ideal) (KG1 V c) := by
  show (cfg1.win 9).cut (grid1.coords t) ((dat1 V c).after 9 t) = _
  rw [after1_9, out1_9_eq]
  obtain ⟨f0, f1, f2, f3, f4, f5, f6, f7, f8, f9, f10, f11, f12, f13, f14, f15, f16, f17, f18, f19, f20, f21, f22, f23, f24, f25⟩ := idx_facts1 t
  funext y
  obtain ⟨u, n, ch, rfl⟩ : ∃ (u : Fin 1) (n : Fin 2048) (ch : Fin 1024), y = ix3 u n ch := ⟨y 0, y 1, y 2, eq_ix3 y⟩
  obtain rfl : u = 0 := Subsingleton.elim _ _
  have hi : ((cfg1.win 9).blk t).view.emb (ix3 (0 : Fin 1) n ch) = ix3 (bOf t) (nOf t n) ch := funext fun a => Fin.ext (by
    match a with
    | ⟨0, _⟩ => show win1_9.index t (0 : Fin 3) * 1 + 1 * 0 = t.val / 2; omega
    | ⟨1, _⟩ => show win1_9.index t (1 : Fin 3) * 2048 + 1 * n.val = t.val % 2 * 2048 + n.val; omega
    | ⟨2, _⟩ => show win1_9.index t (2 : Fin 3) * 1024 + 1 * ch.val = ch.val; omega)
  show blockG (iblk1 V c 0 t) (iblk1 V c 1 t) (iblk1 V c 2 t) (iblk1 V c 3 t) (iblk1 V c 4 t) (iblk1 V c 5 t) (iblk1 V c 6 t) (iblk1 V c 7 t) (iblk1 V c 8 t) (ix3 (0 : Fin 1) n ch) = KG1 V c (((cfg1.win 9).blk t).view.emb (ix3 (0 : Fin 1) n ch))
  rw [hi]
  show headVal (iblk1 V c 0 t) (iblk1 V c 1 t) (iblk1 V c 2 t) (iblk1 V c 3 t) (iblk1 V c 4 t) (iblk1 V c 5 t) (iblk1 V c 6 t) (iblk1 V c 7 t) (iblk1 V c 8 t) n (head ch) (lane ch)
    = (∑ j : Fin 512, vcat1 V c (bOf t) (nOf t n) (head ch) j * acat1 V c (bOf t) (head ch) j (lane ch))
        * aR5 V c (ix2 (0 : Fin 1) ch) + aR6 V c (ix2 (0 : Fin 1) ch)
  unfold headVal
  rw [chan_head_lane, blk5_read, blk6_read]
  congr 2
  refine Finset.sum_congr rfl fun j _ => ?_
  unfold vcatB acatB vcat1 acat1
  by_cases hj : j.val < 256
  · rw [dif_pos hj, dif_pos hj, dif_pos hj, dif_pos hj, blk0_read, blk1_read, blk2_read, blk7_read]
  · rw [dif_neg hj, dif_neg hj, dif_neg hj, dif_neg hj, blk0_read, blk3_read, blk4_read, blk8_read]

/-! ## The blocks tile the array -/

/-- An index of the array is in point t's block iff each coordinate is in the block's range on its axis. -/
theorem mem_blk1 (t : Fin cfg1.N) (i : S8x4096x1024.Idx) :
    i ∈ ((cfg1.win 9).blk t).view.set ↔ ∀ a : Fin 3, win1_9.index t a * S1x2048x1024.size a ≤ (i a).val ∧ (i a).val < win1_9.index t a * S1x2048x1024.size a + S1x2048x1024.size a := by
  show i ∈ ((View.whole main_v15).slice (win1_9.rect t)).set ↔ _
  rw [View.set_slice_whole, Rect.mem_set_unit]
  exact Iff.rfl

/-- Every index (bb, n, ch) of the array is in the block of point 2 · bb + n / 2048, and every point writes back. -/
theorem cover1 (i : S8x4096x1024.Idx) : ∃ t : Fin cfg1.N, (cfg1.win 9).flush t = true ∧ i ∈ ((cfg1.win 9).blk t).view.set := by
  have hi0 : (i 0).val < 8 := (i 0).isLt
  have hi1 : (i 1).val < 4096 := (i 1).isLt
  have hi2 : (i 2).val < 1024 := (i 2).isLt
  have hlt : 2 * (i 0).val + (i 1).val / 2048 < 16 := by omega
  obtain ⟨t, htv⟩ : ∃ t : Fin cfg1.N, t.val = 2 * (i 0).val + (i 1).val / 2048 := ⟨⟨_, lt_of_lt_of_eq hlt N_1.symm⟩, rfl⟩
  obtain ⟨f0, f1, f2, f3, f4, f5, f6, f7, f8, f9, f10, f11, f12, f13, f14, f15, f16, f17, f18, f19, f20, f21, f22, f23, f24, f25⟩ := idx_facts1 t
  refine ⟨t, flush1_9 t, ?_⟩
  rw [mem_blk1]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 2048 ≤ (i 1).val ∧ (i 1).val < win1_9.index t (1 : Fin 3) * 2048 + 2048; omega
  | ⟨2, _⟩ => show win1_9.index t (2 : Fin 3) * 1024 ≤ (i 2).val ∧ (i 2).val < win1_9.index t (2 : Fin 3) * 1024 + 1024; omega

/-! ## The array after the region -/

/-- THE ARRAY: after the last point the output array holds `KG1` of the arrays as the region found them. -/
theorem final1 (c : Dev nD) : (dat1 V c).arrAt 9 cfg1.N = KG1 V c :=
  (dat1 V c).arrAt_eq_of_cover 9 (KG1 V c) (fun t _ => flushed_eq1 V c t) (cover1)

end Regions

end Cert.KernelIdeal.HandValue

end
-- ==== Proof.KIRegion1Glue.lean ====
/- Region 1 of the idealized kernel program meets the kernel's normal form. Given what the arrays the region finds
   ARE — the value array v; the six rows the per-channel weights and biases wv_g, bv_g, wv_l, bv_l, wp, bp; the two
   transposed attention arrays the global and the local branch's softmax weights, entry (bb, h, kd, qd) the weight of
   query lane qd against key lane kd —, the array the region leaves is the normal form's, index by index: the same
   sum over the 512 stacked terms, factor by factor, then · wp + bp. Pure rewriting; no algebra. -/
import proofs.«175229_j12481174962662_2_alg».proof.Proof.KIRegion1Final
import proofs.«175229_j12481174962662_2_alg».proof.Proof.KSpec

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Cert.Spec (chan head lane chan_val head_val lane_val head_chan lane_chan chan_head_lane)

section Regions
-- the TensorCore's buffer contents when the region is entered
variable (V : (c : Dev nD) → (b : Ref sig .tc) → Buf (Elt Ideal) ((c : Thread nD τ).loc b))

/-- The array region 1 leaves is the kernel's normal form of the seventeen arguments, once the arrays it finds are
    known to be the value array, the six weight and bias rows, and the two branches' transposed softmax weights. -/
theorem KG1_eq_KG (c : Dev nD) (q k v : Cert.Spec.SX.Idx → EReal)
    (wq_g bq_g wk_g bk_g wv_g bv_g wq_l bq_l wk_l bk_l wv_l bv_l wp bp : Cert.Spec.SW.Idx → EReal)
    (hX : aX V c = v)
    (hR1 : ∀ ch : Fin 1024, aR1 V c (ix2 (0 : Fin 1) ch) = wv_g (ix1 ch)) (hR2 : ∀ ch : Fin 1024, aR2 V c (ix2 (0 : Fin 1) ch) = bv_g (ix1 ch))
    (hR3 : ∀ ch : Fin 1024, aR3 V c (ix2 (0 : Fin 1) ch) = wv_l (ix1 ch)) (hR4 : ∀ ch : Fin 1024, aR4 V c (ix2 (0 : Fin 1) ch) = bv_l (ix1 ch))
    (hR5 : ∀ ch : Fin 1024, aR5 V c (ix2 (0 : Fin 1) ch) = wp (ix1 ch)) (hR6 : ∀ ch : Fin 1024, aR6 V c (ix2 (0 : Fin 1) ch) = bp (ix1 ch))
    (hG : ∀ (bb : Fin 8) (h : Fin 4) (kd qd : Fin 256), aG V c (ix4 bb h kd qd) = Cert.KSpec.katt q k wq_g bq_g wk_g bk_g bb h qd kd)
    (hL : ∀ (bb : Fin 8) (h : Fin 4) (kd qd : Fin 256), aL V c (ix4 bb h kd qd) = Cert.KSpec.katt q k wq_l bq_l wk_l bk_l bb h qd kd) :
    KG1 V c = Cert.KSpec.KG q k v wq_g bq_g wk_g bk_g wv_g bv_g wq_l bq_l wk_l bk_l wv_l bv_l wp bp := by
  funext i
  obtain ⟨bb, n, ch, rfl⟩ : ∃ (bb : Fin 8) (n : Fin 4096) (ch : Fin 1024), i = ix3 bb n ch := ⟨i 0, i 1, i 2, eq_ix3 i⟩
  rw [Cert.KSpec.KG_ix3]
  show (∑ j : Fin 512, vcat1 V c bb n (head ch) j * acat1 V c bb (head ch) j (lane ch)) * aR5 V c (ix2 (0 : Fin 1) ch)
      + aR6 V c (ix2 (0 : Fin 1) ch) = _
  unfold Cert.KSpec.kout
  rw [hR5, hR6, chan_head_lane]
  refine congrArg₂ (· + ·) (congrArg₂ (· * ·) (Finset.sum_congr rfl fun j _ => ?_) rfl) rfl
  unfold vcat1 acat1 Cert.KSpec.vcat Cert.KSpec.acat Cert.Spec.aff
  by_cases hj : j.val < 256
  · rw [dif_pos hj, dif_pos hj, dif_pos hj, dif_pos hj, hX, hR1, hR2, hG]
  · rw [dif_neg hj, dif_neg hj, dif_neg hj, dif_neg hj, hX, hR3, hR4, hL]

end Regions

end Cert.KernelIdeal.HandValue

end
-- ==== Proof.KIValue.lean ====
import proofs.«175229_j12481174962662_2_alg».proof.Proof.KIFrame
import proofs.«175229_j12481174962662_2_alg».proof.Proof.KIEntry
import proofs.«175229_j12481174962662_2_alg».proof.Proof.KIRegion0Final
import proofs.«175229_j12481174962662_2_alg».proof.Proof.KIRegion1Final
import proofs.«175229_j12481174962662_2_alg».proof.Proof.KIRegion1Glue
import proofs.«175229_j12481174962662_2_alg».proof.Proof.KSpec

set_option maxRecDepth 16384

noncomputable section

namespace Cert.KernelIdeal.HandValue

open Cert.KernelIdeal Cert.KernelIdeal.Gen Cert.KernelIdeal.Hand
open Idealize.ShloMosaic.ValueIdx
open Cert.Spec Cert.KSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel's result array is the specification's function of the argument arrays

The output region's result array is its own normal form of what it finds in its arrays; the value array and the six
weight rows it finds are the launch arrays (a row reshaped to [1, 1024]); the two attention arrays it finds are what the
score region's write-backs left: the transposed softmax of the scaled scores accumulated over the two token tiles, of
the launch query and key arrays and weight rows. That normal form is the specification's function by re-grouping. -/

variable (m : (ℓ : Loc nD τ sig) → Buf (Elt Ideal) ℓ) (ρ : Dev nD → PrngReg)

/-- The score region's weight row 2, read as a [1024] array, is argument 3. -/
theorem rowOf_entry0_2 (c : Dev nD) : rowOf (VA1 m ρ c (Pipeline.arrRef spec0 2)) = (m ((c.tc : Thread nD τ).loc main_arg3)) :=
  funext fun j => (entry0_row2 m ρ c (j 0)).trans (congrArg _ (eq_ix1 j).symm)
/-- The score region's weight row 3, read as a [1024] array, is argument 4. -/
theorem rowOf_entry0_3 (c : Dev nD) : rowOf (VA1 m ρ c (Pipeline.arrRef spec0 3)) = (m ((c.tc : Thread nD τ).loc main_arg4)) :=
  funext fun j => (entry0_row3 m ρ c (j 0)).trans (congrArg _ (eq_ix1 j).symm)
/-- The score region's weight row 4, read as a [1024] array, is argument 5. -/
theorem rowOf_entry0_4 (c : Dev nD) : rowOf (VA1 m ρ c (Pipeline.arrRef spec0 4)) = (m ((c.tc : Thread nD τ).loc main_arg5)) :=
  funext fun j => (entry0_row4 m ρ c (j 0)).trans (congrArg _ (eq_ix1 j).symm)
/-- The score region's weight row 5, read as a [1024] array, is argument 6. -/
theorem rowOf_entry0_5 (c : Dev nD) : rowOf (VA1 m ρ c (Pipeline.arrRef spec0 5)) = (m ((c.tc : Thread nD τ).loc main_arg6)) :=
  funext fun j => (entry0_row5 m ρ c (j 0)).trans (congrArg _ (eq_ix1 j).symm)
/-- The score region's weight row 6, read as a [1024] array, is argument 9. -/
theorem rowOf_entry0_6 (c : Dev nD) : rowOf (VA1 m ρ c (Pipeline.arrRef spec0 6)) = (m ((c.tc : Thread nD τ).loc main_arg9)) :=
  funext fun j => (entry0_row6 m ρ c (j 0)).trans (congrArg _ (eq_ix1 j).symm)
/-- The score region's weight row 7, read as a [1024] array, is argument 10. -/
theorem rowOf_entry0_7 (c : Dev nD) : rowOf (VA1 m ρ c (Pipeline.arrRef spec0 7)) = (m ((c.tc : Thread nD τ).loc main_arg10)) :=
  funext fun j => (entry0_row7 m ρ c (j 0)).trans (congrArg _ (eq_ix1 j).symm)
/-- The score region's weight row 8, read as a [1024] array, is argument 11. -/
theorem rowOf_entry0_8 (c : Dev nD) : rowOf (VA1 m ρ c (Pipeline.arrRef spec0 8)) = (m ((c.tc : Thread nD τ).loc main_arg11)) :=
  funext fun j => (entry0_row8 m ρ c (j 0)).trans (congrArg _ (eq_ix1 j).symm)
/-- The score region's weight row 9, read as a [1024] array, is argument 12. -/
theorem rowOf_entry0_9 (c : Dev nD) : rowOf (VA1 m ρ c (Pipeline.arrRef spec0 9)) = (m ((c.tc : Thread nD τ).loc main_arg12)) :=
  funext fun j => (entry0_row9 m ρ c (j 0)).trans (congrArg _ (eq_ix1 j).symm)

/-- The global attention array the output region finds: entry (bb, h, kd, qd) is the kernel-order softmax entry (qd, kd). -/
theorem attg_value (c : Dev nD) (bb : Fin 8) (h : Fin 4) (kd qd : Fin 256) :
    aG (VA3 m ρ) c (ix4 bb h kd qd) = katt (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) bb h qd kd := by
  show VA3 m ρ c (Pipeline.arrRef spec1 7) (ix4 bb h kd qd) = _
  rw [entry1_attg, final0_10 (VA1 m ρ) c, attT_ix4, entry0_q, entry0_k, rowOf_entry0_2, rowOf_entry0_3, rowOf_entry0_4, rowOf_entry0_5]

/-- The local attention array the output region finds. -/
theorem attl_value (c : Dev nD) (bb : Fin 8) (h : Fin 4) (kd qd : Fin 256) :
    aL (VA3 m ρ) c (ix4 bb h kd qd) = katt (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) bb h qd kd := by
  show VA3 m ρ c (Pipeline.arrRef spec1 8) (ix4 bb h kd qd) = _
  rw [entry1_attl, final0_11 (VA1 m ρ) c, attT_ix4, entry0_q, entry0_k, rowOf_entry0_6, rowOf_entry0_7, rowOf_entry0_8, rowOf_entry0_9]

/-- THE KERNEL'S VALUE: the result array after the run is the specification's function of the launch arrays. -/
theorem kernel_value (c : Dev nD) :
    (dat1 (VA3 m ρ) c).arrAt 9 cfg1.N = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (final1 (VA3 m ρ) c).trans
    ((KG1_eq_KG (VA3 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
        (entry1_v m ρ c) (entry1_row1 m ρ c) (entry1_row2 m ρ c) (entry1_row3 m ρ c) (entry1_row4 m ρ c) (entry1_row5 m ρ c) (entry1_row6 m ρ c)
        (attg_value m ρ c) (attl_value m ρ c)).trans
      (KG_eq_G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))))

end Cert.KernelIdeal.HandValue

end
-- ==== Proof.RefValue.lean ====
import proofs.«175229_j12481174962662_2_alg».proof.Proof.Gen.ReferenceIdeal.Run
import proofs.«175229_j12481174962662_2_alg».proof.Proof.Gen.ReferenceIdeal.Read
import proofs.«175229_j12481174962662_2_alg».proof.Proof.Spec
import Idealize.ShloMosaic.Lib.ValueIdx
import Idealize.ShloMosaic.Lib.Pipeline.Value
import Idealize.ShloMosaic.PureOps.Ideal.Laws

/-!
  The reference program's result is the specification `Cert.Spec.G`.

  The reference is two copies of one chain of whole-array operations — the per-channel affine maps, a reshape of the
  channel axis into (head, lane) and a transpose that brings the positions last, a contraction over the positions, the
  scaling, a row softmax, a contraction over the key lanes, and the transpose and reshape back — whose two results are
  added and sent through a last affine map. Each stage is read here at an index given by its coordinates, innermost
  first, so that every lemma is a few rewrites: the affine map, the transposed affine map, the score, the scaled
  score, the row maximum, the exponential, the row sum, the softmax weight, the mix, the mix back at a token index.
  The second copy's stages are the first copy's at the other weights, by unfolding.
-/

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- A token array at the ideal instance. -/
abbrev AX : Type := (⟨S8x4096x1024, .f32⟩ : BufTy).Contents (Elt Ideal)
/-- A per-channel array at the ideal instance. -/
abbrev AW : Type := (⟨S1024, .f32⟩ : BufTy).Contents (Elt Ideal)

/-! ## The affine maps -/

/-- x · w + b, after the two broadcasts of w and of b, at (batch, position, channel). -/
theorem aff_v5 (x0 : AX) (x3 x4 : AW) (bb : Fin 8) (n : Fin 4096) (c : Fin 1024) :
    val_main_v5 (F := Ideal) x0 x3 x4 (ix3 bb n c) = aff x0 x3 x4 bb n c := by
  rw [val_main_v5_apply, val_main_v2_apply, val_main_v1_apply, val_main_v0_apply, val_main_v4_apply,
    val_main_v3_apply]
  rw [show idx_main_v0 (idx_main_v1 (ix3 bb n c)) = ix1 c from
        funext fun a => Fin.ext (by match a with | ⟨0, _⟩ => rfl),
    show idx_main_v3 (idx_main_v4 (ix3 bb n c)) = ix1 c from
        funext fun a => Fin.ext (by match a with | ⟨0, _⟩ => rfl)]
  rfl

/-- The reshape (channel = head · 256 + lane) and the transpose (positions last) read the affine image at
    (batch, position, channel of that head and lane). -/
theorem aff_v19 (x0 : AX) (x3 x4 : AW) (bb : Fin 8) (h : Fin 4) (d : Fin 256) (n : Fin 4096) :
    val_main_v19 (F := Ideal) x0 x3 x4 (ix4 bb h d n) = aff x0 x3 x4 bb n (chan h d) := by
  rw [val_main_v19_apply, val_main_v18_apply]
  rw [show idx_main_v18 (idx_main_v19 (ix4 bb h d n)) = ix3 bb n (chan h d) from
        funext fun a => Fin.ext (by
          have := bb.isLt; have := h.isLt; have := d.isLt; have := n.isLt
          match a with
          | ⟨0, _⟩ =>
            show (((bb.val * 4096 + n.val) * 4 + h.val) * 256 + d.val) / 4194304 = bb.val; omega
          | ⟨1, _⟩ =>
            show (((bb.val * 4096 + n.val) * 4 + h.val) * 256 + d.val) / 1024 % 4096 = n.val; omega
          | ⟨2, _⟩ =>
            show (((bb.val * 4096 + n.val) * 4 + h.val) * 256 + d.val) % 1024 = h.val * 256 + d.val; omega)]
  exact aff_v5 x0 x3 x4 bb n (chan h d)

/-- The same for k: its stages are q's at k's array and weights. -/
theorem aff_v21 (x1 : AX) (x5 x6 : AW) (bb : Fin 8) (h : Fin 4) (d : Fin 256) (n : Fin 4096) :
    val_main_v21 (F := Ideal) x1 x5 x6 (ix4 bb h d n) = aff x1 x5 x6 bb n (chan h d) :=
  aff_v19 x1 x5 x6 bb h d n

/-- The same for v. -/
theorem aff_v23 (x2 : AX) (x7 x8 : AW) (bb : Fin 8) (h : Fin 4) (d : Fin 256) (n : Fin 4096) :
    val_main_v23 (F := Ideal) x2 x7 x8 (ix4 bb h d n) = aff x2 x7 x8 bb n (chan h d) :=
  aff_v19 x2 x7 x8 bb h d n

/-! ## The score and its scaling -/

/-- The contraction over the positions: the score of query lane `qd` against key lane `kd`. -/
theorem score_v24 (x0 x1 : AX) (x3 x4 x5 x6 : AW) (bb : Fin 8) (h : Fin 4) (qd kd : Fin 256) :
    val_main_v24 (F := Ideal) x0 x1 x3 x4 x5 x6 (ix4 bb h qd kd) = score x0 x1 x3 x4 x5 x6 bb h qd kd := by
  rw [val_main_v24_apply]
  unfold score
  refine Finset.sum_congr rfl fun n _ => ?_
  rw [show lidx_main_v24 (ix4 bb h qd kd) n = ix4 bb h qd n from
        funext fun a => Fin.ext (by match a with | ⟨0, _⟩ => rfl | ⟨1, _⟩ => rfl | ⟨2, _⟩ => rfl | ⟨3, _⟩ => rfl),
    show ridx_main_v24 (ix4 bb h qd kd) n = ix4 bb h kd n from
        funext fun a => Fin.ext (by match a with | ⟨0, _⟩ => rfl | ⟨1, _⟩ => rfl | ⟨2, _⟩ => rfl | ⟨3, _⟩ => rfl),
    aff_v19, aff_v21]

/-- The score times the broadcast scale. -/
theorem scaled_v26 (x0 x1 : AX) (x3 x4 x5 x6 : AW) (bb : Fin 8) (h : Fin 4) (qd kd : Fin 256) :
    val_main_v26 (F := Ideal) x0 x1 x3 x4 x5 x6 (ix4 bb h qd kd) = scaled x0 x1 x3 x4 x5 x6 bb h qd kd := by
  rw [val_main_v26_apply, val_main_v25_apply, val_main_cst_apply, score_v24]
  rfl

/-! ## The row softmax -/

/-- Dropping the key-lane axis of a (batch, head, query lane, key lane) index. -/
theorem reduces_kd : S8x4x256x256.Reduces [3] S8x4x256 := by decide

/-- The reduction over the key lanes, a fold of `max` from the initial value over that axis's coordinates, and the
    further `max` against the broadcast −∞. -/
theorem rowmax_v29 (x0 x1 : AX) (x3 x4 x5 x6 : AW) (bb : Fin 8) (h : Fin 4) (qd : Fin 256) :
    val_main_v29 (F := Ideal) x0 x1 x3 x4 x5 x6 (ix3 bb h qd) = rowmax x0 x1 x3 x4 x5 x6 bb h qd := by
  rw [val_main_v29_apply, val_main_v28_apply, val_main_cst_1_apply]
  unfold val_main_v27
  rw [Host.reduce_eq_fold_single FloatOps.maximumf _ _ reducesTo_S8x4x256x256_S8x4x256_d3 reduces_kd h_S_]
  have hf : (val_main_v26 (F := Ideal) x0 x1 x3 x4 x5 x6 ∘ reduces_kd.lift (ix3 bb h qd))
      = fun kd : Fin 256 => scaled x0 x1 x3 x4 x5 x6 bb h qd kd := funext fun kd => by
    show val_main_v26 (F := Ideal) x0 x1 x3 x4 x5 x6 (reduces_kd.lift (ix3 bb h qd) kd) = _
    rw [show reduces_kd.lift (ix3 bb h qd) kd = ix4 bb h qd kd from
      funext fun a => Fin.ext (by match a with | ⟨0, _⟩ => rfl | ⟨1, _⟩ => rfl | ⟨2, _⟩ => rfl | ⟨3, _⟩ => rfl)]
    exact scaled_v26 x0 x1 x3 x4 x5 x6 bb h qd kd
  rw [hf]
  rfl

/-- The exponential of the scaled score less the row's maximum, broadcast back along the key lanes. -/
theorem e_v33 (x0 x1 : AX) (x3 x4 x5 x6 : AW) (bb : Fin 8) (h : Fin 4) (qd kd : Fin 256) :
    val_main_v33 (F := Ideal) x0 x1 x3 x4 x5 x6 (ix4 bb h qd kd) = e x0 x1 x3 x4 x5 x6 bb h qd kd := by
  rw [val_main_v33_apply, val_main_v32_apply, val_main_v31_apply, val_main_v30_apply, scaled_v26]
  rw [show idx_main_v30 (idx_main_v31 (ix4 bb h qd kd)) = ix3 bb h qd from
        funext fun a => Fin.ext (by match a with | ⟨0, _⟩ => rfl | ⟨1, _⟩ => rfl | ⟨2, _⟩ => rfl),
    rowmax_v29]
  rfl

/-- The row's sum: the reduction starts from the zero word, and 0 + x = x. -/
theorem sum_v34 (x0 x1 : AX) (x3 x4 x5 x6 : AW) (bb : Fin 8) (h : Fin 4) (qd : Fin 256) :
    val_main_v34 (F := Ideal) x0 x1 x3 x4 x5 x6 (ix3 bb h qd)
      = ∑ kd : Fin 256, e x0 x1 x3 x4 x5 x6 bb h qd kd := by
  rw [val_main_v34_apply, val_main_cst_2_apply, Ideal.ofBits_def, Ideal.ofBits_zero_f32, zero_add]
  refine Finset.sum_congr rfl fun kd _ => ?_
  rw [show idx_main_v34 (ix3 bb h qd) kd = ix4 bb h qd kd from
        funext fun a => Fin.ext (by match a with | ⟨0, _⟩ => rfl | ⟨1, _⟩ => rfl | ⟨2, _⟩ => rfl | ⟨3, _⟩ => rfl),
    e_v33]

/-- The softmax weight: the exponential divided by the row's sum, broadcast back along the key lanes. -/
theorem att_v37 (x0 x1 : AX) (x3 x4 x5 x6 : AW) (bb : Fin 8) (h : Fin 4) (qd kd : Fin 256) :
    val_main_v37 (F := Ideal) x0 x1 x3 x4 x5 x6 (ix4 bb h qd kd) = att x0 x1 x3 x4 x5 x6 bb h qd kd := by
  rw [val_main_v37_apply, val_main_v36_apply, val_main_v35_apply, e_v33]
  rw [show idx_main_v35 (idx_main_v36 (ix4 bb h qd kd)) = ix3 bb h qd from
        funext fun a => Fin.ext (by match a with | ⟨0, _⟩ => rfl | ⟨1, _⟩ => rfl | ⟨2, _⟩ => rfl),
    sum_v34]
  rfl

/-! ## The mix -/

/-- The contraction over the key lanes, at (batch, head, query lane, position). -/
theorem mix_v38 (x0 x1 x2 : AX) (x3 x4 x5 x6 x7 x8 : AW) (bb : Fin 8) (h : Fin 4) (qd : Fin 256) (n : Fin 4096) :
    val_main_v38 (F := Ideal) x0 x1 x2 x3 x4 x5 x6 x7 x8 (ix4 bb h qd n)
      = mix x0 x1 x2 x3 x4 x5 x6 x7 x8 bb n h qd := by
  rw [val_main_v38_apply]
  unfold mix
  refine Finset.sum_congr rfl fun kd _ => ?_
  rw [show lidx_main_v38 (ix4 bb h qd n) kd = ix4 bb h qd kd from
        funext fun a => Fin.ext (by match a with | ⟨0, _⟩ => rfl | ⟨1, _⟩ => rfl | ⟨2, _⟩ => rfl | ⟨3, _⟩ => rfl),
    show ridx_main_v38 (ix4 bb h qd n) kd = ix4 bb h kd n from
        funext fun a => Fin.ext (by match a with | ⟨0, _⟩ => rfl | ⟨1, _⟩ => rfl | ⟨2, _⟩ => rfl | ⟨3, _⟩ => rfl),
    att_v37, aff_v23]

/-- The transpose back (positions second) and the reshape of (head, lane) into the channel: at a token index the
    mix of the channel's head and lane. -/
theorem mix_v40 (x0 x1 x2 : AX) (x3 x4 x5 x6 x7 x8 : AW) (bb : Fin 8) (n : Fin 4096) (ch : Fin 1024) :
    val_main_v40 (F := Ideal) x0 x1 x2 x3 x4 x5 x6 x7 x8 (ix3 bb n ch)
      = mix x0 x1 x2 x3 x4 x5 x6 x7 x8 bb n (head ch) (lane ch) := by
  rw [val_main_v40_apply, val_main_v39_apply]
  rw [show idx_main_v39 (idx_main_v40 (ix3 bb n ch)) = ix4 bb (head ch) (lane ch) n from
        funext fun a => Fin.ext (by
          have := bb.isLt; have := n.isLt; have := ch.isLt
          match a with
          | ⟨0, _⟩ => show ((bb.val * 4096 + n.val) * 1024 + ch.val) / 4194304 = bb.val; omega
          | ⟨1, _⟩ => show ((bb.val * 4096 + n.val) * 1024 + ch.val) / 256 % 4 = ch.val / 256; omega
          | ⟨2, _⟩ => show ((bb.val * 4096 + n.val) * 1024 + ch.val) % 256 = ch.val % 256; omega
          | ⟨3, _⟩ => show ((bb.val * 4096 + n.val) * 1024 + ch.val) / 1024 % 4096 = n.val; omega)]
  exact mix_v38 x0 x1 x2 x3 x4 x5 x6 x7 x8 bb (head ch) (lane ch) n

/-- The second copy of the chain is the first at the other six weight arrays: stage by stage the same operations. -/
theorem v81_eq_v40 (x0 x1 x2 : AX) (x9 x10 x11 x12 x13 x14 : AW) :
    val_main_v81 (F := Ideal) x0 x1 x2 x9 x10 x11 x12 x13 x14
      = val_main_v40 (F := Ideal) x0 x1 x2 x9 x10 x11 x12 x13 x14 := rfl

/-! ## The result -/

/-- The reference's result is `G` of its seventeen arguments. -/
theorem ref_eq (x0 x1 x2 : AX) (x3 x4 x5 x6 x7 x8 x9 x10 x11 x12 x13 x14 x15 x16 : AW) :
    Cert.ReferenceIdeal.Read.val_main_v88 (F := Ideal) x0 x1 x2 x3 x4 x5 x6 x7 x8 x9 x10 x11 x12 x13 x14 x15 x16
      = Cert.Spec.G x0 x1 x2 x3 x4 x5 x6 x7 x8 x9 x10 x11 x12 x13 x14 x15 x16 := by
  funext i
  obtain ⟨bb, n, ch, rfl⟩ : ∃ (bb : Fin 8) (n : Fin 4096) (ch : Fin 1024), i = ix3 bb n ch :=
    ⟨i 0, i 1, i 2, eq_ix3 i⟩
  rw [G_ix3, val_main_v88_apply, val_main_v87_apply, val_main_v86_apply, val_main_v85_apply, val_main_v84_apply,
    val_main_v83_apply, val_main_v82_apply]
  rw [show idx_main_v86 (idx_main_v87 (ix3 bb n ch)) = ix1 ch from
        funext fun a => Fin.ext (by match a with | ⟨0, _⟩ => rfl),
    show idx_main_v83 (idx_main_v84 (ix3 bb n ch)) = ix1 ch from
        funext fun a => Fin.ext (by match a with | ⟨0, _⟩ => rfl),
    v81_eq_v40, mix_v40, mix_v40]
  rfl

end Cert.ReferenceIdeal.RefValue

end
-- ==== Proof.lean ====
/- Channel attention with a global and a local branch, computed by two pipelined kernels, against its whole-array
   reference, at the ideal instance (floats as extended reals, every operation exact).

   With aff(x, w, b)[bb, n, ch] = x[bb, n, ch] · w[ch] + b[ch], a head h and a channel ch = h·256 + d:
   score[bb, h, qd, kd] = Σ_{n < 4096} aff(q)[bb, n, h·256+qd] · aff(k)[bb, n, h·256+kd]; the attention is the softmax over kd of
   score · 2⁻⁵ (maximum with −∞, subtraction, exponential, division by the row sum); a branch's mix is
   Σ_kd att[bb, h, qd, kd] · aff(v)[bb, n, h·256+kd]; the result is (mix_global + mix_local) · wp + bp.

   The first kernel runs over 8 batches × 2 token tiles: at the first tile of a batch it resets two score accumulators
   and adds that tile's partial scores, head by head; at the second it adds the second tile's partial scores to what the
   first left, applies the softmax and stores it TRANSPOSED. The second kernel, per head, contracts the row-concatenation
   [v_global | v_local] (2048 × 512) against the stacked transposed attentions (512 × 256) and applies · wp + bp. The two
   sides are equal by re-grouping: a sum over 4096 tokens is zero plus the sum over the first 2048 plus the sum over the
   last 2048; a sum over 512 concatenated entries is the sum over the first 256 plus the sum over the last 256; a product
   commutes. No law that fails at an infinity is used, so the precondition is never opened.

   The frames: each kernel program runs to the end, faults nowhere and leaves its arguments unchanged, by the launch theorem
   for a host program of several kernel regions; the first region's invariant carries the two accumulators from point to point
   at their stated contents. The reference's frame and value are its generated run, read one operation at a time. -/
import proofs.«175229_j12481174962662_2_alg».proof.Defs
import proofs.«175229_j12481174962662_2_alg».proof.Proof.KBFrame
import proofs.«175229_j12481174962662_2_alg».proof.Proof.KIFrame
import proofs.«175229_j12481174962662_2_alg».proof.Proof.KIValue
import proofs.«175229_j12481174962662_2_alg».proof.Proof.RefValue
import proofs.«175229_j12481174962662_2_alg».proof.Proof.Gen.Kernel
import proofs.«175229_j12481174962662_2_alg».proof.Proof.Gen.KernelIdeal
import proofs.«175229_j12481174962662_2_alg».proof.Proof.Gen.ReferenceIdeal
import proofs.«175229_j12481174962662_2_alg».proof.Proof.Gen.ReferenceIdeal.Run
import proofs.«175229_j12481174962662_2_alg».proof.Proof.Gen.ReferenceIdeal.Read
import proofs.«175229_j12481174962662_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments unchanged. -/
theorem frame_k : Cert.frame_Kernel := fun m ρ _ => Cert.Kernel.Hand.frame (F := Bits) m ρ

/-- So does its reading at the ideal instance. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- Both runs end with the result array at ONE function of the argument arrays: the kernel's by its two regions' write-backs
    read as whole arrays and re-grouped, the reference's by its operations read at an index; the arguments agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.HandValue.kernel_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, Cert.ReferenceIdeal.RefValue.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
